-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v15)) (v2 : (c : Dev Cert.KernelIdeal.nD) → Buf (Elt Ideal) ((c.tc : Thread Cert.KernelIdeal.nD Cert.KernelIdeal.τ).loc Cert.KernelIdeal.main_v19)) (v3 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_v15) = v1 c
          ∧ r.2.mem ((c.tc : Thread Cert.KernelIdeal.nD Cert.KernelIdeal.τ).loc Cert.KernelIdeal.main_v19) = v2 c
          ∧ r.2.mem ((c.tc : Thread Cert.KernelIdeal.nD Cert.KernelIdeal.τ).loc Cert.KernelIdeal.main_v20) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_v34) = v2 c
          ∧ r.2.mem ((c.tc : Thread Cert.ReferenceIdeal.nD Cert.ReferenceIdeal.τ).loc Cert.ReferenceIdeal.main_v35) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S33554432 : Shape := ⟨1, ![33554432]⟩
abbrev S_ : Shape := ⟨0, ![]⟩

class Facts : Prop where
  bcast_S_S33554432 : S_.BroadcastsInDim S33554432 (![] : Fin 0 → Fin S33554432.rank)
  reducesTo_S33554432_S_d0 : S33554432.ReducesTo [0] S_
  h_S_ : 0 < S_.numel

variable [Facts]

def fn {F : FTy → Type} [FloatOps F] (main_arg0 : FVec F S33554432 .f32) (main_arg1 : IVec S33554432 32) : IVec S_ 1 :=
  let main_v0 : FVec F S33554432 .f32 := Host.absf main_arg0
  let main_cst : FVec F S_ .f32 := constant S_ .f32 0x7F800000#32
  let main_v1 : FVec F S33554432 .f32 := broadcastInDim S33554432 ![] bcast_S_S33554432 main_cst
  let main_v2 : IVec S33554432 1 := cmpf .olt main_v0 main_v1
  let main_c : IVec S_ 1 := constantI S_ 1 1#1
  let main_v3 : IVec S_ 1 := (fun x v => Host.reduce IntOp.andi x v reducesTo_S33554432_S_d0 h_S_) main_v2 main_c
  main_v3
-- ==== Kernel.lean ====
abbrev S33554432 : Shape := ⟨1, ![33554432]⟩
abbrev S262144x128 : Shape := ⟨2, ![262144, 128]⟩
abbrev S2x16x128 : Shape := ⟨3, ![2, 16, 128]⟩
abbrev S4096x128 : Shape := ⟨2, ![4096, 128]⟩
abbrev S1x16x128 : Shape := ⟨3, ![1, 16, 128]⟩
abbrev S16x128 : Shape := ⟨2, ![16, 128]⟩
abbrev S128 : Shape := ⟨1, ![128]⟩
abbrev S1x128 : Shape := ⟨2, ![1, 128]⟩
abbrev S_ : Shape := ⟨0, ![]⟩
abbrev S16 : Shape := ⟨1, ![16]⟩
abbrev S10 : Shape := ⟨1, ![10]⟩

abbrev nBuf : Space → Nat
  | .hbm => 43
  | .vmem => 13
  | .smem => 0
  | _ => 0

abbrev bufTy : (tb : Table) → Fin (tcTables nBuf tb) → BufTy
  | .hbm, ⟨0, _⟩ => ⟨S33554432, .f32⟩
  | .hbm, ⟨1, _⟩ => ⟨S33554432, .i32⟩
  | .hbm, ⟨2, _⟩ => ⟨S262144x128, .f32⟩
  | .hbm, ⟨3, _⟩ => ⟨S262144x128, .i32⟩
  | .hbm, ⟨4, _⟩ => ⟨S2x16x128, .f32⟩
  | .hbm, ⟨5, _⟩ => ⟨S2x16x128, .f32⟩
  | .hbm, ⟨6, _⟩ => ⟨S2x16x128, .f32⟩
  | .hbm, ⟨7, _⟩ => ⟨S_, .f32⟩
  | .hbm, ⟨8, _⟩ => ⟨S16, .f32⟩
  | .hbm, ⟨9, _⟩ => ⟨S10, .f32⟩
  | .hbm, ⟨10, _⟩ => ⟨S_, .f32⟩
  | .hbm, ⟨11, _⟩ => ⟨S16, .f32⟩
  | .hbm, ⟨12, _⟩ => ⟨S10, .f32⟩
  | .hbm, ⟨13, _⟩ => ⟨S_, .f32⟩
  | .hbm, ⟨14, _⟩ => ⟨S16, .f32⟩
  | .hbm, ⟨15, _⟩ => ⟨S10, .f32⟩
  | .hbm, ⟨16, _⟩ => ⟨S_, .f32⟩
  | .hbm, ⟨17, _⟩ => ⟨S10, .f32⟩
  | .hbm, ⟨18, _⟩ => ⟨S10, .i1⟩
  | .hbm, ⟨19, _⟩ => ⟨S_, .f32⟩
  | .hbm, ⟨20, _⟩ => ⟨S_, .f32⟩
  | .hbm, ⟨21, _⟩ => ⟨S10, .f32⟩
  | .hbm, ⟨22, _⟩ => ⟨S10, .f32⟩
  | .hbm, ⟨23, _⟩ => ⟨S10, .f32⟩
  | .hbm, ⟨24, _⟩ => ⟨S_, .f32⟩
  | .hbm, ⟨25, _⟩ => ⟨S_, .f32⟩
  | .hbm, ⟨26, _⟩ => ⟨S10, .f32⟩
  | .hbm, ⟨27, _⟩ => ⟨S10, .f32⟩
  | .hbm, ⟨28, _⟩ => ⟨S10, .f32⟩
  | .hbm, ⟨29, _⟩ => ⟨S_, .f32⟩
  | .hbm, ⟨30, _⟩ => ⟨S_, .f32⟩
  | .hbm, ⟨31, _⟩ => ⟨S10, .f32⟩
  | .hbm, ⟨32, _⟩ => ⟨S10, .f32⟩
  | .hbm, ⟨33, _⟩ => ⟨S10, .f32⟩
  | .hbm, ⟨34, _⟩ => ⟨S10, .f32⟩
  | .hbm, ⟨35, _⟩ => ⟨S_, .f32⟩
  | .hbm, ⟨36, _⟩ => ⟨S_, .f32⟩
  | .hbm, ⟨37, _⟩ => ⟨S10, .f32⟩
  | .hbm, ⟨38, _⟩ => ⟨S10, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .local _ .vmem, ⟨0, _⟩ => ⟨S4096x128, .f32⟩
  | .local _ .vmem, ⟨1, _⟩ => ⟨S4096x128, .f32⟩
  | .local _ .vmem, ⟨2, _⟩ => ⟨S4096x128, .i32⟩
  | .local _ .vmem, ⟨3, _⟩ => ⟨S4096x128, .i32⟩
  | .local _ .vmem, ⟨4, _⟩ => ⟨S1x16x128, .f32⟩
  | .local _ .vmem, ⟨5, _⟩ => ⟨S1x16x128, .f32⟩
  | .local _ .vmem, ⟨6, _⟩ => ⟨S1x16x128, .f32⟩
  | .local _ .vmem, ⟨7, _⟩ => ⟨S1x16x128, .f32⟩
  | .local _ .vmem, ⟨8, _⟩ => ⟨S1x16x128, .f32⟩
  | .local _ .vmem, ⟨9, _⟩ => ⟨S1x16x128, .f32⟩
  | .local _ .vmem, ⟨10, _⟩ => ⟨S16x128, .f32⟩
  | .local _ .vmem, ⟨11, _⟩ => ⟨S16x128, .f32⟩
  | .local _ .vmem, ⟨12, _⟩ => ⟨S16x128, .f32⟩
  | _, _ => ⟨S33554432, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_call0_v0 : Ref sig .tc := ⟨.hbm, 20, rfl⟩
abbrev main_call0_v1 : Ref sig .tc := ⟨.hbm, 21, rfl⟩
abbrev main_v11 : Ref sig .tc := ⟨.hbm, 22, rfl⟩
abbrev main_v12 : Ref sig .tc := ⟨.hbm, 23, rfl⟩
abbrev main_cst_4 : Ref sig .tc := ⟨.hbm, 24, rfl⟩
abbrev main_call1_v0 : Ref sig .tc := ⟨.hbm, 25, rfl⟩
abbrev main_call1_v1 : Ref sig .tc := ⟨.hbm, 26, rfl⟩
abbrev main_v13 : Ref sig .tc := ⟨.hbm, 27, rfl⟩
abbrev main_v14 : Ref sig .tc := ⟨.hbm, 28, rfl⟩
abbrev main_cst_5 : Ref sig .tc := ⟨.hbm, 29, rfl⟩
abbrev main_call2_v0 : Ref sig .tc := ⟨.hbm, 30, rfl⟩
abbrev main_call2_v1 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_6 : Ref sig .tc := ⟨.hbm, 35, rfl⟩
abbrev main_call3_v0 : Ref sig .tc := ⟨.hbm, 36, rfl⟩
abbrev main_call3_v1 : Ref sig .tc := ⟨.hbm, 37, rfl⟩
abbrev main_v18 : Ref sig .tc := ⟨.hbm, 38, rfl⟩
abbrev main_cst_7 : Ref sig .tc := ⟨.hbm, 39, rfl⟩
abbrev main_v19 : Ref sig .tc := ⟨.hbm, 40, rfl⟩
abbrev main_cst_8 : Ref sig .tc := ⟨.hbm, 41, rfl⟩
abbrev main_v20 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v289 : BitVec 1 := Scalar.cmpi .eq arg1 c31_i32
  let v290 : BitVec 32 := Scalar.extui v289
  let c0_i32_149 : BitVec 32 := 0#32
  let v291 : BitVec 1 := Scalar.cmpi .ne v290 c0_i32_149
  v291

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x16x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S33554432_S262144x128 : S33554432.ShapeCasts S262144x128
  inb_S16x128_S16x128_0_0 : ∀ a, (![0, 0] : Fin 2 → Nat) a + S16x128.size a ≤ S16x128.size a
  h_S16x128 : 0 < S16x128.numel
  shapeCasts_S16x128_S16x128 : S16x128.ShapeCasts S16x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  natLt_1_32 : 1 < 32
  reduces_S4096x128_S128 : S4096x128.Reduces [0] S128
  shapeCasts_S128_S1x128 : S128.ShapeCasts S1x128
  inb_S16x128_S1x128_0_0 : ∀ a, (![0, 0] : Fin 2 → Nat) a + S1x128.size a ≤ S16x128.size a
  h_S1x128 : 0 < S1x128.numel
  shapeCasts_S1x128_S1x128 : S1x128.ShapeCasts S1x128
  inb_S16x128_S1x128_1_0 : ∀ a, (![1, 0] : Fin 2 → Nat) a + S1x128.size a ≤ S16x128.size a
  inb_S16x128_S1x128_2_0 : ∀ a, (![2, 0] : Fin 2 → Nat) a + S1x128.size a ≤ S16x128.size a
  inb_S16x128_S1x128_3_0 : ∀ a, (![3, 0] : Fin 2 → Nat) a + S1x128.size a ≤ S16x128.size a
  inb_S16x128_S1x128_4_0 : ∀ a, (![4, 0] : Fin 2 → Nat) a + S1x128.size a ≤ S16x128.size a
  inb_S16x128_S1x128_5_0 : ∀ a, (![5, 0] : Fin 2 → Nat) a + S1x128.size a ≤ S16x128.size a
  inb_S16x128_S1x128_6_0 : ∀ a, (![6, 0] : Fin 2 → Nat) a + S1x128.size a ≤ S16x128.size a
  inb_S16x128_S1x128_7_0 : ∀ a, (![7, 0] : Fin 2 → Nat) a + S1x128.size a ≤ S16x128.size a
  inb_S16x128_S1x128_8_0 : ∀ a, (![8, 0] : Fin 2 → Nat) a + S1x128.size a ≤ S16x128.size a
  inb_S16x128_S1x128_9_0 : ∀ a, (![9, 0] : Fin 2 → Nat) a + S1x128.size a ≤ S16x128.size a
  inb_S1x16x128_S1x16x128_0_0_0 : ∀ a, (![0, 0, 0] : Fin 3 → Nat) a + S1x16x128.size a ≤ S1x16x128.size a
  h_S1x16x128 : 0 < S1x16x128.numel
  shapeCasts_S1x16x128_S16x128 : S1x16x128.ShapeCasts S16x128
  shapeCasts_S16x128_S1x16x128 : S16x128.ShapeCasts S1x16x128
  reducesTo_S2x16x128_S16_d0_2 : S2x16x128.ReducesTo [0, 2] S16
  h_S_ : 0 < S_.numel
  slices_S16_S10_0 : S16.Slices ![0] S10
  bcast_S_S10 : S_.BroadcastsInDim S10 (![] : Fin 0 → Fin S10.rank)
  reducesTo_S10_S_d0 : S10.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S262144x128.size a
  hwx0_0 : ∀ i : grid0.Coords, EltTy.bits .f32 = 32 ∨ (Rect.block (s := S262144x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S262144x128.size a
  hwx0_1 : ∀ i : grid0.Coords, EltTy.bits .i32 = 32 ∨ (Rect.block (s := S262144x128) S4096x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x128.size a ≤ S2x16x128.size a
  hwx0_2 : ∀ i : grid0.Coords, EltTy.bits .f32 = 32 ∨ (Rect.block (s := S2x16x128) S1x16x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x16x128.size a ≤ S2x16x128.size a
  hwx0_3 : ∀ i : grid0.Coords, EltTy.bits .f32 = 32 ∨ (Rect.block (s := S2x16x128) S1x16x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x16x128.size a ≤ S2x16x128.size a
  hwx0_4 : ∀ i : grid0.Coords, EltTy.bits .f32 = 32 ∨ (Rect.block (s := S2x16x128) S1x16x128.size (cc0_transform_4 i) (hinb0_4 i)).WholeWords (EltTy.packing .f32)

variable [Facts₀]

abbrev win0_0 : Pipeline.Window sig grid0 :=
  Pipeline.Window.ofSpec (Memref.whole main_v0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x16x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x16x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_2) S1x16x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun i => !(k0_cond2 i == 1#1) | 3 => fun i => !(k0_cond2 i == 1#1) | 4 => fun i => !(k0_cond2 i == 1#1) | ⟨_ + 5, h⟩ => absurd h (Nat.not_lt.2 (Nat.le_add_left _ _))

class Facts : Prop extends Facts₀ where

variable [Facts]
-- ==== ReferenceIdeal.lean ====
abbrev S33554432 : Shape := ⟨1, ![33554432]⟩
abbrev S_ : Shape := ⟨0, ![]⟩
abbrev S10 : Shape := ⟨1, ![10]⟩
abbrev S33554432x1 : Shape := ⟨2, ![33554432, 1]⟩

abbrev nBuf : Space → Nat
  | .hbm => 68
  | .vmem => 0
  | .smem => 0
  | _ => 0

abbrev bufTy : (tb : Table) → Fin (tcTables nBuf tb) → BufTy
  | .hbm, ⟨0, _⟩ => ⟨S33554432, .f32⟩
  | .hbm, ⟨1, _⟩ => ⟨S33554432, .i32⟩
  | .hbm, ⟨2, _⟩ => ⟨S33554432, .f32⟩
  | .hbm, ⟨3, _⟩ => ⟨S33554432, .f32⟩
  | .hbm, ⟨4, _⟩ => ⟨S_, .f32⟩
  | .hbm, ⟨5, _⟩ => ⟨S33554432, .f32⟩
  | .hbm, ⟨6, _⟩ => ⟨S33554432, .f32⟩
  | .hbm, ⟨7, _⟩ => ⟨S_, .f32⟩
  | .hbm, ⟨8, _⟩ => ⟨S33554432, .f32⟩
  | .hbm, ⟨9, _⟩ => ⟨S33554432, .f32⟩
  | .hbm, ⟨10, _⟩ => ⟨S_, .f32⟩
  | .hbm, ⟨11, _⟩ => ⟨S33554432, .f32⟩
  | .hbm, ⟨12, _⟩ => ⟨S33554432, .f32⟩
  | .hbm, ⟨13, _⟩ => ⟨S33554432, .f32⟩
  | .hbm, ⟨14, _⟩ => ⟨S33554432, .i32⟩
  | .hbm, ⟨15, _⟩ => ⟨S_, .i32⟩
  | .hbm, ⟨16, _⟩ => ⟨S33554432, .i32⟩
  | .hbm, ⟨17, _⟩ => ⟨S33554432, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S33554432, .i32⟩
  | .hbm, ⟨22, _⟩ => ⟨S33554432, .i32⟩
  | .hbm, ⟨23, _⟩ => ⟨S_, .i32⟩
  | .hbm, ⟨24, _⟩ => ⟨S33554432, .i32⟩
  | .hbm, ⟨25, _⟩ => ⟨S33554432, .i32⟩
  | .hbm, ⟨26, _⟩ => ⟨S_, .f32⟩
  | .hbm, ⟨27, _⟩ => ⟨S33554432, .f32⟩
  | .hbm, ⟨28, _⟩ => ⟨S_, .f32⟩
  | .hbm, ⟨29, _⟩ => ⟨S10, .f32⟩
  | .hbm, ⟨30, _⟩ => ⟨S33554432x1, .i32⟩
  | .hbm, ⟨31, _⟩ => ⟨S10, .f32⟩
  | .hbm, ⟨32, _⟩ => ⟨S33554432, .f32⟩
  | .hbm, ⟨33, _⟩ => ⟨S_, .f32⟩
  | .hbm, ⟨34, _⟩ => ⟨S10, .f32⟩
  | .hbm, ⟨35, _⟩ => ⟨S33554432x1, .i32⟩
  | .hbm, ⟨36, _⟩ => ⟨S10, .f32⟩
  | .hbm, ⟨37, _⟩ => ⟨S_, .f32⟩
  | .hbm, ⟨38, _⟩ => ⟨S10, .f32⟩
  | .hbm, ⟨39, _⟩ => ⟨S33554432x1, .i32⟩
  | .hbm, ⟨40, _⟩ => ⟨S10, .f32⟩
  | .hbm, ⟨41, _⟩ => ⟨S_, .f32⟩
  | .hbm, ⟨42, _⟩ => ⟨S10, .f32⟩
  | .hbm, ⟨43, _⟩ => ⟨S10, .i1⟩
  | .hbm, ⟨44, _⟩ => ⟨S_, .f32⟩
  | .hbm, ⟨45, _⟩ => ⟨S_, .f32⟩
  | .hbm, ⟨46, _⟩ => ⟨S10, .f32⟩
  | .hbm, ⟨47, _⟩ => ⟨S10, .f32⟩
  | .hbm, ⟨48, _⟩ => ⟨S10, .f32⟩
  | .hbm, ⟨49, _⟩ => ⟨S_, .f32⟩
  | .hbm, ⟨50, _⟩ => ⟨S_, .f32⟩
  | .hbm, ⟨51, _⟩ => ⟨S10, .f32⟩
  | .hbm, ⟨52, _⟩ => ⟨S10, .f32⟩
  | .hbm, ⟨53, _⟩ => ⟨S10, .f32⟩
  | .hbm, ⟨54, _⟩ => ⟨S_, .f32⟩
  | .hbm, ⟨55, _⟩ => ⟨S_, .f32⟩
  | .hbm, ⟨56, _⟩ => ⟨S10, .f32⟩
  | .hbm, ⟨57, _⟩ => ⟨S10, .f32⟩
  | .hbm, ⟨58, _⟩ => ⟨S10, .f32⟩
  | .hbm, ⟨59, _⟩ => ⟨S10, .f32⟩
  | .hbm, ⟨60, _⟩ => ⟨S_, .f32⟩
  | .hbm, ⟨61, _⟩ => ⟨S_, .f32⟩
  | .hbm, ⟨62, _⟩ => ⟨S10, .f32⟩
  | .hbm, ⟨63, _⟩ => ⟨S10, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | _, _ => ⟨S33554432, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_c_2 : Ref sig .tc := ⟨.hbm, 18, rfl⟩
abbrev main_c_3 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_cst_5 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_6 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_7 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_8 : Ref sig .tc := ⟨.hbm, 41, rfl⟩
abbrev main_v24 : Ref sig .tc := ⟨.hbm, 42, rfl⟩
abbrev main_v25 : Ref sig .tc := ⟨.hbm, 43, rfl⟩
abbrev main_cst_9 : Ref sig .tc := ⟨.hbm, 44, rfl⟩
abbrev main_call1_v0 : Ref sig .tc := ⟨.hbm, 45, rfl⟩
abbrev main_call1_v1 : Ref sig .tc := ⟨.hbm, 46, rfl⟩
abbrev main_v26 : Ref sig .tc := ⟨.hbm, 47, rfl⟩
abbrev main_v27 : Ref sig .tc := ⟨.hbm, 48, rfl⟩
abbrev main_cst_10 : Ref sig .tc := ⟨.hbm, 49, rfl⟩
abbrev main_call2_v0 : Ref sig .tc := ⟨.hbm, 50, rfl⟩
abbrev main_call2_v1 : Ref sig .tc := ⟨.hbm, 51, rfl⟩
abbrev main_v28 : Ref sig .tc := ⟨.hbm, 52, rfl⟩
abbrev main_v29 : Ref sig .tc := ⟨.hbm, 53, rfl⟩
abbrev main_cst_11 : Ref sig .tc := ⟨.hbm, 54, rfl⟩
abbrev main_call3_v0 : Ref sig .tc := ⟨.hbm, 55, rfl⟩
abbrev main_call3_v1 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_cst_12 : Ref sig .tc := ⟨.hbm, 60, rfl⟩
abbrev main_call4_v0 : Ref sig .tc := ⟨.hbm, 61, rfl⟩
abbrev main_call4_v1 : Ref sig .tc := ⟨.hbm, 62, rfl⟩
abbrev main_v33 : Ref sig .tc := ⟨.hbm, 63, rfl⟩
abbrev main_cst_13 : Ref sig .tc := ⟨.hbm, 64, rfl⟩
abbrev main_v34 : Ref sig .tc := ⟨.hbm, 65, rfl⟩
abbrev main_cst_14 : Ref sig .tc := ⟨.hbm, 66, rfl⟩
abbrev main_v35 : Ref sig .tc := ⟨.hbm, 67, rfl⟩

abbrev nD : Nat := 1
abbrev τ : Topo := Topo.v7x

variable {F : FTy → Type} [FloatOps F]

class Facts₀ : Prop where
  bcast_S_S33554432 : S_.BroadcastsInDim S33554432 (![] : Fin 0 → Fin S33554432.rank)
  bcast_S_S10 : S_.BroadcastsInDim S10 (![] : Fin 0 → Fin S10.rank)
  bcast_S33554432_S33554432x1_0 : S33554432.BroadcastsInDim S33554432x1 (![0] : Fin 1 → Fin S33554432x1.rank)
  reducesTo_S10_S_d0 : S10.ReducesTo [0] S_
  h_S_ : 0 < S_.numel
  scatter_S10_S33554432x1_S33554432_n_0_0_1_wf : ScatterDims.WF S10 S33554432x1 S33554432 [] [0] [0] 1

variable [Facts₀]

def scatter_S10_S33554432x1_S33554432_n_0_0_1 : ScatterDims S10 S33554432x1 S33554432 where
  updateWindowDims := []
  insertedWindowDims := [0]
  scatterDimsToOperandDims := [0]
  indexVectorDim := 1
  wf := scatter_S10_S33554432x1_S33554432_n_0_0_1_wf

class Facts : Prop extends Facts₀ where

variable [Facts]
-- ==== Proof.Bins.lean ====
/-
  The bin of one prediction, and what one block of predictions adds to the histogram.

  A logit x has confidence conf(x) = 1 / (1 + exp(-x)). Its bin is the 32-bit word
  min(9, max(0, ceil(10 * conf(x)) - 1)), the ceiling converted to a signed integer first. For a bin word b the
  indicator ind(w, b) is 1 when the word w equals b and 0 otherwise (a one-bit comparison widened to 32 bits and
  read as a number). A block of 4096 x 128 predictions adds, to lane l of bin b, the sum over the 4096 rows of
  ind(bin(x), b) * q(x, y), where q is the summed quantity: 1 (a count), the label y as a number, or conf(x).
-/
import Idealize.ShloMosaic.PureOps.Ideal
import Idealize.ShloMosaic.Lib.ValueIdx

noncomputable section

open scoped BigOperators

namespace Cert.Hist

open Idealize.ShloMosaic Idealize.ShloMosaic.ValueIdx

/-- The confidence of a logit. -/
def conf (x : EReal) : EReal := Ideal.logistic x

/-- The bin word of a logit. -/
def bin (x : EReal) : BitVec 32 :=
  IntOp.minsi 9#32 (IntOp.maxsi 0#32 (IntOp.subi (FloatOps.fptosi (F := Ideal) (φ := .f32) 32
    (FloatOps.ceil (F := Ideal) (φ := .f32) (FloatOps.mulf (F := Ideal) (φ := .f32) (conf x)
      (FloatOps.ofBits (F := Ideal) .f32 0x41200000#32)))) 1#32))

/-- The indicator of "the word w is the bin word b", as a number. -/
def ind (w b : BitVec 32) : EReal := (((((IntOp.cmpi .eq w b).setWidth 32).toInt : ℤ) : ℝ) : EReal)

/-- The indicator is 1 on equal words and 0 otherwise. -/
theorem ind_eq (w b : BitVec 32) : ind w b = if w = b then 1 else 0 := by
  unfold ind
  by_cases h : w = b
  · rw [if_pos h]
    have e : IntOp.cmpi .eq w b = 1#1 := by
      show BitVec.ofBool (w == b) = 1#1
      rw [show (w == b) = true from by simpa using h]; rfl
    rw [e]
    have : ((1#1 : BitVec 1).setWidth 32).toInt = 1 := by decide
    rw [this]; simp
  · rw [if_neg h]
    have e : IntOp.cmpi .eq w b = 0#1 := by
      show BitVec.ofBool (w == b) = 0#1
      rw [show (w == b) = false from by simpa using h]; rfl
    rw [e]
    have : ((0#1 : BitVec 1).setWidth 32).toInt = 0 := by decide
    rw [this]; simp

/-- A small natural number as a 32-bit word reads back, signed, as itself. -/
theorem toInt_lit (b : Fin 16) : (BitVec.ofNat 32 b.val).toInt = (b.val : Int) := by
  revert b; decide

/-- A word equals the word of a small number exactly when it reads, signed, as that number. -/
theorem eq_lit_iff (w : BitVec 32) (b : Fin 16) : w = BitVec.ofNat 32 b.val ↔ w.toInt = (b.val : Int) := by
  constructor
  · intro h; rw [h]; exact toInt_lit b
  · intro h; exact BitVec.eq_of_toInt_eq (h.trans (toInt_lit b).symm)

/-- The three summed quantities: a count, the label as a number, the confidence. -/
def q0 (_ : EReal) (_ : BitVec 32) : EReal := 1
def q1 (_ : EReal) (y : BitVec 32) : EReal := ((y.toInt : ℝ) : EReal)
def q2 (x : EReal) (_ : BitVec 32) : EReal := conf x

/-- One prediction's contribution to bin word b. -/
def contrib (q : EReal → BitVec 32 → EReal) (b : BitVec 32) (x : EReal) (y : BitVec 32) : EReal :=
  ind (bin x) b * q x y

/-- What a 4096 x 128 block adds to lane l of bin word b: the sum down the block's column l. -/
def colSum (q : EReal → BitVec 32 → EReal) (b : BitVec 32)
    (x0 : (⟨2, ![4096, 128]⟩ : Shape).Idx → EReal) (x1 : (⟨2, ![4096, 128]⟩ : Shape).Idx → BitVec 32) (l : Fin 128) : EReal :=
  ∑ r : Fin 4096, contrib q b (x0 (ix2 r l)) (x1 (ix2 r l))

/-- What a block adds to the 16 x 128 accumulator: row b < 10 gets the column sums of bin b, rows 10..15 nothing. -/
def tile (q : EReal → BitVec 32 → EReal)
    (x0 : (⟨2, ![4096, 128]⟩ : Shape).Idx → EReal) (x1 : (⟨2, ![4096, 128]⟩ : Shape).Idx → BitVec 32) :
    (⟨2, ![16, 128]⟩ : Shape).Idx → EReal :=
  fun y => if (y 0).val < 10 then colSum q (BitVec.ofNat 32 (y 0).val) x0 x1 (y 1) else 0

end Cert.Hist

end
-- ==== Proof.LibScatterAdd.lean ====
/-
  An accumulating scatter of a vector of updates into a vector, read at an entry.

  The operand is a vector of length K, the updates a vector of length N, and the scatter indices an N × 1 array of
  words: update j carries the one index word idx[j, 0]. The scatter adds update j to the operand's entry whose
  position is that word READ AS A SIGNED INTEGER, and drops the update when the position is outside [0, K).
  Over the extended reals the result's entry i is therefore the operand's entry i plus the sum, over all N updates,
  of the updates whose index word, read signed, is i.
-/
import Idealize.ShloMosaic.PureOps.Ideal
import Idealize.ShloMosaic.PureOps.Contract
import Idealize.ShloMosaic.Lib.ValueIdx

noncomputable section

open scoped BigOperators

namespace Cert.LibScatterAdd

open Idealize.ShloMosaic Idealize.ShloMosaic.ValueIdx

/-- A rank-1 index set is its one coordinate's range. -/
def idxEquiv1 {n : Nat} : (⟨1, ![n]⟩ : Shape).Idx ≃ Fin n where
  toFun j := j 0
  invFun a := ix1 a
  left_inv j := (eq_ix1 j).symm
  right_inv _ := rfl

/-- A sum over a rank-1 index set is the sum over its coordinate. -/
theorem sum_idx1 {M : Type*} [AddCommMonoid M] {n : Nat} (f : (⟨1, ![n]⟩ : Shape).Idx → M) :
    ∑ j, f j = ∑ a : Fin n, f (ix1 a) := by
  rw [← Equiv.sum_comp (idxEquiv1 (n := n)).symm f]
  rfl

/-- The dimension numbers of the scatter: no window axes in the updates, the operand's one axis inserted, the one
    component of the index vector naming that axis, and the index vector along the indices' second axis. Their
    conditions `wf` are decided on a program's literal extents. -/
abbrev vecDims (K N : Nat) (wf : ScatterDims.WF ⟨1, ![K]⟩ ⟨2, ![N, 1]⟩ ⟨1, ![N]⟩ [] [0] [0] 1) :
    ScatterDims ⟨1, ![K]⟩ ⟨2, ![N, 1]⟩ ⟨1, ![N]⟩ where
  updateWindowDims := []
  insertedWindowDims := [0]
  scatterDimsToOperandDims := [0]
  indexVectorDim := 1
  wf := wf

/-- WHERE AN UPDATE LANDS: update `j` lands on entry `i` exactly when its index word, read signed, is `i`. -/
theorem resultIdx?_eq_some_iff {K N w : Nat} (wf : ScatterDims.WF ⟨1, ![K]⟩ ⟨2, ![N, 1]⟩ ⟨1, ![N]⟩ [] [0] [0] 1)
    (idx : IVec ⟨2, ![N, 1]⟩ w) (j : (⟨1, ![N]⟩ : Shape).Idx) (i : (⟨1, ![K]⟩ : Shape).Idx) :
    (vecDims K N wf).resultIdx? j idx = some i ↔ (idx (ix2 (j 0) (0 : Fin 1))).toInt = ((i 0).val : Int) := by
  have hstart : ∀ a, (vecDims K N wf).start j idx a + ((vecDims K N wf).window j a : Int)
      = (idx (ix2 (j 0) (0 : Fin 1))).toInt := by
    intro a
    obtain rfl : a = 0 := Subsingleton.elim _ _
    have hw : (vecDims K N wf).window j 0 = 0 := by
      unfold ScatterDims.window
      have hk : (0 : Fin (⟨1, ![K]⟩ : Shape).rank) ∉ (vecDims K N wf).sKept :=
        show (0 : Fin 1) ∉ (List.finRange 1).filter (fun a => a ∉ [(0 : Fin 1)]) by decide
      rw [dif_neg hk]
    unfold ScatterDims.start
    rw [dif_pos (show (0 : Fin 1) ∈ (vecDims K N wf).scatterDimsToOperandDims from List.mem_singleton.mpr rfl), hw]
    have hsi : (vecDims K N wf).siIdx j ⟨List.idxOf (0 : Fin 1) (vecDims K N wf).scatterDimsToOperandDims,
        List.idxOf_lt_length_iff.2 (List.mem_singleton.mpr rfl)⟩ = ix2 (j 0) (0 : Fin 1) := by
      funext b; refine Fin.ext ?_
      match b with
      | ⟨0, _⟩ => rfl
      | ⟨1, _⟩ => rfl
    rw [hsi]
    simp
  unfold ScatterDims.resultIdx?
  by_cases h : ∀ a, 0 ≤ (vecDims K N wf).start j idx a + ((vecDims K N wf).window j a : Int) ∧
      (vecDims K N wf).start j idx a + ((vecDims K N wf).window j a : Int) < ((⟨1, ![K]⟩ : Shape).size a : Int)
  · rw [dif_pos h]
    constructor
    · intro he
      have hv := congrArg Fin.val (congrFun (Option.some.inj he) 0)
      have h0 := (h 0).1
      simp only [hstart 0] at hv h0
      omega
    · intro he
      congr 1
      funext a
      obtain rfl : a = 0 := Subsingleton.elim _ _
      refine Fin.ext ?_
      show ((vecDims K N wf).start j idx 0 + ((vecDims K N wf).window j 0 : Int)).toNat = (i 0).val
      rw [hstart 0, he]
      simp
  · rw [dif_neg h]
    constructor
    · intro he; cases he
    · intro he
      exfalso; apply h
      intro a
      obtain rfl : a = 0 := Subsingleton.elim _ _
      rw [hstart 0, he]
      have hlt : (i 0).val < K := (i 0).isLt
      constructor
      · omega
      · show ((i 0).val : Int) < (K : Int)
        exact_mod_cast hlt

/-- THE SCATTER READ AT ENTRY `i`: over the extended reals, the operand's entry `i` plus the sum over all `N` updates
    of those whose index word, read signed, is `i` (every other update adds 0 to this entry). -/
theorem scatterAdd_vec_apply {φ : FTy} {K N w : Nat} (wf : ScatterDims.WF ⟨1, ![K]⟩ ⟨2, ![N, 1]⟩ ⟨1, ![N]⟩ [] [0] [0] 1)
    (x : FVec Ideal ⟨1, ![K]⟩ φ) (idx : IVec ⟨2, ![N, 1]⟩ w) (upd : FVec Ideal ⟨1, ![N]⟩ φ)
    (i : (⟨1, ![K]⟩ : Shape).Idx) :
    Host.scatterAdd (vecDims K N wf) x idx upd i
      = ((x i : EReal) + ∑ j : Fin N,
          if (idx (ix2 j (0 : Fin 1))).toInt = ((i 0).val : Int) then (upd (ix1 j) : EReal) else 0) := by
  show (x i : EReal) + ∑ j ∈ Finset.univ.filter (fun j => (vecDims K N wf).resultIdx? j idx = some i), upd j = _
  congr 1
  rw [Finset.sum_filter, sum_idx1]
  refine Finset.sum_congr rfl fun j _ => ?_
  have hj := resultIdx?_eq_some_iff wf idx (ix1 j) i
  by_cases hc : (idx (ix2 j (0 : Fin 1))).toInt = ((i 0).val : Int)
  · rw [if_pos hc, if_pos (hj.2 hc)]
  · rw [if_neg hc, if_neg (fun h => hc (hj.1 h))]

end Cert.LibScatterAdd

end
-- ==== Proof.Tail.lean ====
/-
  The ten-entry arithmetic both programs end with, over three ten-entry histograms n (counts), l (label sums) and
  k (confidence sums): a bin is non-empty when its count is positive; a per-bin mean is the sum divided by the count
  on the non-empty bins and zero on the others; the calibration gap of a bin is the absolute difference of its two
  means, zero on the empty bins; the last two results are the sum and the maximum of the ten gaps.
-/
import proofs.«166259_j43946105373039_2_alg».proof.Proof.Gen.ReferenceIdeal
import Idealize.ShloMosaic.PureOps.Ideal

noncomputable section

namespace Cert.Tail

open Cert.ReferenceIdeal Cert.ReferenceIdeal.Gen Idealize.ShloMosaic

/-- Ten zeros. -/
def zero10 : FVec Ideal S10 .f32 := broadcastInDim S10 ![] bcast_S_S10 (constant (F := Ideal) S_ .f32 0x00000000#32)
/-- where(p, a, c): a on the entries p marks, the constant c elsewhere. -/
def wh (p : IVec S10 1) (a : FVec Ideal S10 .f32) (c : BitVec 32) : FVec Ideal S10 .f32 :=
  select p a (broadcastInDim S10 ![] bcast_S_S10 (id (constant (F := Ideal) S_ .f32 c)))
/-- The non-empty bins. -/
def nonempty (n : FVec Ideal S10 .f32) : IVec S10 1 := cmpf .ogt n zero10
/-- The divisor: the count of a non-empty bin, one for an empty one. -/
def denom (n : FVec Ideal S10 .f32) : FVec Ideal S10 .f32 := wh (nonempty n) n 0x3F800000#32
/-- A per-bin mean, zero on the empty bins. -/
def mean (n s : FVec Ideal S10 .f32) : FVec Ideal S10 .f32 := wh (nonempty n) (Host.divf s (denom n)) 0x00000000#32
/-- The per-bin calibration gap. -/
def gap (n l k : FVec Ideal S10 .f32) : FVec Ideal S10 .f32 :=
  wh (nonempty n) (Host.absf (subf (mean n l) (mean n k))) 0x00000000#32
/-- The sum of the gaps. -/
def gapSum (n l k : FVec Ideal S10 .f32) : FVec Ideal S_ .f32 :=
  Host.reduceAdd (gap n l k) (constant (F := Ideal) S_ .f32 0x00000000#32) reducesTo_S10_S_d0 h_S_
/-- The maximum of the gaps. -/
def gapMax (n l k : FVec Ideal S10 .f32) : FVec Ideal S_ .f32 :=
  Host.reduce FloatOps.maximumf (gap n l k) (constant (F := Ideal) S_ .f32 0xFF800000#32) reducesTo_S10_S_d0 h_S_

end Cert.Tail

end
-- ==== Proof.RefRun.lean ====
/-
  The reference program as a list of host operations, its run, and its three histograms read at an entry.

  The reference computes, for every prediction n, the bin word of its logit; three accumulating scatters into ten
  zeros then add, at entry b, the number 1, the label as a number, or the confidence of every prediction whose bin
  word, read signed, is b; ten-entry arithmetic on those three vectors gives the four results. Read at entry b each
  scatter is zero plus the sum over all predictions of the update when the bin word is b and of zero otherwise.
-/
import proofs.«166259_j43946105373039_2_alg».proof.Proof.Gen.ReferenceIdeal
import Idealize.ShloMosaic.Lib.StableHlo.Run
import Idealize.ShloMosaic.Lib.Pipeline.Value
import Idealize.ShloMosaic.Lib.ValueIdx
import Idealize.ShloMosaic.Lib.IdealHost
import Idealize.ShloMosaic.PureOps.Ideal.Laws
import proofs.«166259_j43946105373039_2_alg».proof.Proof.Bins
import proofs.«166259_j43946105373039_2_alg».proof.Proof.LibScatterAdd
import proofs.«166259_j43946105373039_2_alg».proof.Proof.Tail

noncomputable section

open scoped BigOperators

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx Cert.Hist Cert.Tail

section Ops
variable {F : FTy → Type} [FloatOps F]

/-- The program's operations, in order (a called function's operations stand in its call's place). -/
abbrev ops : List (HloOp τ sig (Elt F)) :=
  [ unary main_arg0 main_v0 (Host.negf : (⟨S33554432, .f32⟩ : BufTy).Contents (Elt F) → (⟨S33554432, .f32⟩ : BufTy).Contents (Elt F)),
    unary main_v0 main_v1 (Host.exp : (⟨S33554432, .f32⟩ : BufTy).Contents (Elt F) → (⟨S33554432, .f32⟩ : BufTy).Contents (Elt F)),
    nullary main_cst (constant S_ .f32 0x3F800000#32),
    unary main_cst main_v2 (broadcastInDim S33554432 ![] bcast_S_S33554432 : (⟨S_, .f32⟩ : BufTy).Contents (Elt F) → (⟨S33554432, .f32⟩ : BufTy).Contents (Elt F)),
    binary main_v2 main_v1 main_v3 (addf : (⟨S33554432, .f32⟩ : BufTy).Contents (Elt F) → (⟨S33554432, .f32⟩ : BufTy).Contents (Elt F) → (⟨S33554432, .f32⟩ : BufTy).Contents (Elt F)),
    nullary main_cst_0 (constant S_ .f32 0x3F800000#32),
    unary main_cst_0 main_v4 (broadcastInDim S33554432 ![] bcast_S_S33554432 : (⟨S_, .f32⟩ : BufTy).Contents (Elt F) → (⟨S33554432, .f32⟩ : BufTy).Contents (Elt F)),
    binary main_v4 main_v3 main_v5 (Host.divf : (⟨S33554432, .f32⟩ : BufTy).Contents (Elt F) → (⟨S33554432, .f32⟩ : BufTy).Contents (Elt F) → (⟨S33554432, .f32⟩ : BufTy).Contents (Elt F)),
    nullary main_cst_1 (constant S_ .f32 0x41200000#32),
    unary main_cst_1 main_v6 (broadcastInDim S33554432 ![] bcast_S_S33554432 : (⟨S_, .f32⟩ : BufTy).Contents (Elt F) → (⟨S33554432, .f32⟩ : BufTy).Contents (Elt F)),
    binary main_v5 main_v6 main_v7 (mulf : (⟨S33554432, .f32⟩ : BufTy).Contents (Elt F) → (⟨S33554432, .f32⟩ : BufTy).Contents (Elt F) → (⟨S33554432, .f32⟩ : BufTy).Contents (Elt F)),
    unary main_v7 main_v8 (Host.ceil : (⟨S33554432, .f32⟩ : BufTy).Contents (Elt F) → (⟨S33554432, .f32⟩ : BufTy).Contents (Elt F)),
    unary main_v8 main_v9 (fptosi 32 : (⟨S33554432, .f32⟩ : BufTy).Contents (Elt F) → (⟨S33554432, .i32⟩ : BufTy).Contents (Elt F)),
    nullary main_c (constantI S_ 32 1#32),
    unary main_c main_v10 (broadcastInDim S33554432 ![] bcast_S_S33554432 : (⟨S_, .i32⟩ : BufTy).Contents (Elt F) → (⟨S33554432, .i32⟩ : BufTy).Contents (Elt F)),
    binary main_v9 main_v10 main_v11 (subi : (⟨S33554432, .i32⟩ : BufTy).Contents (Elt F) → (⟨S33554432, .i32⟩ : BufTy).Contents (Elt F) → (⟨S33554432, .i32⟩ : BufTy).Contents (Elt F)),
    nullary main_c_2 (constantI S_ 32 0#32),
    nullary main_c_3 (constantI S_ 32 9#32),
    TRef.unary (TRef.of (T := ⟨S_, .i32⟩) main_c_2) (TRef.of (T := ⟨S_, .i32⟩) main_call0_v0) id,
    TRef.unary (TRef.of (T := ⟨S_, .i32⟩) main_call0_v0) (TRef.of (T := ⟨S33554432, .i32⟩) main_call0_v1) (broadcastInDim S33554432 ![] bcast_S_S33554432),
    TRef.binary (TRef.of (T := ⟨S33554432, .i32⟩) main_call0_v1) (TRef.of (T := ⟨S33554432, .i32⟩) main_v11) (TRef.of (T := ⟨S33554432, .i32⟩) main_call0_v2) maxsi,
    TRef.unary (TRef.of (T := ⟨S_, .i32⟩) main_c_3) (TRef.of (T := ⟨S_, .i32⟩) main_call0_v3) id,
    TRef.unary (TRef.of (T := ⟨S_, .i32⟩) main_call0_v3) (TRef.of (T := ⟨S33554432, .i32⟩) main_call0_v4) (broadcastInDim S33554432 ![] bcast_S_S33554432),
    TRef.binary (TRef.of (T := ⟨S33554432, .i32⟩) main_call0_v4) (TRef.of (T := ⟨S33554432, .i32⟩) main_call0_v2) (TRef.of (T := ⟨S33554432, .i32⟩) main_v12) minsi,
    nullary main_cst_4 (constant S_ .f32 0x3F800000#32),
    unary main_cst_4 main_v13 (broadcastInDim S33554432 ![] bcast_S_S33554432 : (⟨S_, .f32⟩ : BufTy).Contents (Elt F) → (⟨S33554432, .f32⟩ : BufTy).Contents (Elt F)),
    nullary main_cst_5 (constant S_ .f32 0x00000000#32),
    unary main_cst_5 main_v14 (broadcastInDim S10 ![] bcast_S_S10 : (⟨S_, .f32⟩ : BufTy).Contents (Elt F) → (⟨S10, .f32⟩ : BufTy).Contents (Elt F)),
    unary main_v12 main_v15 (broadcastInDim S33554432x1 ![0] bcast_S33554432_S33554432x1_0 : (⟨S33554432, .i32⟩ : BufTy).Contents (Elt F) → (⟨S33554432x1, .i32⟩ : BufTy).Contents (Elt F)),
    ternary main_v14 main_v15 main_v13 main_v16 ((fun x i u => Host.scatterAdd scatter_S10_S33554432x1_S33554432_n_0_0_1 x i u) : (⟨S10, .f32⟩ : BufTy).Contents (Elt F) → (⟨S33554432x1, .i32⟩ : BufTy).Contents (Elt F) → (⟨S33554432, .f32⟩ : BufTy).Contents (Elt F) → (⟨S10, .f32⟩ : BufTy).Contents (Elt F)),
    unary main_arg1 main_v17 (sitofp .f32 : (⟨S33554432, .i32⟩ : BufTy).Contents (Elt F) → (⟨S33554432, .f32⟩ : BufTy).Contents (Elt F)),
    nullary main_cst_6 (constant S_ .f32 0x00000000#32),
    unary main_cst_6 main_v18 (broadcastInDim S10 ![] bcast_S_S10 : (⟨S_, .f32⟩ : BufTy).Contents (Elt F) → (⟨S10, .f32⟩ : BufTy).Contents (Elt F)),
    unary main_v12 main_v19 (broadcastInDim S33554432x1 ![0] bcast_S33554432_S33554432x1_0 : (⟨S33554432, .i32⟩ : BufTy).Contents (Elt F) → (⟨S33554432x1, .i32⟩ : BufTy).Contents (Elt F)),
    ternary main_v18 main_v19 main_v17 main_v20 ((fun x i u => Host.scatterAdd scatter_S10_S33554432x1_S33554432_n_0_0_1 x i u) : (⟨S10, .f32⟩ : BufTy).Contents (Elt F) → (⟨S33554432x1, .i32⟩ : BufTy).Contents (Elt F) → (⟨S33554432, .f32⟩ : BufTy).Contents (Elt F) → (⟨S10, .f32⟩ : BufTy).Contents (Elt F)),
    nullary main_cst_7 (constant S_ .f32 0x00000000#32),
    unary main_cst_7 main_v21 (broadcastInDim S10 ![] bcast_S_S10 : (⟨S_, .f32⟩ : BufTy).Contents (Elt F) → (⟨S10, .f32⟩ : BufTy).Contents (Elt F)),
    unary main_v12 main_v22 (broadcastInDim S33554432x1 ![0] bcast_S33554432_S33554432x1_0 : (⟨S33554432, .i32⟩ : BufTy).Contents (Elt F) → (⟨S33554432x1, .i32⟩ : BufTy).Contents (Elt F)),
    ternary main_v21 main_v22 main_v5 main_v23 ((fun x i u => Host.scatterAdd scatter_S10_S33554432x1_S33554432_n_0_0_1 x i u) : (⟨S10, .f32⟩ : BufTy).Contents (Elt F) → (⟨S33554432x1, .i32⟩ : BufTy).Contents (Elt F) → (⟨S33554432, .f32⟩ : BufTy).Contents (Elt F) → (⟨S10, .f32⟩ : BufTy).Contents (Elt F)),
    nullary main_cst_8 (constant S_ .f32 0x00000000#32),
    unary main_cst_8 main_v24 (broadcastInDim S10 ![] bcast_S_S10 : (⟨S_, .f32⟩ : BufTy).Contents (Elt F) → (⟨S10, .f32⟩ : BufTy).Contents (Elt F)),
    binary main_v16 main_v24 main_v25 (cmpf .ogt : (⟨S10, .f32⟩ : BufTy).Contents (Elt F) → (⟨S10, .f32⟩ : BufTy).Contents (Elt F) → (⟨S10, .i1⟩ : BufTy).Contents (Elt F)),
    nullary main_cst_9 (constant S_ .f32 0x3F800000#32),
    TRef.unary (TRef.of (T := ⟨S_, .f32⟩) main_cst_9) (TRef.of (T := ⟨S_, .f32⟩) main_call1_v0) id,
    TRef.unary (TRef.of (T := ⟨S_, .f32⟩) main_call1_v0) (TRef.of (T := ⟨S10, .f32⟩) main_call1_v1) (broadcastInDim S10 ![] bcast_S_S10),
    TRef.ternary (TRef.of (T := ⟨S10, .i1⟩) main_v25) (TRef.of (T := ⟨S10, .f32⟩) main_v16) (TRef.of (T := ⟨S10, .f32⟩) main_call1_v1) (TRef.of (T := ⟨S10, .f32⟩) main_v26) select,
    binary main_v20 main_v26 main_v27 (Host.divf : (⟨S10, .f32⟩ : BufTy).Contents (Elt F) → (⟨S10, .f32⟩ : BufTy).Contents (Elt F) → (⟨S10, .f32⟩ : BufTy).Contents (Elt F)),
    nullary main_cst_10 (constant S_ .f32 0x00000000#32),
    TRef.unary (TRef.of (T := ⟨S_, .f32⟩) main_cst_10) (TRef.of (T := ⟨S_, .f32⟩) main_call2_v0) id,
    TRef.unary (TRef.of (T := ⟨S_, .f32⟩) main_call2_v0) (TRef.of (T := ⟨S10, .f32⟩) main_call2_v1) (broadcastInDim S10 ![] bcast_S_S10),
    TRef.ternary (TRef.of (T := ⟨S10, .i1⟩) main_v25) (TRef.of (T := ⟨S10, .f32⟩) main_v27) (TRef.of (T := ⟨S10, .f32⟩) main_call2_v1) (TRef.of (T := ⟨S10, .f32⟩) main_v28) select,
    binary main_v23 main_v26 main_v29 (Host.divf : (⟨S10, .f32⟩ : BufTy).Contents (Elt F) → (⟨S10, .f32⟩ : BufTy).Contents (Elt F) → (⟨S10, .f32⟩ : BufTy).Contents (Elt F)),
    nullary main_cst_11 (constant S_ .f32 0x00000000#32),
    TRef.unary (TRef.of (T := ⟨S_, .f32⟩) main_cst_11) (TRef.of (T := ⟨S_, .f32⟩) main_call3_v0) id,
    TRef.unary (TRef.of (T := ⟨S_, .f32⟩) main_call3_v0) (TRef.of (T := ⟨S10, .f32⟩) main_call3_v1) (broadcastInDim S10 ![] bcast_S_S10),
    TRef.ternary (TRef.of (T := ⟨S10, .i1⟩) main_v25) (TRef.of (T := ⟨S10, .f32⟩) main_v29) (TRef.of (T := ⟨S10, .f32⟩) main_call3_v1) (TRef.of (T := ⟨S10, .f32⟩) main_v30) select,
    binary main_v28 main_v30 main_v31 (subf : (⟨S10, .f32⟩ : BufTy).Contents (Elt F) → (⟨S10, .f32⟩ : BufTy).Contents (Elt F) → (⟨S10, .f32⟩ : BufTy).Contents (Elt F)),
    unary main_v31 main_v32 (Host.absf : (⟨S10, .f32⟩ : BufTy).Contents (Elt F) → (⟨S10, .f32⟩ : BufTy).Contents (Elt F)),
    nullary main_cst_12 (constant S_ .f32 0x00000000#32),
    TRef.unary (TRef.of (T := ⟨S_, .f32⟩) main_cst_12) (TRef.of (T := ⟨S_, .f32⟩) main_call4_v0) id,
    TRef.unary (TRef.of (T := ⟨S_, .f32⟩) main_call4_v0) (TRef.of (T := ⟨S10, .f32⟩) main_call4_v1) (broadcastInDim S10 ![] bcast_S_S10),
    TRef.ternary (TRef.of (T := ⟨S10, .i1⟩) main_v25) (TRef.of (T := ⟨S10, .f32⟩) main_v32) (TRef.of (T := ⟨S10, .f32⟩) main_call4_v1) (TRef.of (T := ⟨S10, .f32⟩) main_v33) select,
    nullary main_cst_13 (constant S_ .f32 0x00000000#32),
    binary main_v33 main_cst_13 main_v34 ((fun x v => Host.reduceAdd x v reducesTo_S10_S_d0 h_S_) : (⟨S10, .f32⟩ : BufTy).Contents (Elt F) → (⟨S_, .f32⟩ : BufTy).Contents (Elt F) → (⟨S_, .f32⟩ : BufTy).Contents (Elt F)),
    nullary main_cst_14 (constant S_ .f32 0xFF800000#32),
    binary main_v33 main_cst_14 main_v35 ((fun x v => Host.reduce FloatOps.maximumf x v reducesTo_S10_S_d0 h_S_) : (⟨S10, .f32⟩ : BufTy).Contents (Elt F) → (⟨S_, .f32⟩ : BufTy).Contents (Elt F) → (⟨S_, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., unary_bufs_sub .., nullary_bufs_sub .., unary_bufs_sub .., binary_bufs_sub .., nullary_bufs_sub .., unary_bufs_sub .., binary_bufs_sub .., nullary_bufs_sub .., unary_bufs_sub .., binary_bufs_sub .., unary_bufs_sub .., unary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., nullary_bufs_sub .., unary_bufs_sub .., unary_bufs_sub .., ternary_bufs_sub .., unary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., nullary_bufs_sub .., unary_bufs_sub .., unary_bufs_sub .., ternary_bufs_sub .., binary_bufs_sub .., nullary_bufs_sub .., unary_bufs_sub .., unary_bufs_sub .., ternary_bufs_sub .., binary_bufs_sub .., nullary_bufs_sub .., unary_bufs_sub .., unary_bufs_sub .., ternary_bufs_sub .., binary_bufs_sub .., unary_bufs_sub .., nullary_bufs_sub .., unary_bufs_sub .., unary_bufs_sub .., ternary_bufs_sub .., nullary_bufs_sub .., binary_bufs_sub .., nullary_bufs_sub .., binary_bufs_sub ..⟩

/-- The operations up to and including the third scatter: everything the three histograms need. -/
abbrev opsA : List (HloOp τ sig (Elt F)) :=
  [ unary main_arg0 main_v0 (Host.negf : (⟨S33554432, .f32⟩ : BufTy).Contents (Elt F) → (⟨S33554432, .f32⟩ : BufTy).Contents (Elt F)),
    unary main_v0 main_v1 (Host.exp : (⟨S33554432, .f32⟩ : BufTy).Contents (Elt F) → (⟨S33554432, .f32⟩ : BufTy).Contents (Elt F)),
    nullary main_cst (constant S_ .f32 0x3F800000#32),
    unary main_cst main_v2 (broadcastInDim S33554432 ![] bcast_S_S33554432 : (⟨S_, .f32⟩ : BufTy).Contents (Elt F) → (⟨S33554432, .f32⟩ : BufTy).Contents (Elt F)),
    binary main_v2 main_v1 main_v3 (addf : (⟨S33554432, .f32⟩ : BufTy).Contents (Elt F) → (⟨S33554432, .f32⟩ : BufTy).Contents (Elt F) → (⟨S33554432, .f32⟩ : BufTy).Contents (Elt F)),
    nullary main_cst_0 (constant S_ .f32 0x3F800000#32),
    unary main_cst_0 main_v4 (broadcastInDim S33554432 ![] bcast_S_S33554432 : (⟨S_, .f32⟩ : BufTy).Contents (Elt F) → (⟨S33554432, .f32⟩ : BufTy).Contents (Elt F)),
    binary main_v4 main_v3 main_v5 (Host.divf : (⟨S33554432, .f32⟩ : BufTy).Contents (Elt F) → (⟨S33554432, .f32⟩ : BufTy).Contents (Elt F) → (⟨S33554432, .f32⟩ : BufTy).Contents (Elt F)),
    nullary main_cst_1 (constant S_ .f32 0x41200000#32),
    unary main_cst_1 main_v6 (broadcastInDim S33554432 ![] bcast_S_S33554432 : (⟨S_, .f32⟩ : BufTy).Contents (Elt F) → (⟨S33554432, .f32⟩ : BufTy).Contents (Elt F)),
    binary main_v5 main_v6 main_v7 (mulf : (⟨S33554432, .f32⟩ : BufTy).Contents (Elt F) → (⟨S33554432, .f32⟩ : BufTy).Contents (Elt F) → (⟨S33554432, .f32⟩ : BufTy).Contents (Elt F)),
    unary main_v7 main_v8 (Host.ceil : (⟨S33554432, .f32⟩ : BufTy).Contents (Elt F) → (⟨S33554432, .f32⟩ : BufTy).Contents (Elt F)),
    unary main_v8 main_v9 (fptosi 32 : (⟨S33554432, .f32⟩ : BufTy).Contents (Elt F) → (⟨S33554432, .i32⟩ : BufTy).Contents (Elt F)),
    nullary main_c (constantI S_ 32 1#32),
    unary main_c main_v10 (broadcastInDim S33554432 ![] bcast_S_S33554432 : (⟨S_, .i32⟩ : BufTy).Contents (Elt F) → (⟨S33554432, .i32⟩ : BufTy).Contents (Elt F)),
    binary main_v9 main_v10 main_v11 (subi : (⟨S33554432, .i32⟩ : BufTy).Contents (Elt F) → (⟨S33554432, .i32⟩ : BufTy).Contents (Elt F) → (⟨S33554432, .i32⟩ : BufTy).Contents (Elt F)),
    nullary main_c_2 (constantI S_ 32 0#32),
    nullary main_c_3 (constantI S_ 32 9#32),
    TRef.unary (TRef.of (T := ⟨S_, .i32⟩) main_c_2) (TRef.of (T := ⟨S_, .i32⟩) main_call0_v0) id,
    TRef.unary (TRef.of (T := ⟨S_, .i32⟩) main_call0_v0) (TRef.of (T := ⟨S33554432, .i32⟩) main_call0_v1) (broadcastInDim S33554432 ![] bcast_S_S33554432),
    TRef.binary (TRef.of (T := ⟨S33554432, .i32⟩) main_call0_v1) (TRef.of (T := ⟨S33554432, .i32⟩) main_v11) (TRef.of (T := ⟨S33554432, .i32⟩) main_call0_v2) maxsi,
    TRef.unary (TRef.of (T := ⟨S_, .i32⟩) main_c_3) (TRef.of (T := ⟨S_, .i32⟩) main_call0_v3) id,
    TRef.unary (TRef.of (T := ⟨S_, .i32⟩) main_call0_v3) (TRef.of (T := ⟨S33554432, .i32⟩) main_call0_v4) (broadcastInDim S33554432 ![] bcast_S_S33554432),
    TRef.binary (TRef.of (T := ⟨S33554432, .i32⟩) main_call0_v4) (TRef.of (T := ⟨S33554432, .i32⟩) main_call0_v2) (TRef.of (T := ⟨S33554432, .i32⟩) main_v12) minsi,
    nullary main_cst_4 (constant S_ .f32 0x3F800000#32),
    unary main_cst_4 main_v13 (broadcastInDim S33554432 ![] bcast_S_S33554432 : (⟨S_, .f32⟩ : BufTy).Contents (Elt F) → (⟨S33554432, .f32⟩ : BufTy).Contents (Elt F)),
    nullary main_cst_5 (constant S_ .f32 0x00000000#32),
    unary main_cst_5 main_v14 (broadcastInDim S10 ![] bcast_S_S10 : (⟨S_, .f32⟩ : BufTy).Contents (Elt F) → (⟨S10, .f32⟩ : BufTy).Contents (Elt F)),
    unary main_v12 main_v15 (broadcastInDim S33554432x1 ![0] bcast_S33554432_S33554432x1_0 : (⟨S33554432, .i32⟩ : BufTy).Contents (Elt F) → (⟨S33554432x1, .i32⟩ : BufTy).Contents (Elt F)),
    ternary main_v14 main_v15 main_v13 main_v16 ((fun x i u => Host.scatterAdd scatter_S10_S33554432x1_S33554432_n_0_0_1 x i u) : (⟨S10, .f32⟩ : BufTy).Contents (Elt F) → (⟨S33554432x1, .i32⟩ : BufTy).Contents (Elt F) → (⟨S33554432, .f32⟩ : BufTy).Contents (Elt F) → (⟨S10, .f32⟩ : BufTy).Contents (Elt F)),
    unary main_arg1 main_v17 (sitofp .f32 : (⟨S33554432, .i32⟩ : BufTy).Contents (Elt F) → (⟨S33554432, .f32⟩ : BufTy).Contents (Elt F)),
    nullary main_cst_6 (constant S_ .f32 0x00000000#32),
    unary main_cst_6 main_v18 (broadcastInDim S10 ![] bcast_S_S10 : (⟨S_, .f32⟩ : BufTy).Contents (Elt F) → (⟨S10, .f32⟩ : BufTy).Contents (Elt F)),
    unary main_v12 main_v19 (broadcastInDim S33554432x1 ![0] bcast_S33554432_S33554432x1_0 : (⟨S33554432, .i32⟩ : BufTy).Contents (Elt F) → (⟨S33554432x1, .i32⟩ : BufTy).Contents (Elt F)),
    ternary main_v18 main_v19 main_v17 main_v20 ((fun x i u => Host.scatterAdd scatter_S10_S33554432x1_S33554432_n_0_0_1 x i u) : (⟨S10, .f32⟩ : BufTy).Contents (Elt F) → (⟨S33554432x1, .i32⟩ : BufTy).Contents (Elt F) → (⟨S33554432, .f32⟩ : BufTy).Contents (Elt F) → (⟨S10, .f32⟩ : BufTy).Contents (Elt F)),
    nullary main_cst_7 (constant S_ .f32 0x00000000#32),
    unary main_cst_7 main_v21 (broadcastInDim S10 ![] bcast_S_S10 : (⟨S_, .f32⟩ : BufTy).Contents (Elt F) → (⟨S10, .f32⟩ : BufTy).Contents (Elt F)),
    unary main_v12 main_v22 (broadcastInDim S33554432x1 ![0] bcast_S33554432_S33554432x1_0 : (⟨S33554432, .i32⟩ : BufTy).Contents (Elt F) → (⟨S33554432x1, .i32⟩ : BufTy).Contents (Elt F)),
    ternary main_v21 main_v22 main_v5 main_v23 ((fun x i u => Host.scatterAdd scatter_S10_S33554432x1_S33554432_n_0_0_1 x i u) : (⟨S10, .f32⟩ : BufTy).Contents (Elt F) → (⟨S33554432x1, .i32⟩ : BufTy).Contents (Elt F) → (⟨S33554432, .f32⟩ : BufTy).Contents (Elt F) → (⟨S10, .f32⟩ : BufTy).Contents (Elt F)) ]

/-- The operations after the third scatter: the ten-entry arithmetic on the three histograms. -/
abbrev opsB : List (HloOp τ sig (Elt F)) :=
  [ nullary main_cst_8 (constant S_ .f32 0x00000000#32),
    unary main_cst_8 main_v24 (broadcastInDim S10 ![] bcast_S_S10 : (⟨S_, .f32⟩ : BufTy).Contents (Elt F) → (⟨S10, .f32⟩ : BufTy).Contents (Elt F)),
    binary main_v16 main_v24 main_v25 (cmpf .ogt : (⟨S10, .f32⟩ : BufTy).Contents (Elt F) → (⟨S10, .f32⟩ : BufTy).Contents (Elt F) → (⟨S10, .i1⟩ : BufTy).Contents (Elt F)),
    nullary main_cst_9 (constant S_ .f32 0x3F800000#32),
    TRef.unary (TRef.of (T := ⟨S_, .f32⟩) main_cst_9) (TRef.of (T := ⟨S_, .f32⟩) main_call1_v0) id,
    TRef.unary (TRef.of (T := ⟨S_, .f32⟩) main_call1_v0) (TRef.of (T := ⟨S10, .f32⟩) main_call1_v1) (broadcastInDim S10 ![] bcast_S_S10),
    TRef.ternary (TRef.of (T := ⟨S10, .i1⟩) main_v25) (TRef.of (T := ⟨S10, .f32⟩) main_v16) (TRef.of (T := ⟨S10, .f32⟩) main_call1_v1) (TRef.of (T := ⟨S10, .f32⟩) main_v26) select,
    binary main_v20 main_v26 main_v27 (Host.divf : (⟨S10, .f32⟩ : BufTy).Contents (Elt F) → (⟨S10, .f32⟩ : BufTy).Contents (Elt F) → (⟨S10, .f32⟩ : BufTy).Contents (Elt F)),
    nullary main_cst_10 (constant S_ .f32 0x00000000#32),
    TRef.unary (TRef.of (T := ⟨S_, .f32⟩) main_cst_10) (TRef.of (T := ⟨S_, .f32⟩) main_call2_v0) id,
    TRef.unary (TRef.of (T := ⟨S_, .f32⟩) main_call2_v0) (TRef.of (T := ⟨S10, .f32⟩) main_call2_v1) (broadcastInDim S10 ![] bcast_S_S10),
    TRef.ternary (TRef.of (T := ⟨S10, .i1⟩) main_v25) (TRef.of (T := ⟨S10, .f32⟩) main_v27) (TRef.of (T := ⟨S10, .f32⟩) main_call2_v1) (TRef.of (T := ⟨S10, .f32⟩) main_v28) select,
    binary main_v23 main_v26 main_v29 (Host.divf : (⟨S10, .f32⟩ : BufTy).Contents (Elt F) → (⟨S10, .f32⟩ : BufTy).Contents (Elt F) → (⟨S10, .f32⟩ : BufTy).Contents (Elt F)),
    nullary main_cst_11 (constant S_ .f32 0x00000000#32),
    TRef.unary (TRef.of (T := ⟨S_, .f32⟩) main_cst_11) (TRef.of (T := ⟨S_, .f32⟩) main_call3_v0) id,
    TRef.unary (TRef.of (T := ⟨S_, .f32⟩) main_call3_v0) (TRef.of (T := ⟨S10, .f32⟩) main_call3_v1) (broadcastInDim S10 ![] bcast_S_S10),
    TRef.ternary (TRef.of (T := ⟨S10, .i1⟩) main_v25) (TRef.of (T := ⟨S10, .f32⟩) main_v29) (TRef.of (T := ⟨S10, .f32⟩) main_call3_v1) (TRef.of (T := ⟨S10, .f32⟩) main_v30) select,
    binary main_v28 main_v30 main_v31 (subf : (⟨S10, .f32⟩ : BufTy).Contents (Elt F) → (⟨S10, .f32⟩ : BufTy).Contents (Elt F) → (⟨S10, .f32⟩ : BufTy).Contents (Elt F)),
    unary main_v31 main_v32 (Host.absf : (⟨S10, .f32⟩ : BufTy).Contents (Elt F) → (⟨S10, .f32⟩ : BufTy).Contents (Elt F)),
    nullary main_cst_12 (constant S_ .f32 0x00000000#32),
    TRef.unary (TRef.of (T := ⟨S_, .f32⟩) main_cst_12) (TRef.of (T := ⟨S_, .f32⟩) main_call4_v0) id,
    TRef.unary (TRef.of (T := ⟨S_, .f32⟩) main_call4_v0) (TRef.of (T := ⟨S10, .f32⟩) main_call4_v1) (broadcastInDim S10 ![] bcast_S_S10),
    TRef.ternary (TRef.of (T := ⟨S10, .i1⟩) main_v25) (TRef.of (T := ⟨S10, .f32⟩) main_v32) (TRef.of (T := ⟨S10, .f32⟩) main_call4_v1) (TRef.of (T := ⟨S10, .f32⟩) main_v33) select,
    nullary main_cst_13 (constant S_ .f32 0x00000000#32),
    binary main_v33 main_cst_13 main_v34 ((fun x v => Host.reduceAdd x v reducesTo_S10_S_d0 h_S_) : (⟨S10, .f32⟩ : BufTy).Contents (Elt F) → (⟨S_, .f32⟩ : BufTy).Contents (Elt F) → (⟨S_, .f32⟩ : BufTy).Contents (Elt F)),
    nullary main_cst_14 (constant S_ .f32 0xFF800000#32),
    binary main_v33 main_cst_14 main_v35 ((fun x v => Host.reduce FloatOps.maximumf x v reducesTo_S10_S_d0 h_S_) : (⟨S10, .f32⟩ : BufTy).Contents (Elt F) → (⟨S_, .f32⟩ : BufTy).Contents (Elt F) → (⟨S_, .f32⟩ : BufTy).Contents (Elt F)) ]

/-- The program is the first part followed by the second. -/
theorem ops_split : (ops : List (HloOp τ sig (Elt F))) = opsA ++ opsB := rfl
end Ops

/-! ## The values the run computes, at exact arithmetic -/

/-- Every prediction's confidence. -/
def confs (x0 : FVec Ideal S33554432 .f32) : FVec Ideal S33554432 .f32 :=
  Host.divf (broadcastInDim S33554432 ![] bcast_S_S33554432 (constant (F := Ideal) S_ .f32 0x3F800000#32))
    (addf (broadcastInDim S33554432 ![] bcast_S_S33554432 (constant (F := Ideal) S_ .f32 0x3F800000#32)) (Host.exp (Host.negf x0)))

/-- Every prediction's bin word. -/
def bins (x0 : FVec Ideal S33554432 .f32) : IVec S33554432 32 :=
  minsi (broadcastInDim S33554432 ![] bcast_S_S33554432 (id (constantI S_ 32 9#32)))
    (maxsi (broadcastInDim S33554432 ![] bcast_S_S33554432 (id (constantI S_ 32 0#32)))
      (subi (fptosi 32 (Host.ceil (mulf (confs x0) (broadcastInDim S33554432 ![] bcast_S_S33554432 (constant (F := Ideal) S_ .f32 0x41200000#32)))))
        (broadcastInDim S33554432 ![] bcast_S_S33554432 (constantI S_ 32 1#32))))

/-- The bin words as the scatters' index column. -/
def idxs (x0 : FVec Ideal S33554432 .f32) : IVec S33554432x1 32 :=
  broadcastInDim S33554432x1 ![0] bcast_S33554432_S33554432x1_0 (bins x0)

/-- The three histograms: counts, label sums, confidence sums. -/
def cnt (x0 : FVec Ideal S33554432 .f32) : FVec Ideal S10 .f32 :=
  Host.scatterAdd scatter_S10_S33554432x1_S33554432_n_0_0_1 zero10 (idxs x0)
    (broadcastInDim S33554432 ![] bcast_S_S33554432 (constant (F := Ideal) S_ .f32 0x3F800000#32))
def lab (x0 : FVec Ideal S33554432 .f32) (x1 : IVec S33554432 32) : FVec Ideal S10 .f32 :=
  Host.scatterAdd scatter_S10_S33554432x1_S33554432_n_0_0_1 zero10 (idxs x0) (sitofp .f32 x1)
def cnf (x0 : FVec Ideal S33554432 .f32) : FVec Ideal S10 .f32 :=
  Host.scatterAdd scatter_S10_S33554432x1_S33554432_n_0_0_1 zero10 (idxs x0) (confs x0)

/-! ## The run, in two parts -/

/-- Running two lists one after the other is running the second from where the first ends. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => exact ih _

/-- The whole program's contents are the second part's over the first part's. -/
theorem after_ops (V : Valuation τ sig (Elt Ideal)) :
    after (ops (F := Ideal)) V = after (opsB (F := Ideal)) (after (opsA (F := Ideal)) V) :=
  (congrArg (fun l => after l V) ops_split).trans (after_append _ _ V)

section Head
variable (V : Valuation τ sig (Elt Ideal))

set_option maxRecDepth 65536 in
set_option maxHeartbeats 4000000 in
/-- The first part leaves the counts in the first scatter's buffer. -/
theorem head_v16 : after (opsA (F := Ideal)) V (Proc.devRef .tc main_v16) = cnt (V (Proc.devRef .tc main_arg0)) := by
  after_results_simp <;> rfl

set_option maxRecDepth 65536 in
set_option maxHeartbeats 4000000 in
/-- The first part leaves the label sums in the second scatter's buffer. -/
theorem head_v20 : after (opsA (F := Ideal)) V (Proc.devRef .tc main_v20)
    = lab (V (Proc.devRef .tc main_arg0)) (V (Proc.devRef .tc main_arg1)) := by
  after_results_simp <;> rfl

set_option maxRecDepth 65536 in
set_option maxHeartbeats 4000000 in
/-- The first part leaves the confidence sums in the third scatter's buffer. -/
theorem head_v23 : after (opsA (F := Ideal)) V (Proc.devRef .tc main_v23) = cnf (V (Proc.devRef .tc main_arg0)) := by
  after_results_simp <;> rfl

set_option maxRecDepth 65536 in
set_option maxHeartbeats 4000000 in
/-- The first part writes neither argument. -/
theorem head_arg0 : after (opsA (F := Ideal)) V (Proc.devRef .tc main_arg0) = V (Proc.devRef .tc main_arg0) := by
  after_results_simp <;> rfl
set_option maxRecDepth 65536 in
set_option maxHeartbeats 4000000 in
theorem head_arg1 : after (opsA (F := Ideal)) V (Proc.devRef .tc main_arg1) = V (Proc.devRef .tc main_arg1) := by
  after_results_simp <;> rfl
end Head

section TailPart
variable (W : Valuation τ sig (Elt Ideal))

set_option maxRecDepth 65536 in
set_option maxHeartbeats 4000000 in
/-- The second part's four results over whatever the three scatter buffers hold. -/
theorem tail_v28 : after (opsB (F := Ideal)) W (Proc.devRef .tc main_v28)
    = mean (W (Proc.devRef .tc main_v16)) (W (Proc.devRef .tc main_v20)) := by
  after_results_simp <;> rfl

set_option maxRecDepth 65536 in
set_option maxHeartbeats 4000000 in
theorem tail_v30 : after (opsB (F := Ideal)) W (Proc.devRef .tc main_v30)
    = mean (W (Proc.devRef .tc main_v16)) (W (Proc.devRef .tc main_v23)) := by
  after_results_simp <;> rfl

set_option maxRecDepth 65536 in
set_option maxHeartbeats 4000000 in
theorem tail_v34 : after (opsB (F := Ideal)) W (Proc.devRef .tc main_v34)
    = gapSum (W (Proc.devRef .tc main_v16)) (W (Proc.devRef .tc main_v20)) (W (Proc.devRef .tc main_v23)) := by
  after_results_simp <;> rfl

set_option maxRecDepth 65536 in
set_option maxHeartbeats 4000000 in
theorem tail_v35 : after (opsB (F := Ideal)) W (Proc.devRef .tc main_v35)
    = gapMax (W (Proc.devRef .tc main_v16)) (W (Proc.devRef .tc main_v20)) (W (Proc.devRef .tc main_v23)) := by
  after_results_simp <;> rfl

set_option maxRecDepth 65536 in
set_option maxHeartbeats 4000000 in
/-- The second part writes neither argument. -/
theorem tail_arg0 : after (opsB (F := Ideal)) W (Proc.devRef .tc main_arg0) = W (Proc.devRef .tc main_arg0) := by
  after_results_simp <;> rfl
set_option maxRecDepth 65536 in
set_option maxHeartbeats 4000000 in
theorem tail_arg1 : after (opsB (F := Ideal)) W (Proc.devRef .tc main_arg1) = W (Proc.devRef .tc main_arg1) := by
  after_results_simp <;> rfl
end TailPart

/-- Every weakly fair execution of the reference terminates with its four results at these values of the two
    argument arrays, which end unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v28)
          = mean (cnt (m ((c.tc : Thread nD τ).loc main_arg0))) (lab (m ((c.tc : Thread nD τ).loc main_arg0)) (m ((c.tc : Thread nD τ).loc main_arg1)))
      ∧ r.2.mem ((c.tc : Thread nD τ).loc main_v30)
          = mean (cnt (m ((c.tc : Thread nD τ).loc main_arg0))) (cnf (m ((c.tc : Thread nD τ).loc main_arg0)))
      ∧ r.2.mem ((c.tc : Thread nD τ).loc main_v34)
          = gapSum (cnt (m ((c.tc : Thread nD τ).loc main_arg0))) (lab (m ((c.tc : Thread nD τ).loc main_arg0)) (m ((c.tc : Thread nD τ).loc main_arg1))) (cnf (m ((c.tc : Thread nD τ).loc main_arg0)))
      ∧ r.2.mem ((c.tc : Thread nD τ).loc main_v35)
          = gapMax (cnt (m ((c.tc : Thread nD τ).loc main_arg0))) (lab (m ((c.tc : Thread nD τ).loc main_arg0)) (m ((c.tc : Thread nD τ).loc main_arg1))) (cnf (m ((c.tc : Thread nD τ).loc main_arg0)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => by
      have hb : ∀ b : Ref sig .tc, _ = after (opsB (F := Ideal)) (after (opsA (F := Ideal)) (launchContents m c)) (Proc.devRef .tc b) :=
        fun b => (h c b).trans (congrFun (after_ops (launchContents m c)) (Proc.devRef .tc b))
      refine ⟨(hb main_v28).trans ?_, (hb main_v30).trans ?_, (hb main_v34).trans ?_, (hb main_v35).trans ?_,
        (hb main_arg0).trans ?_, (hb main_arg1).trans ?_⟩
      · rw [tail_v28, head_v16, head_v20]
      · rw [tail_v30, head_v16, head_v23]
      · rw [tail_v34, head_v16, head_v20, head_v23]
      · rw [tail_v35, head_v16, head_v20, head_v23]
      · rw [tail_arg0, head_arg0]
      · rw [tail_arg1, head_arg1])
    (run_seq scopedRefs_eq scopedSems_eq defs main (fun _ => ops) main_eq (fun _ => ops_sub) m ρ)

/-! ## The three histograms read at an entry -/

/-- A prediction's confidence is the logistic function of its logit. -/
theorem confs_apply (x0 : FVec Ideal S33554432 .f32) (i : S33554432.Idx) : confs x0 i = conf (x0 i) := by
  show Ideal.div (Ideal.ofBits .f32 0x3F800000#32) (Ideal.ofBits .f32 0x3F800000#32 + Ideal.exp (-(x0 i))) = Ideal.logistic (x0 i)
  rw [Ideal.ofBits_one_f32]; rfl

/-- A prediction's bin word is the bin word of its logit. -/
theorem bins_apply (x0 : FVec Ideal S33554432 .f32) (i : S33554432.Idx) : bins x0 i = bin (x0 i) := by
  show IntOp.minsi 9#32 (IntOp.maxsi 0#32 (IntOp.subi (FloatOps.fptosi (F := Ideal) (φ := .f32) 32
    (FloatOps.ceil (F := Ideal) (φ := .f32) (FloatOps.mulf (F := Ideal) (φ := .f32) (confs x0 i)
      (FloatOps.ofBits (F := Ideal) .f32 0x41200000#32)))) 1#32)) = bin (x0 i)
  rw [confs_apply]; rfl

/-- The index column's row n holds prediction n's bin word. -/
theorem idxs_apply (x0 : FVec Ideal S33554432 .f32) (n : Fin 33554432) :
    idxs x0 (ix2 n (0 : Fin 1)) = bins x0 (ix1 n) :=
  broadcastInDim_apply _ bcast_S33554432_S33554432x1_0 (bins x0) (ix2 n (0 : Fin 1)) (ix1 n) (fun a => by
    obtain rfl : a = 0 := Subsingleton.elim _ _
    rw [if_neg (by decide)]; rfl)

/-- The printed scatter record is the vector scatter's dimension numbers. -/
theorem scatter_eq : scatter_S10_S33554432x1_S33554432_n_0_0_1
    = Cert.LibScatterAdd.vecDims 10 33554432 scatter_S10_S33554432x1_S33554432_n_0_0_1_wf := rfl

/-- An accumulating scatter into the ten zeros, read at entry b: the sum, over all predictions, of the update of
    those whose bin word is b. -/
theorem hist_apply (x0 : FVec Ideal S33554432 .f32) (upd : FVec Ideal S33554432 .f32) (b : Fin 10) :
    Host.scatterAdd scatter_S10_S33554432x1_S33554432_n_0_0_1 zero10 (idxs x0) upd (ix1 b)
      = ∑ n : Fin 33554432, ind (bin (x0 (ix1 n))) (BitVec.ofNat 32 b.val) * upd (ix1 n) := by
  refine (Cert.LibScatterAdd.scatterAdd_vec_apply scatter_S10_S33554432x1_S33554432_n_0_0_1_wf zero10 (idxs x0) upd (ix1 b)).trans ?_
  rw [show (zero10 (ix1 b) : EReal) = 0 from Ideal.ofBits_zero_f32, zero_add]
  refine Finset.sum_congr rfl fun n _ => ?_
  rw [idxs_apply, bins_apply, ind_eq]
  have hb : ((BitVec.ofNat 32 b.val : BitVec 32)) = BitVec.ofNat 32 (Fin.castLE (by decide : 10 ≤ 16) b).val := rfl
  by_cases hc : (bin (x0 (ix1 n))).toInt = (((ix1 b : S10.Idx) 0).val : Int)
  · rw [if_pos hc, if_pos (hb ▸ (eq_lit_iff _ (Fin.castLE (by decide : 10 ≤ 16) b)).2 hc), one_mul]
  · rw [if_neg hc, if_neg (fun h => hc ((eq_lit_iff _ (Fin.castLE (by decide : 10 ≤ 16) b)).1 (hb ▸ h))), zero_mul]

/-- The counts at entry b. -/
theorem cnt_apply (x0 : FVec Ideal S33554432 .f32) (b : Fin 10) :
    cnt x0 (ix1 b) = ∑ n : Fin 33554432, contrib q0 (BitVec.ofNat 32 b.val) (x0 (ix1 n)) 0#32 := by
  refine (hist_apply x0 _ b).trans (Finset.sum_congr rfl fun n _ => ?_)
  show _ * Ideal.ofBits .f32 0x3F800000#32 = _
  rw [Ideal.ofBits_one_f32]; rfl

/-- The label sums at entry b. -/
theorem lab_apply (x0 : FVec Ideal S33554432 .f32) (x1 : IVec S33554432 32) (b : Fin 10) :
    lab x0 x1 (ix1 b) = ∑ n : Fin 33554432, contrib q1 (BitVec.ofNat 32 b.val) (x0 (ix1 n)) (x1 (ix1 n)) :=
  (hist_apply x0 _ b).trans (Finset.sum_congr rfl fun n _ => rfl)

/-- The confidence sums at entry b. -/
theorem cnf_apply (x0 : FVec Ideal S33554432 .f32) (b : Fin 10) :
    cnf x0 (ix1 b) = ∑ n : Fin 33554432, contrib q2 (BitVec.ofNat 32 b.val) (x0 (ix1 n)) 0#32 := by
  refine (hist_apply x0 _ b).trans (Finset.sum_congr rfl fun n _ => ?_)
  rw [confs_apply]; rfl

end Cert.ReferenceIdeal.RefValue

end
-- ==== Proof.RowStores.lean ====
/-
  Reading a 16 x 128 accumulator after a list of whole-row stores, and one row's update.

  The newest store wins: if the newest store of the list wrote row k, then row b reads that store's value when
  b = k and what the older stores left otherwise. A row update adds to the row's old contents the sum, down the
  4096 rows of a block, of a 4096 x 128 array of terms: lane l gets the sum of column l.
-/
import proofs.«166259_j43946105373039_2_alg».proof.Proof.Gen.KernelIdeal.Skeleton
import Idealize.ShloMosaic.Lib.WritesUnit
import Idealize.ShloMosaic.Lib.ValueIdx
import Idealize.ShloMosaic.Lib.Pipeline.Value
import Idealize.ShloMosaic.PureOps.Ideal.Laws

noncomputable section

open scoped BigOperators

namespace Cert.KernelIdeal.Rows

open Cert.KernelIdeal Cert.KernelIdeal.Gen Idealize.ShloMosaic Idealize.ShloMosaic.ValueIdx

variable {sg : RefSig} {κ : Kind} {sp : Space} {e : EltTy} {Val : EltTy → Type}

/-- Row b, lane l of the accumulator after a list of stores whose newest wrote the whole row k. -/
theorem read_row_cons (v : View sg κ sp S16x128 e) (f : v.ty.Contents Val) (k : ℕ)
    (inb : ∀ a, (![k, 0] : Fin 2 → ℕ) a + (![1, 128] : Fin 2 → ℕ) a ≤ S16x128.size a)
    (w : (Rect.unit (s := S16x128) ![k, 0] ![1, 128] inb).shape.Idx → Val e) (L : List (View.Piece Val S16x128 e))
    (b : Fin 16) (l : Fin 128) :
    v.read Val (v.writes Val f ((⟨Rect.unit (s := S16x128) ![k, 0] ![1, 128] inb, w⟩ : View.Piece Val S16x128 e) :: L)) (ix2 b l)
      = if b.val = k then w (ix2 (0 : Fin 1) l) else v.read Val (v.writes Val f L) (ix2 b l) := by
  by_cases h : b.val = k
  · rw [if_pos h]
    exact View.read_writes_cons_rows_of_mem v f inb w L (ix2 b l) (ix2 (0 : Fin 1) l) rfl
      (by show b.val = k + 0; omega) rfl
  · rw [if_neg h]
    exact View.read_writes_cons_rows_of_not_mem (W := 1) v f inb w L (ix2 b l) rfl rfl
      (by show b.val < k ∨ k + 1 ≤ b.val; omega)

/-- Row k of the accumulator, loaded, at lane l: the accumulator's entry at row b = k. -/
theorem ld_row (X : S16x128.Idx → Val e) (k : ℕ)
    (inb : ∀ a, (![k, 0] : Fin 2 → ℕ) a + (![1, 128] : Fin 2 → ℕ) a ≤ S16x128.size a) (b : Fin 16) (hb : b.val = k) (l : Fin 128) :
    View.ld X (Rect.unit (s := S16x128) ![k, 0] ![1, 128] inb) (ix2 (0 : Fin 1) l) = X (ix2 b l) := by
  show X _ = X _
  congr 1
  funext a
  refine Fin.ext ?_
  match a with
  | ⟨0, _⟩ => show k + 1 * 0 = b.val; omega
  | ⟨1, _⟩ => show 0 + 1 * l.val = l.val; omega

/-- A sum over the block's rows into lane l, laid out as a 1 x 128 row, added to the row's old contents. -/
theorem row_update (old : Vec Ideal S1x128 .f32) (M : FVec Ideal S4096x128 .f32) (l : Fin 128) :
    addf old (shapeCast S1x128 (multiReduction .add [0] S128 M 0x00000000#32 reduces_S4096x128_S128 (.inl rfl) rfl)
      shapeCasts_S128_S1x128) (ix2 (0 : Fin 1) l) = old (ix2 (0 : Fin 1) l) + ∑ r : Fin 4096, M (ix2 r l) := by
  show old _ + shapeCast S1x128 _ shapeCasts_S128_S1x128 _ = _
  congr 1
  rw [shapeCast_addUnit_apply ![128]]
  refine (Ideal.multiReduction_add_single M 0x00000000#32 reduces_S4096x128_S128 (.inl rfl) rfl _).trans ?_
  refine Finset.sum_congr rfl fun r _ => congrArg M ?_
  funext a
  refine Fin.ext ?_
  match a with
  | ⟨0, _⟩ => rfl
  | ⟨1, _⟩ => rfl

end Cert.KernelIdeal.Rows

end
-- ==== Proof.PiecesBase.lean ====
/-
  What one grid point leaves in the three 16 x 128 accumulators: the lemmas shared by the three accumulators.

  At a grid point the body computes, for each bin b = 0..9 and each of the three summed quantities, the sum down the
  block's 4096 rows of indicator(bin = b) times the quantity, and adds it to row b of that quantity's accumulator; rows
  10 to 15 are never stored. At a core's first point the accumulators are zeroed first, and each row is then loaded
  back through the stores of the lower rows, which do not touch it.
-/
import proofs.«166259_j43946105373039_2_alg».proof.Proof.Gen.KernelIdeal.Frame
import proofs.«166259_j43946105373039_2_alg».proof.Proof.RowStores
import proofs.«166259_j43946105373039_2_alg».proof.Proof.Bins
import Idealize.ShloMosaic.Lib.Pipeline.RowLoads

set_option maxRecDepth 16384

noncomputable section

open scoped BigOperators

namespace Cert.KernelIdeal.Pieces

open Cert.KernelIdeal Cert.KernelIdeal.Gen Cert.KernelIdeal.Rows Cert.Hist
open Idealize.ShloMosaic Idealize.ShloMosaic.TcCoe Idealize.ShloMosaic.Tactic Idealize.ShloMosaic.ValueIdx
open Idealize.SL Idealize.SL.Sem

/-- The offsets of a whole-block rectangle are zero on both axes. -/
theorem hz2 : (![0, 0] : Fin 2 → ℕ) = fun _ => 0 := by
  funext a; match a with | ⟨0, _⟩ => rfl | ⟨1, _⟩ => rfl

/-- One row's update meets the specification: the row's old contents are the accumulator's row b, and the summed
    terms are the contributions to bin word k. -/
theorem row_goal (q : EReal → BitVec 32 → EReal) (x0 : Vec Ideal S4096x128 .f32) (x1 : Vec Ideal S4096x128 .i32)
    (xs : Vec Ideal S16x128 .f32) (k : ℕ) (hk : k < 10) (b : Fin 16) (hb : b.val = k) (l : Fin 128)
    (old : Vec Ideal S1x128 .f32) (M : FVec Ideal S4096x128 .f32)
    (hold : old (ix2 (0 : Fin 1) l) = xs (ix2 b l))
    (hM : ∀ r : Fin 4096, M (ix2 r l) = contrib q (BitVec.ofNat 32 k) (x0 (ix2 r l)) (x1 (ix2 r l))) :
    addf old (shapeCast S1x128 (multiReduction .add [0] S128 M 0x00000000#32 reduces_S4096x128_S128 (.inl rfl) rfl)
      shapeCasts_S128_S1x128) (ix2 (0 : Fin 1) l) = xs (ix2 b l) + tile q x0 x1 (ix2 b l) := by
  rw [row_update, hold]
  congr 1
  unfold tile
  rw [if_pos (show (ix2 b l 0).val < 10 from by show b.val < 10; omega)]
  unfold colSum
  refine Finset.sum_congr rfl fun r _ => ?_
  rw [hM r]
  show contrib q (BitVec.ofNat 32 k) _ _ = contrib q (BitVec.ofNat 32 b.val) _ _
  rw [hb]

/-- Rows 10 to 15 get nothing from a block. -/
theorem tile_high (q : EReal → BitVec 32 → EReal) (x0 : Vec Ideal S4096x128 .f32) (x1 : Vec Ideal S4096x128 .i32)
    (b : Fin 16) (l : Fin 128) (hb : 10 ≤ b.val) : tile q x0 x1 (ix2 b l) = 0 := by
  unfold tile
  rw [if_neg (show ¬ (ix2 b l 0).val < 10 from by show ¬ b.val < 10; omega)]

/-- Every value the body stores, opened to the body's vector operations. -/
macro "unfold_pays" : tactic => `(tactic| simp only [k0_pay1, k0_pay2, k0_pay3, k0_pay4, k0_pay5, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, shapeCast_self])

/-- A whole-accumulator store made last is what every entry reads. -/
theorem read_whole_cons {sg : RefSig} {κ : Kind} {sp : Space} {e : EltTy} {Val : EltTy → Type} (v : View sg κ sp S16x128 e)
    (f : v.ty.Contents Val) (inb : ∀ a, (![0, 0] : Fin 2 → ℕ) a + (![16, 128] : Fin 2 → ℕ) a ≤ S16x128.size a)
    (w : (Rect.unit (s := S16x128) ![0, 0] ![16, 128] inb).shape.Idx → Val e) (L : List (View.Piece Val S16x128 e))
    (y : S16x128.Idx) :
    v.read Val (v.writes Val f ((⟨Rect.unit (s := S16x128) ![0, 0] ![16, 128] inb, w⟩ : View.Piece Val S16x128 e) :: L)) y = w y :=
  View.read_writes_cons_unit_of_mem v f inb w L y y rfl fun a => by
    match a with
    | ⟨0, _⟩ => exact (Nat.zero_add _).symm
    | ⟨1, _⟩ => exact (Nat.zero_add _).symm

/-- A row loaded after one whole-accumulator store reads that store's row. -/
theorem readCov_whole_row {sg : RefSig} {κ : Kind} {sp : Space} (v : View sg κ sp S16x128 .f32)
    (inb0 : ∀ a, (![0, 0] : Fin 2 → ℕ) a + (![16, 128] : Fin 2 → ℕ) a ≤ S16x128.size a)
    (w : S16x128.Idx → Elt Ideal .f32) (k : ℕ)
    (inb : ∀ a, (![k, 0] : Fin 2 → ℕ) a + (![1, 128] : Fin 2 → ℕ) a ≤ S16x128.size a) :
    v.readCov [(⟨Rect.unit (s := S16x128) ![0, 0] ![16, 128] inb0, w⟩ : View.Piece (Elt Ideal) S16x128 .f32)]
        (Rect.unit (s := S16x128) ![k, 0] ![1, 128] inb).toLoadRect
      = View.ld w (Rect.unit (s := S16x128) ![k, 0] ![1, 128] inb) := by
  have hcov : ∀ y : S16x128.Idx, ∃ p ∈ [(⟨Rect.unit (s := S16x128) ![0, 0] ![16, 128] inb0, w⟩ : View.Piece (Elt Ideal) S16x128 .f32)], y ∈ p.1.set :=
    fun y => ⟨_, List.mem_singleton_self _, View.mem_set_unit_zero (S := S16x128) hz2 inb0 y⟩
  rw [View.readCov_eq_canon_ld _ _ _ hcov, View.canon_unit_zero (S := S16x128) hz2]

/-- A load of row k passes over an older store of a lower row o. -/
theorem readCov_skip {sg : RefSig} {κ : Kind} {sp : Space} (v : View sg κ sp S16x128 .f32) (o k : ℕ) (hlt : o < k)
    (inb : ∀ a, (![o, 0] : Fin 2 → ℕ) a + (![1, 128] : Fin 2 → ℕ) a ≤ S16x128.size a)
    (x : (⟨2, ![1, 128]⟩ : Shape).Idx → Elt Ideal .f32) (L : List (View.Piece (Elt Ideal) S16x128 .f32))
    (inbk : ∀ a, (![k, 0] : Fin 2 → ℕ) a + (![1, 128] : Fin 2 → ℕ) a ≤ S16x128.size a)
    (Y : (⟨2, ![1, 128]⟩ : Shape).Idx → Elt Ideal .f32)
    (h : v.readCov L (Rect.unit (s := S16x128) ![k, 0] ![1, 128] inbk).toLoadRect = Y) :
    v.readCov ((⟨Rect.unit (s := S16x128) ![o, 0] ![1, 128] inb, x⟩ : View.Piece (Elt Ideal) S16x128 .f32) :: L)
        (Rect.unit (s := S16x128) ![k, 0] ![1, 128] inbk).toLoadRect = Y :=
  (View.readCov_cons_of_rows_disjoint (m := 16) (n := 128) (k := 1) (k' := 1) v o k (Or.inl (by omega)) x L inb inbk).trans h

/-- The three accumulators start at zero. -/
theorem pay6_zero (y : S16x128.Idx) : k0_pay6 (F := Ideal) y = 0 := by
  unfold k0_pay6; rw [shapeCast_self]; exact Ideal.ofBits_zero_f32
theorem pay7_zero (y : S16x128.Idx) : k0_pay7 (F := Ideal) y = 0 := by
  unfold k0_pay7; rw [shapeCast_self]; exact Ideal.ofBits_zero_f32
theorem pay8_zero (y : S16x128.Idx) : k0_pay8 (F := Ideal) y = 0 := by
  unfold k0_pay8; rw [shapeCast_self]; exact Ideal.ofBits_zero_f32

/-- A whole-block store made last into a [1, 16, 128] output block is what every entry reads. -/
theorem read_whole3 {sg : RefSig} {κ : Kind} {sp : Space} {e : EltTy} {Val : EltTy → Type} (v : View sg κ sp S1x16x128 e)
    (f : v.ty.Contents Val) (inb : ∀ a, (![0, 0, 0] : Fin 3 → ℕ) a + (![1, 16, 128] : Fin 3 → ℕ) a ≤ S1x16x128.size a)
    (w : (Rect.unit (s := S1x16x128) ![0, 0, 0] ![1, 16, 128] inb).shape.Idx → Val e) (L : List (View.Piece Val S1x16x128 e))
    (y : S1x16x128.Idx) :
    v.read Val (v.writes Val f ((⟨Rect.unit (s := S1x16x128) ![0, 0, 0] ![1, 16, 128] inb, w⟩ : View.Piece Val S1x16x128 e) :: L)) y = w y :=
  View.read_writes_cons_unit_of_mem v f inb w L y y rfl fun a => by
    match a with
    | ⟨0, _⟩ => exact (Nat.zero_add _).symm
    | ⟨1, _⟩ => exact (Nat.zero_add _).symm
    | ⟨2, _⟩ => exact (Nat.zero_add _).symm

end Cert.KernelIdeal.Pieces

end
-- ==== Proof.Pieces0.lean ====
/-
  Accumulator 0 of the three (summed quantity 1: the counts) after one grid point, in each of
  the body's three control cases, and the output block the last point of a run copies it into.
-/
import proofs.«166259_j43946105373039_2_alg».proof.Proof.PiecesBase

set_option maxRecDepth 16384

noncomputable section

open scoped BigOperators

namespace Cert.KernelIdeal.Pieces

open Cert.KernelIdeal Cert.KernelIdeal.Gen Cert.KernelIdeal.Rows Cert.Hist
open Idealize.ShloMosaic Idealize.ShloMosaic.TcCoe Idealize.ShloMosaic.Tactic Idealize.ShloMosaic.ValueIdx
open Idealize.SL Idealize.SL.Sem

set_option maxHeartbeats 4000000 in
/-- A later grid point adds its block's column sums to accumulator 0 and leaves rows 10 to 15 as they were. -/
theorem sB0 (c : Dev nD) (i : grid0.Coords) (arg2 : Memref sig .tc .vmem S4096x128 .f32) (harg2 : arg2.IsWhole) (arg3 : Memref sig .tc .vmem S4096x128 .i32) (harg3 : arg3.IsWhole) (arg4 : Memref sig .tc .vmem S1x16x128 .f32) (harg4 : arg4.IsWhole) (arg5 : Memref sig .tc .vmem S1x16x128 .f32) (harg5 : arg5.IsWhole) (arg6 : Memref sig .tc .vmem S1x16x128 .f32) (harg6 : arg6.IsWhole) (arg7 : Memref sig .tc .vmem S16x128 .f32) (harg7 : arg7.IsWhole) (arg8 : Memref sig .tc .vmem S16x128 .f32) (harg8 : arg8.IsWhole) (arg9 : Memref sig .tc .vmem S16x128 .f32) (harg9 : arg9.IsWhole) (hc0 : ¬cond0_0 i) (hc1 : ¬cond0_1 i)
    (x0 : Vec Ideal S4096x128 .f32) (x1 : Vec Ideal S4096x128 .i32) (xs0 : Vec Ideal S16x128 .f32) (xs1 : Vec Ideal S16x128 .f32) (xs2 : Vec Ideal S16x128 .f32)
    (b : Fin 16) (l : Fin 128) :
    sout0_B_0 (F := Ideal) c i arg2 harg2 arg3 harg3 arg4 harg4 arg5 harg5 arg6 harg6 arg7 harg7 arg8 harg8 arg9 harg9 hc0 hc1 x0 x1 xs0 xs1 xs2 (ix2 b l) = xs0 (ix2 b l) + tile q0 x0 x1 (ix2 b l) := by
  unfold sout0_B_0 kernelRun0_B
  dsimp only
  sl_unfold_words
  simp only [read_row_cons, View.writes_nil, harg7.read_unread, View.readAt_eq_ld, harg2.read_unread, harg3.read_unread,
    View.ld_unit_zero (S := S4096x128) hz2]
  have hb := b.isLt
  split_ifs with h9 h8 h7 h6 h5 h4 h3 h2 h1 h0
  · unfold_pays
    refine row_goal q0 x0 x1 xs0 9 (by decide) b h9 l _ _ ?_ ?_
    · exact ld_row _ 9 _ b h9 l
    · intro r; exact (mul_one _).symm
  · unfold_pays
    refine row_goal q0 x0 x1 xs0 8 (by decide) b h8 l _ _ ?_ ?_
    · exact ld_row _ 8 _ b h8 l
    · intro r; exact (mul_one _).symm
  · unfold_pays
    refine row_goal q0 x0 x1 xs0 7 (by decide) b h7 l _ _ ?_ ?_
    · exact ld_row _ 7 _ b h7 l
    · intro r; exact (mul_one _).symm
  · unfold_pays
    refine row_goal q0 x0 x1 xs0 6 (by decide) b h6 l _ _ ?_ ?_
    · exact ld_row _ 6 _ b h6 l
    · intro r; exact (mul_one _).symm
  · unfold_pays
    refine row_goal q0 x0 x1 xs0 5 (by decide) b h5 l _ _ ?_ ?_
    · exact ld_row _ 5 _ b h5 l
    · intro r; exact (mul_one _).symm
  · unfold_pays
    refine row_goal q0 x0 x1 xs0 4 (by decide) b h4 l _ _ ?_ ?_
    · exact ld_row _ 4 _ b h4 l
    · intro r; exact (mul_one _).symm
  · unfold_pays
    refine row_goal q0 x0 x1 xs0 3 (by decide) b h3 l _ _ ?_ ?_
    · exact ld_row _ 3 _ b h3 l
    · intro r; exact (mul_one _).symm
  · unfold_pays
    refine row_goal q0 x0 x1 xs0 2 (by decide) b h2 l _ _ ?_ ?_
    · exact ld_row _ 2 _ b h2 l
    · intro r; exact (mul_one _).symm
  · unfold_pays
    refine row_goal q0 x0 x1 xs0 1 (by decide) b h1 l _ _ ?_ ?_
    · exact ld_row _ 1 _ b h1 l
    · intro r; exact (mul_one _).symm
  · unfold_pays
    refine row_goal q0 x0 x1 xs0 0 (by decide) b h0 l _ _ ?_ ?_
    · exact ld_row _ 0 _ b h0 l
    · intro r; exact (mul_one _).symm
  · rw [tile_high q0 x0 x1 b l (by omega), add_zero]

set_option maxHeartbeats 4000000 in
/-- A later grid point adds its block's column sums to accumulator 0 and leaves rows 10 to 15 as they were (the last point of a run). -/
theorem sC0 (c : Dev nD) (i : grid0.Coords) (arg2 : Memref sig .tc .vmem S4096x128 .f32) (harg2 : arg2.IsWhole) (arg3 : Memref sig .tc .vmem S4096x128 .i32) (harg3 : arg3.IsWhole) (arg4 : Memref sig .tc .vmem S1x16x128 .f32) (harg4 : arg4.IsWhole) (arg5 : Memref sig .tc .vmem S1x16x128 .f32) (harg5 : arg5.IsWhole) (arg6 : Memref sig .tc .vmem S1x16x128 .f32) (harg6 : arg6.IsWhole) (arg7 : Memref sig .tc .vmem S16x128 .f32) (harg7 : arg7.IsWhole) (arg8 : Memref sig .tc .vmem S16x128 .f32) (harg8 : arg8.IsWhole) (arg9 : Memref sig .tc .vmem S16x128 .f32) (harg9 : arg9.IsWhole) (hc0 : ¬cond0_0 i) (hc1 : cond0_1 i)
    (x0 : Vec Ideal S4096x128 .f32) (x1 : Vec Ideal S4096x128 .i32) (xs0 : Vec Ideal S16x128 .f32) (xs1 : Vec Ideal S16x128 .f32) (xs2 : Vec Ideal S16x128 .f32)
    (b : Fin 16) (l : Fin 128) :
    sout0_C_0 (F := Ideal) c i arg2 harg2 arg3 harg3 arg4 harg4 arg5 harg5 arg6 harg6 arg7 harg7 arg8 harg8 arg9 harg9 hc0 hc1 x0 x1 xs0 xs1 xs2 (ix2 b l) = xs0 (ix2 b l) + tile q0 x0 x1 (ix2 b l) := by
  unfold sout0_C_0 kernelRun0_C
  dsimp only
  sl_unfold_words
  simp only [read_row_cons, View.writes_nil, harg7.read_unread, View.readAt_eq_ld, harg2.read_unread, harg3.read_unread,
    View.ld_unit_zero (S := S4096x128) hz2]
  have hb := b.isLt
  split_ifs with h9 h8 h7 h6 h5 h4 h3 h2 h1 h0
  · unfold_pays
    refine row_goal q0 x0 x1 xs0 9 (by decide) b h9 l _ _ ?_ ?_
    · exact ld_row _ 9 _ b h9 l
    · intro r; exact (mul_one _).symm
  · unfold_pays
    refine row_goal q0 x0 x1 xs0 8 (by decide) b h8 l _ _ ?_ ?_
    · exact ld_row _ 8 _ b h8 l
    · intro r; exact (mul_one _).symm
  · unfold_pays
    refine row_goal q0 x0 x1 xs0 7 (by decide) b h7 l _ _ ?_ ?_
    · exact ld_row _ 7 _ b h7 l
    · intro r; exact (mul_one _).symm
  · unfold_pays
    refine row_goal q0 x0 x1 xs0 6 (by decide) b h6 l _ _ ?_ ?_
    · exact ld_row _ 6 _ b h6 l
    · intro r; exact (mul_one _).symm
  · unfold_pays
    refine row_goal q0 x0 x1 xs0 5 (by decide) b h5 l _ _ ?_ ?_
    · exact ld_row _ 5 _ b h5 l
    · intro r; exact (mul_one _).symm
  · unfold_pays
    refine row_goal q0 x0 x1 xs0 4 (by decide) b h4 l _ _ ?_ ?_
    · exact ld_row _ 4 _ b h4 l
    · intro r; exact (mul_one _).symm
  · unfold_pays
    refine row_goal q0 x0 x1 xs0 3 (by decide) b h3 l _ _ ?_ ?_
    · exact ld_row _ 3 _ b h3 l
    · intro r; exact (mul_one _).symm
  · unfold_pays
    refine row_goal q0 x0 x1 xs0 2 (by decide) b h2 l _ _ ?_ ?_
    · exact ld_row _ 2 _ b h2 l
    · intro r; exact (mul_one _).symm
  · unfold_pays
    refine row_goal q0 x0 x1 xs0 1 (by decide) b h1 l _ _ ?_ ?_
    · exact ld_row _ 1 _ b h1 l
    · intro r; exact (mul_one _).symm
  · unfold_pays
    refine row_goal q0 x0 x1 xs0 0 (by decide) b h0 l _ _ ?_ ?_
    · exact ld_row _ 0 _ b h0 l
    · intro r; exact (mul_one _).symm
  · rw [tile_high q0 x0 x1 b l (by omega), add_zero]

set_option maxHeartbeats 8000000 in
/-- A core's first grid point zeroes accumulator 0 and adds its block's column sums. -/
theorem sA0 (c : Dev nD) (i : grid0.Coords) (arg2 : Memref sig .tc .vmem S4096x128 .f32) (harg2 : arg2.IsWhole) (arg3 : Memref sig .tc .vmem S4096x128 .i32) (harg3 : arg3.IsWhole) (arg4 : Memref sig .tc .vmem S1x16x128 .f32) (harg4 : arg4.IsWhole) (arg5 : Memref sig .tc .vmem S1x16x128 .f32) (harg5 : arg5.IsWhole) (arg6 : Memref sig .tc .vmem S1x16x128 .f32) (harg6 : arg6.IsWhole) (arg7 : Memref sig .tc .vmem S16x128 .f32) (harg7 : arg7.IsWhole) (arg8 : Memref sig .tc .vmem S16x128 .f32) (harg8 : arg8.IsWhole) (arg9 : Memref sig .tc .vmem S16x128 .f32) (harg9 : arg9.IsWhole) (hc0 : cond0_0 i) (hc1 : ¬cond0_1 i)
    (x0 : Vec Ideal S4096x128 .f32) (x1 : Vec Ideal S4096x128 .i32) (b : Fin 16) (l : Fin 128) :
    sout0_A_0 (F := Ideal) c i arg2 harg2 arg3 harg3 arg4 harg4 arg5 harg5 arg6 harg6 arg7 harg7 arg8 harg8 arg9 harg9 hc0 hc1 x0 x1 (ix2 b l) = tile q0 x0 x1 (ix2 b l) := by
  unfold sout0_A_0 kernelRun0_A
  dsimp only
  rw [read_row_cons]; unfold kernelRun0_A.sl.HS0_10
  rw [read_row_cons]; unfold kernelRun0_A.sl.HS0_9
  rw [read_row_cons]; unfold kernelRun0_A.sl.HS0_8
  rw [read_row_cons]; unfold kernelRun0_A.sl.HS0_7
  rw [read_row_cons]; unfold kernelRun0_A.sl.HS0_6
  rw [read_row_cons]; unfold kernelRun0_A.sl.HS0_5
  rw [read_row_cons]; unfold kernelRun0_A.sl.HS0_4
  rw [read_row_cons]; unfold kernelRun0_A.sl.HS0_3
  rw [read_row_cons]; unfold kernelRun0_A.sl.HS0_2
  rw [read_row_cons]; unfold kernelRun0_A.sl.HS0_1
  rw [read_whole_cons]
  have hb := b.isLt
  split_ifs with h9 h8 h7 h6 h5 h4 h3 h2 h1 h0
  · sl_unfold_words
    generalize hv : View.readCov (Val := Elt Ideal) arg7.view _ (Rect.unit (s := S16x128) ![9, 0] ![1, 128] _).toLoadRect = v
    have hv' : v = View.ld (k0_pay6 (F := Ideal)) (Rect.unit (s := S16x128) ![9, 0] ![1, 128] inb_S16x128_S1x128_9_0) :=
      hv.symm.trans (readCov_skip _ 8 9 (by omega) _ _ _ _ _ (readCov_skip _ 7 9 (by omega) _ _ _ _ _ (readCov_skip _ 6 9 (by omega) _ _ _ _ _ (readCov_skip _ 5 9 (by omega) _ _ _ _ _ (readCov_skip _ 4 9 (by omega) _ _ _ _ _ (readCov_skip _ 3 9 (by omega) _ _ _ _ _ (readCov_skip _ 2 9 (by omega) _ _ _ _ _ (readCov_skip _ 1 9 (by omega) _ _ _ _ _ (readCov_skip _ 0 9 (by omega) _ _ _ _ _ (readCov_whole_row _ _ _ 9 _))))))))))
    subst hv'
    simp only [View.readAt_eq_ld, harg2.read_unread, harg3.read_unread, View.ld_unit_zero (S := S4096x128) hz2]
    unfold_pays
    refine Eq.trans (row_goal q0 x0 x1 (k0_pay6 (F := Ideal)) 9 (by decide) b h9 l _ _ ?_ ?_) ?_
    · exact ld_row _ 9 _ b h9 l
    · intro r; exact (mul_one _).symm
    · rw [pay6_zero, zero_add]
  · sl_unfold_words
    generalize hv : View.readCov (Val := Elt Ideal) arg7.view _ (Rect.unit (s := S16x128) ![8, 0] ![1, 128] _).toLoadRect = v
    have hv' : v = View.ld (k0_pay6 (F := Ideal)) (Rect.unit (s := S16x128) ![8, 0] ![1, 128] inb_S16x128_S1x128_8_0) :=
      hv.symm.trans (readCov_skip _ 7 8 (by omega) _ _ _ _ _ (readCov_skip _ 6 8 (by omega) _ _ _ _ _ (readCov_skip _ 5 8 (by omega) _ _ _ _ _ (readCov_skip _ 4 8 (by omega) _ _ _ _ _ (readCov_skip _ 3 8 (by omega) _ _ _ _ _ (readCov_skip _ 2 8 (by omega) _ _ _ _ _ (readCov_skip _ 1 8 (by omega) _ _ _ _ _ (readCov_skip _ 0 8 (by omega) _ _ _ _ _ (readCov_whole_row _ _ _ 8 _)))))))))
    subst hv'
    simp only [View.readAt_eq_ld, harg2.read_unread, harg3.read_unread, View.ld_unit_zero (S := S4096x128) hz2]
    unfold_pays
    refine Eq.trans (row_goal q0 x0 x1 (k0_pay6 (F := Ideal)) 8 (by decide) b h8 l _ _ ?_ ?_) ?_
    · exact ld_row _ 8 _ b h8 l
    · intro r; exact (mul_one _).symm
    · rw [pay6_zero, zero_add]
  · sl_unfold_words
    generalize hv : View.readCov (Val := Elt Ideal) arg7.view _ (Rect.unit (s := S16x128) ![7, 0] ![1, 128] _).toLoadRect = v
    have hv' : v = View.ld (k0_pay6 (F := Ideal)) (Rect.unit (s := S16x128) ![7, 0] ![1, 128] inb_S16x128_S1x128_7_0) :=
      hv.symm.trans (readCov_skip _ 6 7 (by omega) _ _ _ _ _ (readCov_skip _ 5 7 (by omega) _ _ _ _ _ (readCov_skip _ 4 7 (by omega) _ _ _ _ _ (readCov_skip _ 3 7 (by omega) _ _ _ _ _ (readCov_skip _ 2 7 (by omega) _ _ _ _ _ (readCov_skip _ 1 7 (by omega) _ _ _ _ _ (readCov_skip _ 0 7 (by omega) _ _ _ _ _ (readCov_whole_row _ _ _ 7 _))))))))
    subst hv'
    simp only [View.readAt_eq_ld, harg2.read_unread, harg3.read_unread, View.ld_unit_zero (S := S4096x128) hz2]
    unfold_pays
    refine Eq.trans (row_goal q0 x0 x1 (k0_pay6 (F := Ideal)) 7 (by decide) b h7 l _ _ ?_ ?_) ?_
    · exact ld_row _ 7 _ b h7 l
    · intro r; exact (mul_one _).symm
    · rw [pay6_zero, zero_add]
  · sl_unfold_words
    generalize hv : View.readCov (Val := Elt Ideal) arg7.view _ (Rect.unit (s := S16x128) ![6, 0] ![1, 128] _).toLoadRect = v
    have hv' : v = View.ld (k0_pay6 (F := Ideal)) (Rect.unit (s := S16x128) ![6, 0] ![1, 128] inb_S16x128_S1x128_6_0) :=
      hv.symm.trans (readCov_skip _ 5 6 (by omega) _ _ _ _ _ (readCov_skip _ 4 6 (by omega) _ _ _ _ _ (readCov_skip _ 3 6 (by omega) _ _ _ _ _ (readCov_skip _ 2 6 (by omega) _ _ _ _ _ (readCov_skip _ 1 6 (by omega) _ _ _ _ _ (readCov_skip _ 0 6 (by omega) _ _ _ _ _ (readCov_whole_row _ _ _ 6 _)))))))
    subst hv'
    simp only [View.readAt_eq_ld, harg2.read_unread, harg3.read_unread, View.ld_unit_zero (S := S4096x128) hz2]
    unfold_pays
    refine Eq.trans (row_goal q0 x0 x1 (k0_pay6 (F := Ideal)) 6 (by decide) b h6 l _ _ ?_ ?_) ?_
    · exact ld_row _ 6 _ b h6 l
    · intro r; exact (mul_one _).symm
    · rw [pay6_zero, zero_add]
  · sl_unfold_words
    generalize hv : View.readCov (Val := Elt Ideal) arg7.view _ (Rect.unit (s := S16x128) ![5, 0] ![1, 128] _).toLoadRect = v
    have hv' : v = View.ld (k0_pay6 (F := Ideal)) (Rect.unit (s := S16x128) ![5, 0] ![1, 128] inb_S16x128_S1x128_5_0) :=
      hv.symm.trans (readCov_skip _ 4 5 (by omega) _ _ _ _ _ (readCov_skip _ 3 5 (by omega) _ _ _ _ _ (readCov_skip _ 2 5 (by omega) _ _ _ _ _ (readCov_skip _ 1 5 (by omega) _ _ _ _ _ (readCov_skip _ 0 5 (by omega) _ _ _ _ _ (readCov_whole_row _ _ _ 5 _))))))
    subst hv'
    simp only [View.readAt_eq_ld, harg2.read_unread, harg3.read_unread, View.ld_unit_zero (S := S4096x128) hz2]
    unfold_pays
    refine Eq.trans (row_goal q0 x0 x1 (k0_pay6 (F := Ideal)) 5 (by decide) b h5 l _ _ ?_ ?_) ?_
    · exact ld_row _ 5 _ b h5 l
    · intro r; exact (mul_one _).symm
    · rw [pay6_zero, zero_add]
  · sl_unfold_words
    generalize hv : View.readCov (Val := Elt Ideal) arg7.view _ (Rect.unit (s := S16x128) ![4, 0] ![1, 128] _).toLoadRect = v
    have hv' : v = View.ld (k0_pay6 (F := Ideal)) (Rect.unit (s := S16x128) ![4, 0] ![1, 128] inb_S16x128_S1x128_4_0) :=
      hv.symm.trans (readCov_skip _ 3 4 (by omega) _ _ _ _ _ (readCov_skip _ 2 4 (by omega) _ _ _ _ _ (readCov_skip _ 1 4 (by omega) _ _ _ _ _ (readCov_skip _ 0 4 (by omega) _ _ _ _ _ (readCov_whole_row _ _ _ 4 _)))))
    subst hv'
    simp only [View.readAt_eq_ld, harg2.read_unread, harg3.read_unread, View.ld_unit_zero (S := S4096x128) hz2]
    unfold_pays
    refine Eq.trans (row_goal q0 x0 x1 (k0_pay6 (F := Ideal)) 4 (by decide) b h4 l _ _ ?_ ?_) ?_
    · exact ld_row _ 4 _ b h4 l
    · intro r; exact (mul_one _).symm
    · rw [pay6_zero, zero_add]
  · sl_unfold_words
    generalize hv : View.readCov (Val := Elt Ideal) arg7.view _ (Rect.unit (s := S16x128) ![3, 0] ![1, 128] _).toLoadRect = v
    have hv' : v = View.ld (k0_pay6 (F := Ideal)) (Rect.unit (s := S16x128) ![3, 0] ![1, 128] inb_S16x128_S1x128_3_0) :=
      hv.symm.trans (readCov_skip _ 2 3 (by omega) _ _ _ _ _ (readCov_skip _ 1 3 (by omega) _ _ _ _ _ (readCov_skip _ 0 3 (by omega) _ _ _ _ _ (readCov_whole_row _ _ _ 3 _))))
    subst hv'
    simp only [View.readAt_eq_ld, harg2.read_unread, harg3.read_unread, View.ld_unit_zero (S := S4096x128) hz2]
    unfold_pays
    refine Eq.trans (row_goal q0 x0 x1 (k0_pay6 (F := Ideal)) 3 (by decide) b h3 l _ _ ?_ ?_) ?_
    · exact ld_row _ 3 _ b h3 l
    · intro r; exact (mul_one _).symm
    · rw [pay6_zero, zero_add]
  · sl_unfold_words
    generalize hv : View.readCov (Val := Elt Ideal) arg7.view _ (Rect.unit (s := S16x128) ![2, 0] ![1, 128] _).toLoadRect = v
    have hv' : v = View.ld (k0_pay6 (F := Ideal)) (Rect.unit (s := S16x128) ![2, 0] ![1, 128] inb_S16x128_S1x128_2_0) :=
      hv.symm.trans (readCov_skip _ 1 2 (by omega) _ _ _ _ _ (readCov_skip _ 0 2 (by omega) _ _ _ _ _ (readCov_whole_row _ _ _ 2 _)))
    subst hv'
    simp only [View.readAt_eq_ld, harg2.read_unread, harg3.read_unread, View.ld_unit_zero (S := S4096x128) hz2]
    unfold_pays
    refine Eq.trans (row_goal q0 x0 x1 (k0_pay6 (F := Ideal)) 2 (by decide) b h2 l _ _ ?_ ?_) ?_
    · exact ld_row _ 2 _ b h2 l
    · intro r; exact (mul_one _).symm
    · rw [pay6_zero, zero_add]
  · sl_unfold_words
    generalize hv : View.readCov (Val := Elt Ideal) arg7.view _ (Rect.unit (s := S16x128) ![1, 0] ![1, 128] _).toLoadRect = v
    have hv' : v = View.ld (k0_pay6 (F := Ideal)) (Rect.unit (s := S16x128) ![1, 0] ![1, 128] inb_S16x128_S1x128_1_0) :=
      hv.symm.trans (readCov_skip _ 0 1 (by omega) _ _ _ _ _ (readCov_whole_row _ _ _ 1 _))
    subst hv'
    simp only [View.readAt_eq_ld, harg2.read_unread, harg3.read_unread, View.ld_unit_zero (S := S4096x128) hz2]
    unfold_pays
    refine Eq.trans (row_goal q0 x0 x1 (k0_pay6 (F := Ideal)) 1 (by decide) b h1 l _ _ ?_ ?_) ?_
    · exact ld_row _ 1 _ b h1 l
    · intro r; exact (mul_one _).symm
    · rw [pay6_zero, zero_add]
  · sl_unfold_words
    generalize hv : View.readCov (Val := Elt Ideal) arg7.view _ (Rect.unit (s := S16x128) ![0, 0] ![1, 128] _).toLoadRect = v
    have hv' : v = View.ld (k0_pay6 (F := Ideal)) (Rect.unit (s := S16x128) ![0, 0] ![1, 128] inb_S16x128_S1x128_0_0) :=
      hv.symm.trans (readCov_whole_row _ _ _ 0 _)
    subst hv'
    simp only [View.readAt_eq_ld, harg2.read_unread, harg3.read_unread, View.ld_unit_zero (S := S4096x128) hz2]
    unfold_pays
    refine Eq.trans (row_goal q0 x0 x1 (k0_pay6 (F := Ideal)) 0 (by decide) b h0 l _ _ ?_ ?_) ?_
    · exact ld_row _ 0 _ b h0 l
    · intro r; exact (mul_one _).symm
    · rw [pay6_zero, zero_add]
  · rw [pay6_zero, tile_high q0 x0 x1 b l (by omega)]

set_option maxHeartbeats 4000000 in
/-- The last point of a run copies accumulator 0, as it leaves it, into the run's [1, 16, 128] output block. -/
theorem oC2 (c : Dev nD) (i : grid0.Coords) (arg2 : Memref sig .tc .vmem S4096x128 .f32) (harg2 : arg2.IsWhole) (arg3 : Memref sig .tc .vmem S4096x128 .i32) (harg3 : arg3.IsWhole) (arg4 : Memref sig .tc .vmem S1x16x128 .f32) (harg4 : arg4.IsWhole) (arg5 : Memref sig .tc .vmem S1x16x128 .f32) (harg5 : arg5.IsWhole) (arg6 : Memref sig .tc .vmem S1x16x128 .f32) (harg6 : arg6.IsWhole) (arg7 : Memref sig .tc .vmem S16x128 .f32) (harg7 : arg7.IsWhole) (arg8 : Memref sig .tc .vmem S16x128 .f32) (harg8 : arg8.IsWhole) (arg9 : Memref sig .tc .vmem S16x128 .f32) (harg9 : arg9.IsWhole) (hc0 : ¬cond0_0 i) (hc1 : cond0_1 i)
    (x0 : Vec Ideal S4096x128 .f32) (x1 : Vec Ideal S4096x128 .i32) (xs0 : Vec Ideal S16x128 .f32) (xs1 : Vec Ideal S16x128 .f32) (xs2 : Vec Ideal S16x128 .f32)
    (b : Fin 16) (l : Fin 128) :
    out0_C_2 (F := Ideal) c i arg2 harg2 arg3 harg3 arg4 harg4 arg5 harg5 arg6 harg6 arg7 harg7 arg8 harg8 arg9 harg9 hc0 hc1 x0 x1 xs0 xs1 xs2 (ix3 (0 : Fin 1) b l)
      = sout0_C_0 (F := Ideal) c i arg2 harg2 arg3 harg3 arg4 harg4 arg5 harg5 arg6 harg6 arg7 harg7 arg8 harg8 arg9 harg9 hc0 hc1 x0 x1 xs0 xs1 xs2 (ix2 b l) := by
  unfold out0_C_2 sout0_C_0 kernelRun0_C
  dsimp only
  sl_unfold_words
  rw [read_whole3]
  simp only [k0_pay3, View.readAt_eq_ld, View.ld_unit_zero (S := S16x128) hz2]
  rw [shapeCast_addUnit_apply ![16, 128]]
  congr 1
  funext a
  match a with
  | ⟨0, _⟩ => rfl
  | ⟨1, _⟩ => rfl

end Cert.KernelIdeal.Pieces

end
-- ==== Proof.Pieces1.lean ====
/-
  Accumulator 1 of the three (summed quantity the label: the label sums) after one grid point, in each of
  the body's three control cases, and the output block the last point of a run copies it into.
-/
import proofs.«166259_j43946105373039_2_alg».proof.Proof.PiecesBase

set_option maxRecDepth 16384

noncomputable section

open scoped BigOperators

namespace Cert.KernelIdeal.Pieces

open Cert.KernelIdeal Cert.KernelIdeal.Gen Cert.KernelIdeal.Rows Cert.Hist
open Idealize.ShloMosaic Idealize.ShloMosaic.TcCoe Idealize.ShloMosaic.Tactic Idealize.ShloMosaic.ValueIdx
open Idealize.SL Idealize.SL.Sem

set_option maxHeartbeats 4000000 in
/-- A later grid point adds its block's column sums to accumulator 1 and leaves rows 10 to 15 as they were. -/
theorem sB1 (c : Dev nD) (i : grid0.Coords) (arg2 : Memref sig .tc .vmem S4096x128 .f32) (harg2 : arg2.IsWhole) (arg3 : Memref sig .tc .vmem S4096x128 .i32) (harg3 : arg3.IsWhole) (arg4 : Memref sig .tc .vmem S1x16x128 .f32) (harg4 : arg4.IsWhole) (arg5 : Memref sig .tc .vmem S1x16x128 .f32) (harg5 : arg5.IsWhole) (arg6 : Memref sig .tc .vmem S1x16x128 .f32) (harg6 : arg6.IsWhole) (arg7 : Memref sig .tc .vmem S16x128 .f32) (harg7 : arg7.IsWhole) (arg8 : Memref sig .tc .vmem S16x128 .f32) (harg8 : arg8.IsWhole) (arg9 : Memref sig .tc .vmem S16x128 .f32) (harg9 : arg9.IsWhole) (hc0 : ¬cond0_0 i) (hc1 : ¬cond0_1 i)
    (x0 : Vec Ideal S4096x128 .f32) (x1 : Vec Ideal S4096x128 .i32) (xs0 : Vec Ideal S16x128 .f32) (xs1 : Vec Ideal S16x128 .f32) (xs2 : Vec Ideal S16x128 .f32)
    (b : Fin 16) (l : Fin 128) :
    sout0_B_1 (F := Ideal) c i arg2 harg2 arg3 harg3 arg4 harg4 arg5 harg5 arg6 harg6 arg7 harg7 arg8 harg8 arg9 harg9 hc0 hc1 x0 x1 xs0 xs1 xs2 (ix2 b l) = xs1 (ix2 b l) + tile q1 x0 x1 (ix2 b l) := by
  unfold sout0_B_1 kernelRun0_B
  dsimp only
  sl_unfold_words
  simp only [read_row_cons, View.writes_nil, harg8.read_unread, View.readAt_eq_ld, harg2.read_unread, harg3.read_unread,
    View.ld_unit_zero (S := S4096x128) hz2]
  have hb := b.isLt
  split_ifs with h9 h8 h7 h6 h5 h4 h3 h2 h1 h0
  · unfold_pays
    refine row_goal q1 x0 x1 xs1 9 (by decide) b h9 l _ _ ?_ ?_
    · exact ld_row _ 9 _ b h9 l
    · intro r; exact rfl
  · unfold_pays
    refine row_goal q1 x0 x1 xs1 8 (by decide) b h8 l _ _ ?_ ?_
    · exact ld_row _ 8 _ b h8 l
    · intro r; exact rfl
  · unfold_pays
    refine row_goal q1 x0 x1 xs1 7 (by decide) b h7 l _ _ ?_ ?_
    · exact ld_row _ 7 _ b h7 l
    · intro r; exact rfl
  · unfold_pays
    refine row_goal q1 x0 x1 xs1 6 (by decide) b h6 l _ _ ?_ ?_
    · exact ld_row _ 6 _ b h6 l
    · intro r; exact rfl
  · unfold_pays
    refine row_goal q1 x0 x1 xs1 5 (by decide) b h5 l _ _ ?_ ?_
    · exact ld_row _ 5 _ b h5 l
    · intro r; exact rfl
  · unfold_pays
    refine row_goal q1 x0 x1 xs1 4 (by decide) b h4 l _ _ ?_ ?_
    · exact ld_row _ 4 _ b h4 l
    · intro r; exact rfl
  · unfold_pays
    refine row_goal q1 x0 x1 xs1 3 (by decide) b h3 l _ _ ?_ ?_
    · exact ld_row _ 3 _ b h3 l
    · intro r; exact rfl
  · unfold_pays
    refine row_goal q1 x0 x1 xs1 2 (by decide) b h2 l _ _ ?_ ?_
    · exact ld_row _ 2 _ b h2 l
    · intro r; exact rfl
  · unfold_pays
    refine row_goal q1 x0 x1 xs1 1 (by decide) b h1 l _ _ ?_ ?_
    · exact ld_row _ 1 _ b h1 l
    · intro r; exact rfl
  · unfold_pays
    refine row_goal q1 x0 x1 xs1 0 (by decide) b h0 l _ _ ?_ ?_
    · exact ld_row _ 0 _ b h0 l
    · intro r; exact rfl
  · rw [tile_high q1 x0 x1 b l (by omega), add_zero]

set_option maxHeartbeats 4000000 in
/-- A later grid point adds its block's column sums to accumulator 1 and leaves rows 10 to 15 as they were (the last point of a run). -/
theorem sC1 (c : Dev nD) (i : grid0.Coords) (arg2 : Memref sig .tc .vmem S4096x128 .f32) (harg2 : arg2.IsWhole) (arg3 : Memref sig .tc .vmem S4096x128 .i32) (harg3 : arg3.IsWhole) (arg4 : Memref sig .tc .vmem S1x16x128 .f32) (harg4 : arg4.IsWhole) (arg5 : Memref sig .tc .vmem S1x16x128 .f32) (harg5 : arg5.IsWhole) (arg6 : Memref sig .tc .vmem S1x16x128 .f32) (harg6 : arg6.IsWhole) (arg7 : Memref sig .tc .vmem S16x128 .f32) (harg7 : arg7.IsWhole) (arg8 : Memref sig .tc .vmem S16x128 .f32) (harg8 : arg8.IsWhole) (arg9 : Memref sig .tc .vmem S16x128 .f32) (harg9 : arg9.IsWhole) (hc0 : ¬cond0_0 i) (hc1 : cond0_1 i)
    (x0 : Vec Ideal S4096x128 .f32) (x1 : Vec Ideal S4096x128 .i32) (xs0 : Vec Ideal S16x128 .f32) (xs1 : Vec Ideal S16x128 .f32) (xs2 : Vec Ideal S16x128 .f32)
    (b : Fin 16) (l : Fin 128) :
    sout0_C_1 (F := Ideal) c i arg2 harg2 arg3 harg3 arg4 harg4 arg5 harg5 arg6 harg6 arg7 harg7 arg8 harg8 arg9 harg9 hc0 hc1 x0 x1 xs0 xs1 xs2 (ix2 b l) = xs1 (ix2 b l) + tile q1 x0 x1 (ix2 b l) := by
  unfold sout0_C_1 kernelRun0_C
  dsimp only
  sl_unfold_words
  simp only [read_row_cons, View.writes_nil, harg8.read_unread, View.readAt_eq_ld, harg2.read_unread, harg3.read_unread,
    View.ld_unit_zero (S := S4096x128) hz2]
  have hb := b.isLt
  split_ifs with h9 h8 h7 h6 h5 h4 h3 h2 h1 h0
  · unfold_pays
    refine row_goal q1 x0 x1 xs1 9 (by decide) b h9 l _ _ ?_ ?_
    · exact ld_row _ 9 _ b h9 l
    · intro r; exact rfl
  · unfold_pays
    refine row_goal q1 x0 x1 xs1 8 (by decide) b h8 l _ _ ?_ ?_
    · exact ld_row _ 8 _ b h8 l
    · intro r; exact rfl
  · unfold_pays
    refine row_goal q1 x0 x1 xs1 7 (by decide) b h7 l _ _ ?_ ?_
    · exact ld_row _ 7 _ b h7 l
    · intro r; exact rfl
  · unfold_pays
    refine row_goal q1 x0 x1 xs1 6 (by decide) b h6 l _ _ ?_ ?_
    · exact ld_row _ 6 _ b h6 l
    · intro r; exact rfl
  · unfold_pays
    refine row_goal q1 x0 x1 xs1 5 (by decide) b h5 l _ _ ?_ ?_
    · exact ld_row _ 5 _ b h5 l
    · intro r; exact rfl
  · unfold_pays
    refine row_goal q1 x0 x1 xs1 4 (by decide) b h4 l _ _ ?_ ?_
    · exact ld_row _ 4 _ b h4 l
    · intro r; exact rfl
  · unfold_pays
    refine row_goal q1 x0 x1 xs1 3 (by decide) b h3 l _ _ ?_ ?_
    · exact ld_row _ 3 _ b h3 l
    · intro r; exact rfl
  · unfold_pays
    refine row_goal q1 x0 x1 xs1 2 (by decide) b h2 l _ _ ?_ ?_
    · exact ld_row _ 2 _ b h2 l
    · intro r; exact rfl
  · unfold_pays
    refine row_goal q1 x0 x1 xs1 1 (by decide) b h1 l _ _ ?_ ?_
    · exact ld_row _ 1 _ b h1 l
    · intro r; exact rfl
  · unfold_pays
    refine row_goal q1 x0 x1 xs1 0 (by decide) b h0 l _ _ ?_ ?_
    · exact ld_row _ 0 _ b h0 l
    · intro r; exact rfl
  · rw [tile_high q1 x0 x1 b l (by omega), add_zero]

set_option maxHeartbeats 8000000 in
/-- A core's first grid point zeroes accumulator 1 and adds its block's column sums. -/
theorem sA1 (c : Dev nD) (i : grid0.Coords) (arg2 : Memref sig .tc .vmem S4096x128 .f32) (harg2 : arg2.IsWhole) (arg3 : Memref sig .tc .vmem S4096x128 .i32) (harg3 : arg3.IsWhole) (arg4 : Memref sig .tc .vmem S1x16x128 .f32) (harg4 : arg4.IsWhole) (arg5 : Memref sig .tc .vmem S1x16x128 .f32) (harg5 : arg5.IsWhole) (arg6 : Memref sig .tc .vmem S1x16x128 .f32) (harg6 : arg6.IsWhole) (arg7 : Memref sig .tc .vmem S16x128 .f32) (harg7 : arg7.IsWhole) (arg8 : Memref sig .tc .vmem S16x128 .f32) (harg8 : arg8.IsWhole) (arg9 : Memref sig .tc .vmem S16x128 .f32) (harg9 : arg9.IsWhole) (hc0 : cond0_0 i) (hc1 : ¬cond0_1 i)
    (x0 : Vec Ideal S4096x128 .f32) (x1 : Vec Ideal S4096x128 .i32) (b : Fin 16) (l : Fin 128) :
    sout0_A_1 (F := Ideal) c i arg2 harg2 arg3 harg3 arg4 harg4 arg5 harg5 arg6 harg6 arg7 harg7 arg8 harg8 arg9 harg9 hc0 hc1 x0 x1 (ix2 b l) = tile q1 x0 x1 (ix2 b l) := by
  unfold sout0_A_1 kernelRun0_A
  dsimp only
  rw [read_row_cons]; unfold kernelRun0_A.sl.HS1_10
  rw [read_row_cons]; unfold kernelRun0_A.sl.HS1_9
  rw [read_row_cons]; unfold kernelRun0_A.sl.HS1_8
  rw [read_row_cons]; unfold kernelRun0_A.sl.HS1_7
  rw [read_row_cons]; unfold kernelRun0_A.sl.HS1_6
  rw [read_row_cons]; unfold kernelRun0_A.sl.HS1_5
  rw [read_row_cons]; unfold kernelRun0_A.sl.HS1_4
  rw [read_row_cons]; unfold kernelRun0_A.sl.HS1_3
  rw [read_row_cons]; unfold kernelRun0_A.sl.HS1_2
  rw [read_row_cons]; unfold kernelRun0_A.sl.HS1_1
  rw [read_whole_cons]
  have hb := b.isLt
  split_ifs with h9 h8 h7 h6 h5 h4 h3 h2 h1 h0
  · sl_unfold_words
    generalize hv : View.readCov (Val := Elt Ideal) arg8.view _ (Rect.unit (s := S16x128) ![9, 0] ![1, 128] _).toLoadRect = v
    have hv' : v = View.ld (k0_pay7 (F := Ideal)) (Rect.unit (s := S16x128) ![9, 0] ![1, 128] inb_S16x128_S1x128_9_0) :=
      hv.symm.trans (readCov_skip _ 8 9 (by omega) _ _ _ _ _ (readCov_skip _ 7 9 (by omega) _ _ _ _ _ (readCov_skip _ 6 9 (by omega) _ _ _ _ _ (readCov_skip _ 5 9 (by omega) _ _ _ _ _ (readCov_skip _ 4 9 (by omega) _ _ _ _ _ (readCov_skip _ 3 9 (by omega) _ _ _ _ _ (readCov_skip _ 2 9 (by omega) _ _ _ _ _ (readCov_skip _ 1 9 (by omega) _ _ _ _ _ (readCov_skip _ 0 9 (by omega) _ _ _ _ _ (readCov_whole_row _ _ _ 9 _))))))))))
    subst hv'
    simp only [View.readAt_eq_ld, harg2.read_unread, harg3.read_unread, View.ld_unit_zero (S := S4096x128) hz2]
    unfold_pays
    refine Eq.trans (row_goal q1 x0 x1 (k0_pay7 (F := Ideal)) 9 (by decide) b h9 l _ _ ?_ ?_) ?_
    · exact ld_row _ 9 _ b h9 l
    · intro r; exact rfl
    · rw [pay7_zero, zero_add]
  · sl_unfold_words
    generalize hv : View.readCov (Val := Elt Ideal) arg8.view _ (Rect.unit (s := S16x128) ![8, 0] ![1, 128] _).toLoadRect = v
    have hv' : v = View.ld (k0_pay7 (F := Ideal)) (Rect.unit (s := S16x128) ![8, 0] ![1, 128] inb_S16x128_S1x128_8_0) :=
      hv.symm.trans (readCov_skip _ 7 8 (by omega) _ _ _ _ _ (readCov_skip _ 6 8 (by omega) _ _ _ _ _ (readCov_skip _ 5 8 (by omega) _ _ _ _ _ (readCov_skip _ 4 8 (by omega) _ _ _ _ _ (readCov_skip _ 3 8 (by omega) _ _ _ _ _ (readCov_skip _ 2 8 (by omega) _ _ _ _ _ (readCov_skip _ 1 8 (by omega) _ _ _ _ _ (readCov_skip _ 0 8 (by omega) _ _ _ _ _ (readCov_whole_row _ _ _ 8 _)))))))))
    subst hv'
    simp only [View.readAt_eq_ld, harg2.read_unread, harg3.read_unread, View.ld_unit_zero (S := S4096x128) hz2]
    unfold_pays
    refine Eq.trans (row_goal q1 x0 x1 (k0_pay7 (F := Ideal)) 8 (by decide) b h8 l _ _ ?_ ?_) ?_
    · exact ld_row _ 8 _ b h8 l
    · intro r; exact rfl
    · rw [pay7_zero, zero_add]
  · sl_unfold_words
    generalize hv : View.readCov (Val := Elt Ideal) arg8.view _ (Rect.unit (s := S16x128) ![7, 0] ![1, 128] _).toLoadRect = v
    have hv' : v = View.ld (k0_pay7 (F := Ideal)) (Rect.unit (s := S16x128) ![7, 0] ![1, 128] inb_S16x128_S1x128_7_0) :=
      hv.symm.trans (readCov_skip _ 6 7 (by omega) _ _ _ _ _ (readCov_skip _ 5 7 (by omega) _ _ _ _ _ (readCov_skip _ 4 7 (by omega) _ _ _ _ _ (readCov_skip _ 3 7 (by omega) _ _ _ _ _ (readCov_skip _ 2 7 (by omega) _ _ _ _ _ (readCov_skip _ 1 7 (by omega) _ _ _ _ _ (readCov_skip _ 0 7 (by omega) _ _ _ _ _ (readCov_whole_row _ _ _ 7 _))))))))
    subst hv'
    simp only [View.readAt_eq_ld, harg2.read_unread, harg3.read_unread, View.ld_unit_zero (S := S4096x128) hz2]
    unfold_pays
    refine Eq.trans (row_goal q1 x0 x1 (k0_pay7 (F := Ideal)) 7 (by decide) b h7 l _ _ ?_ ?_) ?_
    · exact ld_row _ 7 _ b h7 l
    · intro r; exact rfl
    · rw [pay7_zero, zero_add]
  · sl_unfold_words
    generalize hv : View.readCov (Val := Elt Ideal) arg8.view _ (Rect.unit (s := S16x128) ![6, 0] ![1, 128] _).toLoadRect = v
    have hv' : v = View.ld (k0_pay7 (F := Ideal)) (Rect.unit (s := S16x128) ![6, 0] ![1, 128] inb_S16x128_S1x128_6_0) :=
      hv.symm.trans (readCov_skip _ 5 6 (by omega) _ _ _ _ _ (readCov_skip _ 4 6 (by omega) _ _ _ _ _ (readCov_skip _ 3 6 (by omega) _ _ _ _ _ (readCov_skip _ 2 6 (by omega) _ _ _ _ _ (readCov_skip _ 1 6 (by omega) _ _ _ _ _ (readCov_skip _ 0 6 (by omega) _ _ _ _ _ (readCov_whole_row _ _ _ 6 _)))))))
    subst hv'
    simp only [View.readAt_eq_ld, harg2.read_unread, harg3.read_unread, View.ld_unit_zero (S := S4096x128) hz2]
    unfold_pays
    refine Eq.trans (row_goal q1 x0 x1 (k0_pay7 (F := Ideal)) 6 (by decide) b h6 l _ _ ?_ ?_) ?_
    · exact ld_row _ 6 _ b h6 l
    · intro r; exact rfl
    · rw [pay7_zero, zero_add]
  · sl_unfold_words
    generalize hv : View.readCov (Val := Elt Ideal) arg8.view _ (Rect.unit (s := S16x128) ![5, 0] ![1, 128] _).toLoadRect = v
    have hv' : v = View.ld (k0_pay7 (F := Ideal)) (Rect.unit (s := S16x128) ![5, 0] ![1, 128] inb_S16x128_S1x128_5_0) :=
      hv.symm.trans (readCov_skip _ 4 5 (by omega) _ _ _ _ _ (readCov_skip _ 3 5 (by omega) _ _ _ _ _ (readCov_skip _ 2 5 (by omega) _ _ _ _ _ (readCov_skip _ 1 5 (by omega) _ _ _ _ _ (readCov_skip _ 0 5 (by omega) _ _ _ _ _ (readCov_whole_row _ _ _ 5 _))))))
    subst hv'
    simp only [View.readAt_eq_ld, harg2.read_unread, harg3.read_unread, View.ld_unit_zero (S := S4096x128) hz2]
    unfold_pays
    refine Eq.trans (row_goal q1 x0 x1 (k0_pay7 (F := Ideal)) 5 (by decide) b h5 l _ _ ?_ ?_) ?_
    · exact ld_row _ 5 _ b h5 l
    · intro r; exact rfl
    · rw [pay7_zero, zero_add]
  · sl_unfold_words
    generalize hv : View.readCov (Val := Elt Ideal) arg8.view _ (Rect.unit (s := S16x128) ![4, 0] ![1, 128] _).toLoadRect = v
    have hv' : v = View.ld (k0_pay7 (F := Ideal)) (Rect.unit (s := S16x128) ![4, 0] ![1, 128] inb_S16x128_S1x128_4_0) :=
      hv.symm.trans (readCov_skip _ 3 4 (by omega) _ _ _ _ _ (readCov_skip _ 2 4 (by omega) _ _ _ _ _ (readCov_skip _ 1 4 (by omega) _ _ _ _ _ (readCov_skip _ 0 4 (by omega) _ _ _ _ _ (readCov_whole_row _ _ _ 4 _)))))
    subst hv'
    simp only [View.readAt_eq_ld, harg2.read_unread, harg3.read_unread, View.ld_unit_zero (S := S4096x128) hz2]
    unfold_pays
    refine Eq.trans (row_goal q1 x0 x1 (k0_pay7 (F := Ideal)) 4 (by decide) b h4 l _ _ ?_ ?_) ?_
    · exact ld_row _ 4 _ b h4 l
    · intro r; exact rfl
    · rw [pay7_zero, zero_add]
  · sl_unfold_words
    generalize hv : View.readCov (Val := Elt Ideal) arg8.view _ (Rect.unit (s := S16x128) ![3, 0] ![1, 128] _).toLoadRect = v
    have hv' : v = View.ld (k0_pay7 (F := Ideal)) (Rect.unit (s := S16x128) ![3, 0] ![1, 128] inb_S16x128_S1x128_3_0) :=
      hv.symm.trans (readCov_skip _ 2 3 (by omega) _ _ _ _ _ (readCov_skip _ 1 3 (by omega) _ _ _ _ _ (readCov_skip _ 0 3 (by omega) _ _ _ _ _ (readCov_whole_row _ _ _ 3 _))))
    subst hv'
    simp only [View.readAt_eq_ld, harg2.read_unread, harg3.read_unread, View.ld_unit_zero (S := S4096x128) hz2]
    unfold_pays
    refine Eq.trans (row_goal q1 x0 x1 (k0_pay7 (F := Ideal)) 3 (by decide) b h3 l _ _ ?_ ?_) ?_
    · exact ld_row _ 3 _ b h3 l
    · intro r; exact rfl
    · rw [pay7_zero, zero_add]
  · sl_unfold_words
    generalize hv : View.readCov (Val := Elt Ideal) arg8.view _ (Rect.unit (s := S16x128) ![2, 0] ![1, 128] _).toLoadRect = v
    have hv' : v = View.ld (k0_pay7 (F := Ideal)) (Rect.unit (s := S16x128) ![2, 0] ![1, 128] inb_S16x128_S1x128_2_0) :=
      hv.symm.trans (readCov_skip _ 1 2 (by omega) _ _ _ _ _ (readCov_skip _ 0 2 (by omega) _ _ _ _ _ (readCov_whole_row _ _ _ 2 _)))
    subst hv'
    simp only [View.readAt_eq_ld, harg2.read_unread, harg3.read_unread, View.ld_unit_zero (S := S4096x128) hz2]
    unfold_pays
    refine Eq.trans (row_goal q1 x0 x1 (k0_pay7 (F := Ideal)) 2 (by decide) b h2 l _ _ ?_ ?_) ?_
    · exact ld_row _ 2 _ b h2 l
    · intro r; exact rfl
    · rw [pay7_zero, zero_add]
  · sl_unfold_words
    generalize hv : View.readCov (Val := Elt Ideal) arg8.view _ (Rect.unit (s := S16x128) ![1, 0] ![1, 128] _).toLoadRect = v
    have hv' : v = View.ld (k0_pay7 (F := Ideal)) (Rect.unit (s := S16x128) ![1, 0] ![1, 128] inb_S16x128_S1x128_1_0) :=
      hv.symm.trans (readCov_skip _ 0 1 (by omega) _ _ _ _ _ (readCov_whole_row _ _ _ 1 _))
    subst hv'
    simp only [View.readAt_eq_ld, harg2.read_unread, harg3.read_unread, View.ld_unit_zero (S := S4096x128) hz2]
    unfold_pays
    refine Eq.trans (row_goal q1 x0 x1 (k0_pay7 (F := Ideal)) 1 (by decide) b h1 l _ _ ?_ ?_) ?_
    · exact ld_row _ 1 _ b h1 l
    · intro r; exact rfl
    · rw [pay7_zero, zero_add]
  · sl_unfold_words
    generalize hv : View.readCov (Val := Elt Ideal) arg8.view _ (Rect.unit (s := S16x128) ![0, 0] ![1, 128] _).toLoadRect = v
    have hv' : v = View.ld (k0_pay7 (F := Ideal)) (Rect.unit (s := S16x128) ![0, 0] ![1, 128] inb_S16x128_S1x128_0_0) :=
      hv.symm.trans (readCov_whole_row _ _ _ 0 _)
    subst hv'
    simp only [View.readAt_eq_ld, harg2.read_unread, harg3.read_unread, View.ld_unit_zero (S := S4096x128) hz2]
    unfold_pays
    refine Eq.trans (row_goal q1 x0 x1 (k0_pay7 (F := Ideal)) 0 (by decide) b h0 l _ _ ?_ ?_) ?_
    · exact ld_row _ 0 _ b h0 l
    · intro r; exact rfl
    · rw [pay7_zero, zero_add]
  · rw [pay7_zero, tile_high q1 x0 x1 b l (by omega)]

set_option maxHeartbeats 4000000 in
/-- The last point of a run copies accumulator 1, as it leaves it, into the run's [1, 16, 128] output block. -/
theorem oC3 (c : Dev nD) (i : grid0.Coords) (arg2 : Memref sig .tc .vmem S4096x128 .f32) (harg2 : arg2.IsWhole) (arg3 : Memref sig .tc .vmem S4096x128 .i32) (harg3 : arg3.IsWhole) (arg4 : Memref sig .tc .vmem S1x16x128 .f32) (harg4 : arg4.IsWhole) (arg5 : Memref sig .tc .vmem S1x16x128 .f32) (harg5 : arg5.IsWhole) (arg6 : Memref sig .tc .vmem S1x16x128 .f32) (harg6 : arg6.IsWhole) (arg7 : Memref sig .tc .vmem S16x128 .f32) (harg7 : arg7.IsWhole) (arg8 : Memref sig .tc .vmem S16x128 .f32) (harg8 : arg8.IsWhole) (arg9 : Memref sig .tc .vmem S16x128 .f32) (harg9 : arg9.IsWhole) (hc0 : ¬cond0_0 i) (hc1 : cond0_1 i)
    (x0 : Vec Ideal S4096x128 .f32) (x1 : Vec Ideal S4096x128 .i32) (xs0 : Vec Ideal S16x128 .f32) (xs1 : Vec Ideal S16x128 .f32) (xs2 : Vec Ideal S16x128 .f32)
    (b : Fin 16) (l : Fin 128) :
    out0_C_3 (F := Ideal) c i arg2 harg2 arg3 harg3 arg4 harg4 arg5 harg5 arg6 harg6 arg7 harg7 arg8 harg8 arg9 harg9 hc0 hc1 x0 x1 xs0 xs1 xs2 (ix3 (0 : Fin 1) b l)
      = sout0_C_1 (F := Ideal) c i arg2 harg2 arg3 harg3 arg4 harg4 arg5 harg5 arg6 harg6 arg7 harg7 arg8 harg8 arg9 harg9 hc0 hc1 x0 x1 xs0 xs1 xs2 (ix2 b l) := by
  unfold out0_C_3 sout0_C_1 kernelRun0_C
  dsimp only
  sl_unfold_words
  rw [read_whole3]
  simp only [k0_pay4, View.readAt_eq_ld, View.ld_unit_zero (S := S16x128) hz2]
  rw [shapeCast_addUnit_apply ![16, 128]]
  congr 1
  funext a
  match a with
  | ⟨0, _⟩ => rfl
  | ⟨1, _⟩ => rfl

end Cert.KernelIdeal.Pieces

end
-- ==== Proof.Pieces2.lean ====
/-
  Accumulator 2 of the three (summed quantity the confidence: the confidence sums) after one grid point, in each of
  the body's three control cases, and the output block the last point of a run copies it into.
-/
import proofs.«166259_j43946105373039_2_alg».proof.Proof.PiecesBase

set_option maxRecDepth 16384

noncomputable section

open scoped BigOperators

namespace Cert.KernelIdeal.Pieces

open Cert.KernelIdeal Cert.KernelIdeal.Gen Cert.KernelIdeal.Rows Cert.Hist
open Idealize.ShloMosaic Idealize.ShloMosaic.TcCoe Idealize.ShloMosaic.Tactic Idealize.ShloMosaic.ValueIdx
open Idealize.SL Idealize.SL.Sem

set_option maxHeartbeats 4000000 in
/-- A later grid point adds its block's column sums to accumulator 2 and leaves rows 10 to 15 as they were. -/
theorem sB2 (c : Dev nD) (i : grid0.Coords) (arg2 : Memref sig .tc .vmem S4096x128 .f32) (harg2 : arg2.IsWhole) (arg3 : Memref sig .tc .vmem S4096x128 .i32) (harg3 : arg3.IsWhole) (arg4 : Memref sig .tc .vmem S1x16x128 .f32) (harg4 : arg4.IsWhole) (arg5 : Memref sig .tc .vmem S1x16x128 .f32) (harg5 : arg5.IsWhole) (arg6 : Memref sig .tc .vmem S1x16x128 .f32) (harg6 : arg6.IsWhole) (arg7 : Memref sig .tc .vmem S16x128 .f32) (harg7 : arg7.IsWhole) (arg8 : Memref sig .tc .vmem S16x128 .f32) (harg8 : arg8.IsWhole) (arg9 : Memref sig .tc .vmem S16x128 .f32) (harg9 : arg9.IsWhole) (hc0 : ¬cond0_0 i) (hc1 : ¬cond0_1 i)
    (x0 : Vec Ideal S4096x128 .f32) (x1 : Vec Ideal S4096x128 .i32) (xs0 : Vec Ideal S16x128 .f32) (xs1 : Vec Ideal S16x128 .f32) (xs2 : Vec Ideal S16x128 .f32)
    (b : Fin 16) (l : Fin 128) :
    sout0_B_2 (F := Ideal) c i arg2 harg2 arg3 harg3 arg4 harg4 arg5 harg5 arg6 harg6 arg7 harg7 arg8 harg8 arg9 harg9 hc0 hc1 x0 x1 xs0 xs1 xs2 (ix2 b l) = xs2 (ix2 b l) + tile q2 x0 x1 (ix2 b l) := by
  unfold sout0_B_2 kernelRun0_B
  dsimp only
  sl_unfold_words
  simp only [read_row_cons, View.writes_nil, harg9.read_unread, View.readAt_eq_ld, harg2.read_unread, harg3.read_unread,
    View.ld_unit_zero (S := S4096x128) hz2]
  have hb := b.isLt
  split_ifs with h9 h8 h7 h6 h5 h4 h3 h2 h1 h0
  · unfold_pays
    refine row_goal q2 x0 x1 xs2 9 (by decide) b h9 l _ _ ?_ ?_
    · exact ld_row _ 9 _ b h9 l
    · intro r; exact rfl
  · unfold_pays
    refine row_goal q2 x0 x1 xs2 8 (by decide) b h8 l _ _ ?_ ?_
    · exact ld_row _ 8 _ b h8 l
    · intro r; exact rfl
  · unfold_pays
    refine row_goal q2 x0 x1 xs2 7 (by decide) b h7 l _ _ ?_ ?_
    · exact ld_row _ 7 _ b h7 l
    · intro r; exact rfl
  · unfold_pays
    refine row_goal q2 x0 x1 xs2 6 (by decide) b h6 l _ _ ?_ ?_
    · exact ld_row _ 6 _ b h6 l
    · intro r; exact rfl
  · unfold_pays
    refine row_goal q2 x0 x1 xs2 5 (by decide) b h5 l _ _ ?_ ?_
    · exact ld_row _ 5 _ b h5 l
    · intro r; exact rfl
  · unfold_pays
    refine row_goal q2 x0 x1 xs2 4 (by decide) b h4 l _ _ ?_ ?_
    · exact ld_row _ 4 _ b h4 l
    · intro r; exact rfl
  · unfold_pays
    refine row_goal q2 x0 x1 xs2 3 (by decide) b h3 l _ _ ?_ ?_
    · exact ld_row _ 3 _ b h3 l
    · intro r; exact rfl
  · unfold_pays
    refine row_goal q2 x0 x1 xs2 2 (by decide) b h2 l _ _ ?_ ?_
    · exact ld_row _ 2 _ b h2 l
    · intro r; exact rfl
  · unfold_pays
    refine row_goal q2 x0 x1 xs2 1 (by decide) b h1 l _ _ ?_ ?_
    · exact ld_row _ 1 _ b h1 l
    · intro r; exact rfl
  · unfold_pays
    refine row_goal q2 x0 x1 xs2 0 (by decide) b h0 l _ _ ?_ ?_
    · exact ld_row _ 0 _ b h0 l
    · intro r; exact rfl
  · rw [tile_high q2 x0 x1 b l (by omega), add_zero]

set_option maxHeartbeats 4000000 in
/-- A later grid point adds its block's column sums to accumulator 2 and leaves rows 10 to 15 as they were (the last point of a run). -/
theorem sC2 (c : Dev nD) (i : grid0.Coords) (arg2 : Memref sig .tc .vmem S4096x128 .f32) (harg2 : arg2.IsWhole) (arg3 : Memref sig .tc .vmem S4096x128 .i32) (harg3 : arg3.IsWhole) (arg4 : Memref sig .tc .vmem S1x16x128 .f32) (harg4 : arg4.IsWhole) (arg5 : Memref sig .tc .vmem S1x16x128 .f32) (harg5 : arg5.IsWhole) (arg6 : Memref sig .tc .vmem S1x16x128 .f32) (harg6 : arg6.IsWhole) (arg7 : Memref sig .tc .vmem S16x128 .f32) (harg7 : arg7.IsWhole) (arg8 : Memref sig .tc .vmem S16x128 .f32) (harg8 : arg8.IsWhole) (arg9 : Memref sig .tc .vmem S16x128 .f32) (harg9 : arg9.IsWhole) (hc0 : ¬cond0_0 i) (hc1 : cond0_1 i)
    (x0 : Vec Ideal S4096x128 .f32) (x1 : Vec Ideal S4096x128 .i32) (xs0 : Vec Ideal S16x128 .f32) (xs1 : Vec Ideal S16x128 .f32) (xs2 : Vec Ideal S16x128 .f32)
    (b : Fin 16) (l : Fin 128) :
    sout0_C_2 (F := Ideal) c i arg2 harg2 arg3 harg3 arg4 harg4 arg5 harg5 arg6 harg6 arg7 harg7 arg8 harg8 arg9 harg9 hc0 hc1 x0 x1 xs0 xs1 xs2 (ix2 b l) = xs2 (ix2 b l) + tile q2 x0 x1 (ix2 b l) := by
  unfold sout0_C_2 kernelRun0_C
  dsimp only
  sl_unfold_words
  simp only [read_row_cons, View.writes_nil, harg9.read_unread, View.readAt_eq_ld, harg2.read_unread, harg3.read_unread,
    View.ld_unit_zero (S := S4096x128) hz2]
  have hb := b.isLt
  split_ifs with h9 h8 h7 h6 h5 h4 h3 h2 h1 h0
  · unfold_pays
    refine row_goal q2 x0 x1 xs2 9 (by decide) b h9 l _ _ ?_ ?_
    · exact ld_row _ 9 _ b h9 l
    · intro r; exact rfl
  · unfold_pays
    refine row_goal q2 x0 x1 xs2 8 (by decide) b h8 l _ _ ?_ ?_
    · exact ld_row _ 8 _ b h8 l
    · intro r; exact rfl
  · unfold_pays
    refine row_goal q2 x0 x1 xs2 7 (by decide) b h7 l _ _ ?_ ?_
    · exact ld_row _ 7 _ b h7 l
    · intro r; exact rfl
  · unfold_pays
    refine row_goal q2 x0 x1 xs2 6 (by decide) b h6 l _ _ ?_ ?_
    · exact ld_row _ 6 _ b h6 l
    · intro r; exact rfl
  · unfold_pays
    refine row_goal q2 x0 x1 xs2 5 (by decide) b h5 l _ _ ?_ ?_
    · exact ld_row _ 5 _ b h5 l
    · intro r; exact rfl
  · unfold_pays
    refine row_goal q2 x0 x1 xs2 4 (by decide) b h4 l _ _ ?_ ?_
    · exact ld_row _ 4 _ b h4 l
    · intro r; exact rfl
  · unfold_pays
    refine row_goal q2 x0 x1 xs2 3 (by decide) b h3 l _ _ ?_ ?_
    · exact ld_row _ 3 _ b h3 l
    · intro r; exact rfl
  · unfold_pays
    refine row_goal q2 x0 x1 xs2 2 (by decide) b h2 l _ _ ?_ ?_
    · exact ld_row _ 2 _ b h2 l
    · intro r; exact rfl
  · unfold_pays
    refine row_goal q2 x0 x1 xs2 1 (by decide) b h1 l _ _ ?_ ?_
    · exact ld_row _ 1 _ b h1 l
    · intro r; exact rfl
  · unfold_pays
    refine row_goal q2 x0 x1 xs2 0 (by decide) b h0 l _ _ ?_ ?_
    · exact ld_row _ 0 _ b h0 l
    · intro r; exact rfl
  · rw [tile_high q2 x0 x1 b l (by omega), add_zero]

set_option maxHeartbeats 8000000 in
/-- A core's first grid point zeroes accumulator 2 and adds its block's column sums. -/
theorem sA2 (c : Dev nD) (i : grid0.Coords) (arg2 : Memref sig .tc .vmem S4096x128 .f32) (harg2 : arg2.IsWhole) (arg3 : Memref sig .tc .vmem S4096x128 .i32) (harg3 : arg3.IsWhole) (arg4 : Memref sig .tc .vmem S1x16x128 .f32) (harg4 : arg4.IsWhole) (arg5 : Memref sig .tc .vmem S1x16x128 .f32) (harg5 : arg5.IsWhole) (arg6 : Memref sig .tc .vmem S1x16x128 .f32) (harg6 : arg6.IsWhole) (arg7 : Memref sig .tc .vmem S16x128 .f32) (harg7 : arg7.IsWhole) (arg8 : Memref sig .tc .vmem S16x128 .f32) (harg8 : arg8.IsWhole) (arg9 : Memref sig .tc .vmem S16x128 .f32) (harg9 : arg9.IsWhole) (hc0 : cond0_0 i) (hc1 : ¬cond0_1 i)
    (x0 : Vec Ideal S4096x128 .f32) (x1 : Vec Ideal S4096x128 .i32) (b : Fin 16) (l : Fin 128) :
    sout0_A_2 (F := Ideal) c i arg2 harg2 arg3 harg3 arg4 harg4 arg5 harg5 arg6 harg6 arg7 harg7 arg8 harg8 arg9 harg9 hc0 hc1 x0 x1 (ix2 b l) = tile q2 x0 x1 (ix2 b l) := by
  unfold sout0_A_2 kernelRun0_A
  dsimp only
  rw [read_row_cons]; unfold kernelRun0_A.sl.HS2_10
  rw [read_row_cons]; unfold kernelRun0_A.sl.HS2_9
  rw [read_row_cons]; unfold kernelRun0_A.sl.HS2_8
  rw [read_row_cons]; unfold kernelRun0_A.sl.HS2_7
  rw [read_row_cons]; unfold kernelRun0_A.sl.HS2_6
  rw [read_row_cons]; unfold kernelRun0_A.sl.HS2_5
  rw [read_row_cons]; unfold kernelRun0_A.sl.HS2_4
  rw [read_row_cons]; unfold kernelRun0_A.sl.HS2_3
  rw [read_row_cons]; unfold kernelRun0_A.sl.HS2_2
  rw [read_row_cons]; unfold kernelRun0_A.sl.HS2_1
  rw [read_whole_cons]
  have hb := b.isLt
  split_ifs with h9 h8 h7 h6 h5 h4 h3 h2 h1 h0
  · sl_unfold_words
    generalize hv : View.readCov (Val := Elt Ideal) arg9.view _ (Rect.unit (s := S16x128) ![9, 0] ![1, 128] _).toLoadRect = v
    have hv' : v = View.ld (k0_pay8 (F := Ideal)) (Rect.unit (s := S16x128) ![9, 0] ![1, 128] inb_S16x128_S1x128_9_0) :=
      hv.symm.trans (readCov_skip _ 8 9 (by omega) _ _ _ _ _ (readCov_skip _ 7 9 (by omega) _ _ _ _ _ (readCov_skip _ 6 9 (by omega) _ _ _ _ _ (readCov_skip _ 5 9 (by omega) _ _ _ _ _ (readCov_skip _ 4 9 (by omega) _ _ _ _ _ (readCov_skip _ 3 9 (by omega) _ _ _ _ _ (readCov_skip _ 2 9 (by omega) _ _ _ _ _ (readCov_skip _ 1 9 (by omega) _ _ _ _ _ (readCov_skip _ 0 9 (by omega) _ _ _ _ _ (readCov_whole_row _ _ _ 9 _))))))))))
    subst hv'
    simp only [View.readAt_eq_ld, harg2.read_unread, harg3.read_unread, View.ld_unit_zero (S := S4096x128) hz2]
    unfold_pays
    refine Eq.trans (row_goal q2 x0 x1 (k0_pay8 (F := Ideal)) 9 (by decide) b h9 l _ _ ?_ ?_) ?_
    · exact ld_row _ 9 _ b h9 l
    · intro r; exact rfl
    · rw [pay8_zero, zero_add]
  · sl_unfold_words
    generalize hv : View.readCov (Val := Elt Ideal) arg9.view _ (Rect.unit (s := S16x128) ![8, 0] ![1, 128] _).toLoadRect = v
    have hv' : v = View.ld (k0_pay8 (F := Ideal)) (Rect.unit (s := S16x128) ![8, 0] ![1, 128] inb_S16x128_S1x128_8_0) :=
      hv.symm.trans (readCov_skip _ 7 8 (by omega) _ _ _ _ _ (readCov_skip _ 6 8 (by omega) _ _ _ _ _ (readCov_skip _ 5 8 (by omega) _ _ _ _ _ (readCov_skip _ 4 8 (by omega) _ _ _ _ _ (readCov_skip _ 3 8 (by omega) _ _ _ _ _ (readCov_skip _ 2 8 (by omega) _ _ _ _ _ (readCov_skip _ 1 8 (by omega) _ _ _ _ _ (readCov_skip _ 0 8 (by omega) _ _ _ _ _ (readCov_whole_row _ _ _ 8 _)))))))))
    subst hv'
    simp only [View.readAt_eq_ld, harg2.read_unread, harg3.read_unread, View.ld_unit_zero (S := S4096x128) hz2]
    unfold_pays
    refine Eq.trans (row_goal q2 x0 x1 (k0_pay8 (F := Ideal)) 8 (by decide) b h8 l _ _ ?_ ?_) ?_
    · exact ld_row _ 8 _ b h8 l
    · intro r; exact rfl
    · rw [pay8_zero, zero_add]
  · sl_unfold_words
    generalize hv : View.readCov (Val := Elt Ideal) arg9.view _ (Rect.unit (s := S16x128) ![7, 0] ![1, 128] _).toLoadRect = v
    have hv' : v = View.ld (k0_pay8 (F := Ideal)) (Rect.unit (s := S16x128) ![7, 0] ![1, 128] inb_S16x128_S1x128_7_0) :=
      hv.symm.trans (readCov_skip _ 6 7 (by omega) _ _ _ _ _ (readCov_skip _ 5 7 (by omega) _ _ _ _ _ (readCov_skip _ 4 7 (by omega) _ _ _ _ _ (readCov_skip _ 3 7 (by omega) _ _ _ _ _ (readCov_skip _ 2 7 (by omega) _ _ _ _ _ (readCov_skip _ 1 7 (by omega) _ _ _ _ _ (readCov_skip _ 0 7 (by omega) _ _ _ _ _ (readCov_whole_row _ _ _ 7 _))))))))
    subst hv'
    simp only [View.readAt_eq_ld, harg2.read_unread, harg3.read_unread, View.ld_unit_zero (S := S4096x128) hz2]
    unfold_pays
    refine Eq.trans (row_goal q2 x0 x1 (k0_pay8 (F := Ideal)) 7 (by decide) b h7 l _ _ ?_ ?_) ?_
    · exact ld_row _ 7 _ b h7 l
    · intro r; exact rfl
    · rw [pay8_zero, zero_add]
  · sl_unfold_words
    generalize hv : View.readCov (Val := Elt Ideal) arg9.view _ (Rect.unit (s := S16x128) ![6, 0] ![1, 128] _).toLoadRect = v
    have hv' : v = View.ld (k0_pay8 (F := Ideal)) (Rect.unit (s := S16x128) ![6, 0] ![1, 128] inb_S16x128_S1x128_6_0) :=
      hv.symm.trans (readCov_skip _ 5 6 (by omega) _ _ _ _ _ (readCov_skip _ 4 6 (by omega) _ _ _ _ _ (readCov_skip _ 3 6 (by omega) _ _ _ _ _ (readCov_skip _ 2 6 (by omega) _ _ _ _ _ (readCov_skip _ 1 6 (by omega) _ _ _ _ _ (readCov_skip _ 0 6 (by omega) _ _ _ _ _ (readCov_whole_row _ _ _ 6 _)))))))
    subst hv'
    simp only [View.readAt_eq_ld, harg2.read_unread, harg3.read_unread, View.ld_unit_zero (S := S4096x128) hz2]
    unfold_pays
    refine Eq.trans (row_goal q2 x0 x1 (k0_pay8 (F := Ideal)) 6 (by decide) b h6 l _ _ ?_ ?_) ?_
    · exact ld_row _ 6 _ b h6 l
    · intro r; exact rfl
    · rw [pay8_zero, zero_add]
  · sl_unfold_words
    generalize hv : View.readCov (Val := Elt Ideal) arg9.view _ (Rect.unit (s := S16x128) ![5, 0] ![1, 128] _).toLoadRect = v
    have hv' : v = View.ld (k0_pay8 (F := Ideal)) (Rect.unit (s := S16x128) ![5, 0] ![1, 128] inb_S16x128_S1x128_5_0) :=
      hv.symm.trans (readCov_skip _ 4 5 (by omega) _ _ _ _ _ (readCov_skip _ 3 5 (by omega) _ _ _ _ _ (readCov_skip _ 2 5 (by omega) _ _ _ _ _ (readCov_skip _ 1 5 (by omega) _ _ _ _ _ (readCov_skip _ 0 5 (by omega) _ _ _ _ _ (readCov_whole_row _ _ _ 5 _))))))
    subst hv'
    simp only [View.readAt_eq_ld, harg2.read_unread, harg3.read_unread, View.ld_unit_zero (S := S4096x128) hz2]
    unfold_pays
    refine Eq.trans (row_goal q2 x0 x1 (k0_pay8 (F := Ideal)) 5 (by decide) b h5 l _ _ ?_ ?_) ?_
    · exact ld_row _ 5 _ b h5 l
    · intro r; exact rfl
    · rw [pay8_zero, zero_add]
  · sl_unfold_words
    generalize hv : View.readCov (Val := Elt Ideal) arg9.view _ (Rect.unit (s := S16x128) ![4, 0] ![1, 128] _).toLoadRect = v
    have hv' : v = View.ld (k0_pay8 (F := Ideal)) (Rect.unit (s := S16x128) ![4, 0] ![1, 128] inb_S16x128_S1x128_4_0) :=
      hv.symm.trans (readCov_skip _ 3 4 (by omega) _ _ _ _ _ (readCov_skip _ 2 4 (by omega) _ _ _ _ _ (readCov_skip _ 1 4 (by omega) _ _ _ _ _ (readCov_skip _ 0 4 (by omega) _ _ _ _ _ (readCov_whole_row _ _ _ 4 _)))))
    subst hv'
    simp only [View.readAt_eq_ld, harg2.read_unread, harg3.read_unread, View.ld_unit_zero (S := S4096x128) hz2]
    unfold_pays
    refine Eq.trans (row_goal q2 x0 x1 (k0_pay8 (F := Ideal)) 4 (by decide) b h4 l _ _ ?_ ?_) ?_
    · exact ld_row _ 4 _ b h4 l
    · intro r; exact rfl
    · rw [pay8_zero, zero_add]
  · sl_unfold_words
    generalize hv : View.readCov (Val := Elt Ideal) arg9.view _ (Rect.unit (s := S16x128) ![3, 0] ![1, 128] _).toLoadRect = v
    have hv' : v = View.ld (k0_pay8 (F := Ideal)) (Rect.unit (s := S16x128) ![3, 0] ![1, 128] inb_S16x128_S1x128_3_0) :=
      hv.symm.trans (readCov_skip _ 2 3 (by omega) _ _ _ _ _ (readCov_skip _ 1 3 (by omega) _ _ _ _ _ (readCov_skip _ 0 3 (by omega) _ _ _ _ _ (readCov_whole_row _ _ _ 3 _))))
    subst hv'
    simp only [View.readAt_eq_ld, harg2.read_unread, harg3.read_unread, View.ld_unit_zero (S := S4096x128) hz2]
    unfold_pays
    refine Eq.trans (row_goal q2 x0 x1 (k0_pay8 (F := Ideal)) 3 (by decide) b h3 l _ _ ?_ ?_) ?_
    · exact ld_row _ 3 _ b h3 l
    · intro r; exact rfl
    · rw [pay8_zero, zero_add]
  · sl_unfold_words
    generalize hv : View.readCov (Val := Elt Ideal) arg9.view _ (Rect.unit (s := S16x128) ![2, 0] ![1, 128] _).toLoadRect = v
    have hv' : v = View.ld (k0_pay8 (F := Ideal)) (Rect.unit (s := S16x128) ![2, 0] ![1, 128] inb_S16x128_S1x128_2_0) :=
      hv.symm.trans (readCov_skip _ 1 2 (by omega) _ _ _ _ _ (readCov_skip _ 0 2 (by omega) _ _ _ _ _ (readCov_whole_row _ _ _ 2 _)))
    subst hv'
    simp only [View.readAt_eq_ld, harg2.read_unread, harg3.read_unread, View.ld_unit_zero (S := S4096x128) hz2]
    unfold_pays
    refine Eq.trans (row_goal q2 x0 x1 (k0_pay8 (F := Ideal)) 2 (by decide) b h2 l _ _ ?_ ?_) ?_
    · exact ld_row _ 2 _ b h2 l
    · intro r; exact rfl
    · rw [pay8_zero, zero_add]
  · sl_unfold_words
    generalize hv : View.readCov (Val := Elt Ideal) arg9.view _ (Rect.unit (s := S16x128) ![1, 0] ![1, 128] _).toLoadRect = v
    have hv' : v = View.ld (k0_pay8 (F := Ideal)) (Rect.unit (s := S16x128) ![1, 0] ![1, 128] inb_S16x128_S1x128_1_0) :=
      hv.symm.trans (readCov_skip _ 0 1 (by omega) _ _ _ _ _ (readCov_whole_row _ _ _ 1 _))
    subst hv'
    simp only [View.readAt_eq_ld, harg2.read_unread, harg3.read_unread, View.ld_unit_zero (S := S4096x128) hz2]
    unfold_pays
    refine Eq.trans (row_goal q2 x0 x1 (k0_pay8 (F := Ideal)) 1 (by decide) b h1 l _ _ ?_ ?_) ?_
    · exact ld_row _ 1 _ b h1 l
    · intro r; exact rfl
    · rw [pay8_zero, zero_add]
  · sl_unfold_words
    generalize hv : View.readCov (Val := Elt Ideal) arg9.view _ (Rect.unit (s := S16x128) ![0, 0] ![1, 128] _).toLoadRect = v
    have hv' : v = View.ld (k0_pay8 (F := Ideal)) (Rect.unit (s := S16x128) ![0, 0] ![1, 128] inb_S16x128_S1x128_0_0) :=
      hv.symm.trans (readCov_whole_row _ _ _ 0 _)
    subst hv'
    simp only [View.readAt_eq_ld, harg2.read_unread, harg3.read_unread, View.ld_unit_zero (S := S4096x128) hz2]
    unfold_pays
    refine Eq.trans (row_goal q2 x0 x1 (k0_pay8 (F := Ideal)) 0 (by decide) b h0 l _ _ ?_ ?_) ?_
    · exact ld_row _ 0 _ b h0 l
    · intro r; exact rfl
    · rw [pay8_zero, zero_add]
  · rw [pay8_zero, tile_high q2 x0 x1 b l (by omega)]

set_option maxHeartbeats 4000000 in
/-- The last point of a run copies accumulator 2, as it leaves it, into the run's [1, 16, 128] output block. -/
theorem oC4 (c : Dev nD) (i : grid0.Coords) (arg2 : Memref sig .tc .vmem S4096x128 .f32) (harg2 : arg2.IsWhole) (arg3 : Memref sig .tc .vmem S4096x128 .i32) (harg3 : arg3.IsWhole) (arg4 : Memref sig .tc .vmem S1x16x128 .f32) (harg4 : arg4.IsWhole) (arg5 : Memref sig .tc .vmem S1x16x128 .f32) (harg5 : arg5.IsWhole) (arg6 : Memref sig .tc .vmem S1x16x128 .f32) (harg6 : arg6.IsWhole) (arg7 : Memref sig .tc .vmem S16x128 .f32) (harg7 : arg7.IsWhole) (arg8 : Memref sig .tc .vmem S16x128 .f32) (harg8 : arg8.IsWhole) (arg9 : Memref sig .tc .vmem S16x128 .f32) (harg9 : arg9.IsWhole) (hc0 : ¬cond0_0 i) (hc1 : cond0_1 i)
    (x0 : Vec Ideal S4096x128 .f32) (x1 : Vec Ideal S4096x128 .i32) (xs0 : Vec Ideal S16x128 .f32) (xs1 : Vec Ideal S16x128 .f32) (xs2 : Vec Ideal S16x128 .f32)
    (b : Fin 16) (l : Fin 128) :
    out0_C_4 (F := Ideal) c i arg2 harg2 arg3 harg3 arg4 harg4 arg5 harg5 arg6 harg6 arg7 harg7 arg8 harg8 arg9 harg9 hc0 hc1 x0 x1 xs0 xs1 xs2 (ix3 (0 : Fin 1) b l)
      = sout0_C_2 (F := Ideal) c i arg2 harg2 arg3 harg3 arg4 harg4 arg5 harg5 arg6 harg6 arg7 harg7 arg8 harg8 arg9 harg9 hc0 hc1 x0 x1 xs0 xs1 xs2 (ix2 b l) := by
  unfold out0_C_4 sout0_C_2 kernelRun0_C
  dsimp only
  sl_unfold_words
  rw [read_whole3]
  simp only [k0_pay5, View.readAt_eq_ld, View.ld_unit_zero (S := S16x128) hz2]
  rw [shapeCast_addUnit_apply ![16, 128]]
  congr 1
  funext a
  match a with
  | ⟨0, _⟩ => rfl
  | ⟨1, _⟩ => rfl

end Cert.KernelIdeal.Pieces

end
-- ==== Proof.Accum.lean ====
/-
  What the three accumulators hold after each grid point, and what the three output arrays hold after the run.

  The 64 grid points are two runs of 32, one per core row c of the [2, 16, 128] outputs. Point n reads the n-th block of
  4096 rows. Within a run the accumulator after point n is the sum of the tiles of the points of that run up to n
  (induction on the point: the first point of a run starts from zero, every later one adds its tile to what the
  point before left). The last point of a run copies the accumulator into the run's [1, 16, 128] output block, so
  the output array at (c, b, l) is the sum over the 32 points of run c of the tile at (b, l).
-/
import proofs.«166259_j43946105373039_2_alg».proof.Proof.Pieces0
import proofs.«166259_j43946105373039_2_alg».proof.Proof.Pieces1
import proofs.«166259_j43946105373039_2_alg».proof.Proof.Pieces2

set_option maxRecDepth 16384

noncomputable section

open scoped BigOperators

namespace Cert.KernelIdeal.Accum

open Cert.KernelIdeal Cert.KernelIdeal.Gen Cert.KernelIdeal.Rows Cert.KernelIdeal.Pieces Cert.Hist
open Idealize.ShloMosaic Idealize.ShloMosaic.TcCoe Idealize.ShloMosaic.ValueIdx
open Idealize.SL Idealize.SL.Sem

variable (m : (ℓ : Loc nD τ sig) → Buf (Elt Ideal) ℓ)

/-- The tile of the block that grid point n reads (zero past the grid). -/
def T (q : EReal → BitVec 32 → EReal) (c : Dev nD) (n : ℕ) : S16x128.Idx → EReal :=
  if h : n < cfg0.N then tile q (iblk m c 0 ⟨n, h⟩) (iblk m c 1 ⟨n, h⟩) else fun _ => 0

theorem T_of_lt (q : EReal → BitVec 32 → EReal) (c : Dev nD) (n : ℕ) (h : n < cfg0.N) :
    T m q c n = tile q (iblk m c 0 ⟨n, h⟩) (iblk m c 1 ⟨n, h⟩) := dif_pos h

/-- Accumulator 0 after point n: the tiles of the points of n's run up to n, added. -/
theorem scratch0_at (c : Dev nD) (b : Fin 16) (l : Fin 128) : ∀ (n : ℕ) (hn : n < cfg0.N),
    (outsAt0 m c n hn).2.2.2.1 (ix2 b l) = ∑ s ∈ Finset.range (n % 32 + 1), T m q0 c (n - n % 32 + s) (ix2 b l) := by
  intro n
  induction n using Nat.strong_induction_on with
  | _ n ih =>
    intro hn
    have hN : n < 64 := lt_of_lt_of_eq hn (show cfg0.N = 64 from N_0)
    by_cases h0 : n % 32 = 0
    · have h1 : ¬ n % 32 = 31 := by omega
      rw [outsAt0_A m c ⟨n, hn⟩ h0 h1]
      dsimp only
      rw [sA0, h0]
      simp only [Nat.zero_add, Finset.sum_range_one, Nat.sub_zero, Nat.add_zero]
      rw [T_of_lt m q0 c n hn]
    · have hp : n - 1 < n := by omega
      have hn1 : n - 1 < cfg0.N := by omega
      have e1 : n % 32 = (n - 1) % 32 + 1 := by omega
      have e2 : n - n % 32 = n - 1 - (n - 1) % 32 := by omega
      have hlast : n - 1 - (n - 1) % 32 + ((n - 1) % 32 + 1) = n := by omega
      by_cases h1 : n % 32 = 31
      · rw [outsAt0_C m c ⟨n, hn⟩ h0 h1]
        dsimp only
        rw [sC0, ih (n - 1) hp hn1, e2, e1,
          Finset.sum_range_succ (fun s => T m q0 c (n - 1 - (n - 1) % 32 + s) (ix2 b l)) ((n - 1) % 32 + 1), hlast,
          T_of_lt m q0 c n hn]
      · rw [outsAt0_B m c ⟨n, hn⟩ h0 h1]
        dsimp only
        rw [sB0, ih (n - 1) hp hn1, e2, e1,
          Finset.sum_range_succ (fun s => T m q0 c (n - 1 - (n - 1) % 32 + s) (ix2 b l)) ((n - 1) % 32 + 1), hlast,
          T_of_lt m q0 c n hn]

/-- Accumulator 1 after point n: the tiles of the points of n's run up to n, added. -/
theorem scratch1_at (c : Dev nD) (b : Fin 16) (l : Fin 128) : ∀ (n : ℕ) (hn : n < cfg0.N),
    (outsAt0 m c n hn).2.2.2.2.1 (ix2 b l) = ∑ s ∈ Finset.range (n % 32 + 1), T m q1 c (n - n % 32 + s) (ix2 b l) := by
  intro n
  induction n using Nat.strong_induction_on with
  | _ n ih =>
    intro hn
    have hN : n < 64 := lt_of_lt_of_eq hn (show cfg0.N = 64 from N_0)
    by_cases h0 : n % 32 = 0
    · have h1 : ¬ n % 32 = 31 := by omega
      rw [outsAt0_A m c ⟨n, hn⟩ h0 h1]
      dsimp only
      rw [sA1, h0]
      simp only [Nat.zero_add, Finset.sum_range_one, Nat.sub_zero, Nat.add_zero]
      rw [T_of_lt m q1 c n hn]
    · have hp : n - 1 < n := by omega
      have hn1 : n - 1 < cfg0.N := by omega
      have e1 : n % 32 = (n - 1) % 32 + 1 := by omega
      have e2 : n - n % 32 = n - 1 - (n - 1) % 32 := by omega
      have hlast : n - 1 - (n - 1) % 32 + ((n - 1) % 32 + 1) = n := by omega
      by_cases h1 : n % 32 = 31
      · rw [outsAt0_C m c ⟨n, hn⟩ h0 h1]
        dsimp only
        rw [sC1, ih (n - 1) hp hn1, e2, e1,
          Finset.sum_range_succ (fun s => T m q1 c (n - 1 - (n - 1) % 32 + s) (ix2 b l)) ((n - 1) % 32 + 1), hlast,
          T_of_lt m q1 c n hn]
      · rw [outsAt0_B m c ⟨n, hn⟩ h0 h1]
        dsimp only
        rw [sB1, ih (n - 1) hp hn1, e2, e1,
          Finset.sum_range_succ (fun s => T m q1 c (n - 1 - (n - 1) % 32 + s) (ix2 b l)) ((n - 1) % 32 + 1), hlast,
          T_of_lt m q1 c n hn]

/-- Accumulator 2 after point n: the tiles of the points of n's run up to n, added. -/
theorem scratch2_at (c : Dev nD) (b : Fin 16) (l : Fin 128) : ∀ (n : ℕ) (hn : n < cfg0.N),
    (outsAt0 m c n hn).2.2.2.2.2 (ix2 b l) = ∑ s ∈ Finset.range (n % 32 + 1), T m q2 c (n - n % 32 + s) (ix2 b l) := by
  intro n
  induction n using Nat.strong_induction_on with
  | _ n ih =>
    intro hn
    have hN : n < 64 := lt_of_lt_of_eq hn (show cfg0.N = 64 from N_0)
    by_cases h0 : n % 32 = 0
    · have h1 : ¬ n % 32 = 31 := by omega
      rw [outsAt0_A m c ⟨n, hn⟩ h0 h1]
      dsimp only
      rw [sA2, h0]
      simp only [Nat.zero_add, Finset.sum_range_one, Nat.sub_zero, Nat.add_zero]
      rw [T_of_lt m q2 c n hn]
    · have hp : n - 1 < n := by omega
      have hn1 : n - 1 < cfg0.N := by omega
      have e1 : n % 32 = (n - 1) % 32 + 1 := by omega
      have e2 : n - n % 32 = n - 1 - (n - 1) % 32 := by omega
      have hlast : n - 1 - (n - 1) % 32 + ((n - 1) % 32 + 1) = n := by omega
      by_cases h1 : n % 32 = 31
      · rw [outsAt0_C m c ⟨n, hn⟩ h0 h1]
        dsimp only
        rw [sC2, ih (n - 1) hp hn1, e2, e1,
          Finset.sum_range_succ (fun s => T m q2 c (n - 1 - (n - 1) % 32 + s) (ix2 b l)) ((n - 1) % 32 + 1), hlast,
          T_of_lt m q2 c n hn]
      · rw [outsAt0_B m c ⟨n, hn⟩ h0 h1]
        dsimp only
        rw [sB2, ih (n - 1) hp hn1, e2, e1,
          Finset.sum_range_succ (fun s => T m q2 c (n - 1 - (n - 1) % 32 + s) (ix2 b l)) ((n - 1) % 32 + 1), hlast,
          T_of_lt m q2 c n hn]

end Cert.KernelIdeal.Accum

end
-- ==== Proof.Final.lean ====
/-
  The three [2, 16, 128] output arrays after the run.

  An output's block (c', 0, 0) is written back once, after the last of the 32 points of run c', with the accumulator
  as that point leaves it; the two blocks tile the array. So the array at (c', b, l) is the sum over the 32 points
  32 c' + s of the tile of point 32 c' + s at (b, l).
-/
import proofs.«166259_j43946105373039_2_alg».proof.Proof.Accum

set_option maxRecDepth 16384

noncomputable section

open scoped BigOperators

namespace Cert.KernelIdeal.Final

open Cert.KernelIdeal Cert.KernelIdeal.Gen Cert.KernelIdeal.Rows Cert.KernelIdeal.Pieces Cert.KernelIdeal.Accum Cert.Hist
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ)

/-- The array of tile sums for the summed quantity q. -/
def G (q : EReal → BitVec 32 → EReal) (c : Dev nD) : S2x16x128.Idx → EReal :=
  fun y => ∑ s ∈ Finset.range (31 + 1), T m q c ((y 0).val * 32 + s) (ix2 (y 1) (y 2))

/-- The printed index maps, decided over the grid: an output's block index is (the point's run, 0, 0). -/
theorem idx_facts2 : ∀ t : Fin cfg0.N, win0_2.index t (0 : Fin 3) = t.val / 32 ∧ win0_2.index t (1 : Fin 3) = 0 ∧ win0_2.index t (2 : Fin 3) = 0 :=
  (by decide +kernel : ∀ t : Fin grid0.N, _)
theorem idx_facts3 : ∀ t : Fin cfg0.N, win0_3.index t (0 : Fin 3) = t.val / 32 ∧ win0_3.index t (1 : Fin 3) = 0 ∧ win0_3.index t (2 : Fin 3) = 0 :=
  (by decide +kernel : ∀ t : Fin grid0.N, _)
theorem idx_facts4 : ∀ t : Fin cfg0.N, win0_4.index t (0 : Fin 3) = t.val / 32 ∧ win0_4.index t (1 : Fin 3) = 0 ∧ win0_4.index t (2 : Fin 3) = 0 :=
  (by decide +kernel : ∀ t : Fin grid0.N, _)

/-! ## Output window 2 -/

/-- WHAT A RUN'S LAST POINT WRITES BACK is that run's block of the array of tile sums. -/
theorem flushed2_eq (c : Dev nD) (t : Fin cfg0.N) (hf : (cfg0.win 2).flush t = true) :
    (dats m 0 c).flushed 2 t = ((cfg0.win 2).blk t).view.read (Elt Ideal) (G m q0 c) := by
  obtain ⟨e0, e1, e2⟩ := idx_facts2 t
  have h31 : t.val % 32 = 31 := (flush0_2 t).mp hf
  have h0 : ¬ t.val % 32 = 0 := by omega
  have hN : t.val < 64 := lt_of_lt_of_eq t.isLt (show cfg0.N = 64 from N_0)
  show (cfg0.win 2).cut (grid0.coords t) ((dats m 0 c).after 2 t) = _
  rw [after0_2]
  funext y
  obtain ⟨y0, b, l, rfl⟩ : ∃ (y0 : Fin 1) (b : Fin 16) (l : Fin 128), y = ix3 y0 b l := ⟨y 0, y 1, y 2, eq_ix3 y⟩
  obtain rfl : y0 = 0 := Subsingleton.elim _ _
  have hs := scratch0_at m c b l t.val t.isLt
  rw [outsAt0_C m c t h0 h31] at hs ⊢
  dsimp only at hs ⊢
  show out0_C_2 (F := Ideal) _ _ _ _ _ _ _ _ _ _ _ _ _ _ _ _ _ _ _ _ _ _ _ _ _ (ix3 (0 : Fin 1) b l)
    = G m q0 c (((cfg0.win 2).blk t).view.emb (ix3 (0 : Fin 1) b l))
  rw [oC2, hs, h31]
  have hE0 : (((cfg0.win 2).blk t).view.emb (ix3 (0 : Fin 1) b l) 0).val = t.val / 32 := by
    show win0_2.index t (0 : Fin 3) * 1 + 1 * 0 = _; omega
  have hE1 : ((cfg0.win 2).blk t).view.emb (ix3 (0 : Fin 1) b l) 1 = b := Fin.ext (by
    show win0_2.index t (1 : Fin 3) * 16 + 1 * b.val = b.val; omega)
  have hE2 : ((cfg0.win 2).blk t).view.emb (ix3 (0 : Fin 1) b l) 2 = l := Fin.ext (by
    show win0_2.index t (2 : Fin 3) * 128 + 1 * l.val = l.val; omega)
  unfold G
  rw [hE0, hE1, hE2]
  have e : t.val - 31 = t.val / 32 * 32 := by omega
  rw [e]

/-- An index of the array is in point t's block iff each coordinate is in the block's range on its axis. -/
theorem mem_blk2 (t : Fin cfg0.N) (i : S2x16x128.Idx) :
    i ∈ ((cfg0.win 2).blk t).view.set ↔ ∀ a : Fin 3, win0_2.index t a * S1x16x128.size a ≤ (i a).val ∧ (i a).val < win0_2.index t a * S1x16x128.size a + S1x16x128.size a := by
  show i ∈ ((View.whole main_v2_0).slice (win0_2.rect t)).set ↔ _
  rw [View.set_slice_whole, Rect.mem_set_unit]
  exact Iff.rfl

/-- Every index of the array is in the block of its run's last point. -/
theorem cover2 (i : S2x16x128.Idx) : ∃ t : Fin cfg0.N, (cfg0.win 2).flush t = true ∧ i ∈ ((cfg0.win 2).blk t).view.set := by
  have hi0 : (i 0).val < 2 := (i 0).isLt
  have hi1 : (i 1).val < 16 := (i 1).isLt
  have hi2 : (i 2).val < 128 := (i 2).isLt
  have hN : (i 0).val * 32 + 31 < cfg0.N := by rw [show cfg0.N = 64 from N_0]; omega
  refine ⟨⟨(i 0).val * 32 + 31, hN⟩, (flush0_2 _).mpr (by show ((i 0).val * 32 + 31) % 32 = 31; omega), ?_⟩
  obtain ⟨e0, e1, e2⟩ := idx_facts2 ⟨(i 0).val * 32 + 31, hN⟩
  have e0' : win0_2.index ⟨(i 0).val * 32 + 31, hN⟩ (0 : Fin 3) = (i 0).val := by
    rw [e0]; show ((i 0).val * 32 + 31) / 32 = (i 0).val; omega
  rw [mem_blk2]
  intro a
  match a with
  | ⟨0, _⟩ => show win0_2.index _ (0 : Fin 3) * 1 ≤ (i 0).val ∧ (i 0).val < win0_2.index _ (0 : Fin 3) * 1 + 1; omega
  | ⟨1, _⟩ => show win0_2.index _ (1 : Fin 3) * 16 ≤ (i 1).val ∧ (i 1).val < win0_2.index _ (1 : Fin 3) * 16 + 16; omega
  | ⟨2, _⟩ => show win0_2.index _ (2 : Fin 3) * 128 ≤ (i 2).val ∧ (i 2).val < win0_2.index _ (2 : Fin 3) * 128 + 128; omega

/-- THE ARRAY after the run: at (c', b, l) the 32 tiles of run c' at (b, l), added. -/
theorem final2 (c : Dev nD) : (dats m 0 c).arrAt 2 cfg0.N = G m q0 c :=
  (dats m 0 c).arrAt_eq_of_cover 2 (G m q0 c) (fun t hf => flushed2_eq m c t hf) (cover2)

/-! ## Output window 3 -/

/-- WHAT A RUN'S LAST POINT WRITES BACK is that run's block of the array of tile sums. -/
theorem flushed3_eq (c : Dev nD) (t : Fin cfg0.N) (hf : (cfg0.win 3).flush t = true) :
    (dats m 0 c).flushed 3 t = ((cfg0.win 3).blk t).view.read (Elt Ideal) (G m q1 c) := by
  obtain ⟨e0, e1, e2⟩ := idx_facts3 t
  have h31 : t.val % 32 = 31 := (flush0_3 t).mp hf
  have h0 : ¬ t.val % 32 = 0 := by omega
  have hN : t.val < 64 := lt_of_lt_of_eq t.isLt (show cfg0.N = 64 from N_0)
  show (cfg0.win 3).cut (grid0.coords t) ((dats m 0 c).after 3 t) = _
  rw [after0_3]
  funext y
  obtain ⟨y0, b, l, rfl⟩ : ∃ (y0 : Fin 1) (b : Fin 16) (l : Fin 128), y = ix3 y0 b l := ⟨y 0, y 1, y 2, eq_ix3 y⟩
  obtain rfl : y0 = 0 := Subsingleton.elim _ _
  have hs := scratch1_at m c b l t.val t.isLt
  rw [outsAt0_C m c t h0 h31] at hs ⊢
  dsimp only at hs ⊢
  show out0_C_3 (F := Ideal) _ _ _ _ _ _ _ _ _ _ _ _ _ _ _ _ _ _ _ _ _ _ _ _ _ (ix3 (0 : Fin 1) b l)
    = G m q1 c (((cfg0.win 3).blk t).view.emb (ix3 (0 : Fin 1) b l))
  rw [oC3, hs, h31]
  have hE0 : (((cfg0.win 3).blk t).view.emb (ix3 (0 : Fin 1) b l) 0).val = t.val / 32 := by
    show win0_3.index t (0 : Fin 3) * 1 + 1 * 0 = _; omega
  have hE1 : ((cfg0.win 3).blk t).view.emb (ix3 (0 : Fin 1) b l) 1 = b := Fin.ext (by
    show win0_3.index t (1 : Fin 3) * 16 + 1 * b.val = b.val; omega)
  have hE2 : ((cfg0.win 3).blk t).view.emb (ix3 (0 : Fin 1) b l) 2 = l := Fin.ext (by
    show win0_3.index t (2 : Fin 3) * 128 + 1 * l.val = l.val; omega)
  unfold G
  rw [hE0, hE1, hE2]
  have e : t.val - 31 = t.val / 32 * 32 := by omega
  rw [e]

/-- An index of the array is in point t's block iff each coordinate is in the block's range on its axis. -/
theorem mem_blk3 (t : Fin cfg0.N) (i : S2x16x128.Idx) :
    i ∈ ((cfg0.win 3).blk t).view.set ↔ ∀ a : Fin 3, win0_3.index t a * S1x16x128.size a ≤ (i a).val ∧ (i a).val < win0_3.index t a * S1x16x128.size a + S1x16x128.size a := by
  show i ∈ ((View.whole main_v2_1).slice (win0_3.rect t)).set ↔ _
  rw [View.set_slice_whole, Rect.mem_set_unit]
  exact Iff.rfl

/-- Every index of the array is in the block of its run's last point. -/
theorem cover3 (i : S2x16x128.Idx) : ∃ t : Fin cfg0.N, (cfg0.win 3).flush t = true ∧ i ∈ ((cfg0.win 3).blk t).view.set := by
  have hi0 : (i 0).val < 2 := (i 0).isLt
  have hi1 : (i 1).val < 16 := (i 1).isLt
  have hi2 : (i 2).val < 128 := (i 2).isLt
  have hN : (i 0).val * 32 + 31 < cfg0.N := by rw [show cfg0.N = 64 from N_0]; omega
  refine ⟨⟨(i 0).val * 32 + 31, hN⟩, (flush0_3 _).mpr (by show ((i 0).val * 32 + 31) % 32 = 31; omega), ?_⟩
  obtain ⟨e0, e1, e2⟩ := idx_facts3 ⟨(i 0).val * 32 + 31, hN⟩
  have e0' : win0_3.index ⟨(i 0).val * 32 + 31, hN⟩ (0 : Fin 3) = (i 0).val := by
    rw [e0]; show ((i 0).val * 32 + 31) / 32 = (i 0).val; omega
  rw [mem_blk3]
  intro a
  match a with
  | ⟨0, _⟩ => show win0_3.index _ (0 : Fin 3) * 1 ≤ (i 0).val ∧ (i 0).val < win0_3.index _ (0 : Fin 3) * 1 + 1; omega
  | ⟨1, _⟩ => show win0_3.index _ (1 : Fin 3) * 16 ≤ (i 1).val ∧ (i 1).val < win0_3.index _ (1 : Fin 3) * 16 + 16; omega
  | ⟨2, _⟩ => show win0_3.index _ (2 : Fin 3) * 128 ≤ (i 2).val ∧ (i 2).val < win0_3.index _ (2 : Fin 3) * 128 + 128; omega

/-- THE ARRAY after the run: at (c', b, l) the 32 tiles of run c' at (b, l), added. -/
theorem final3 (c : Dev nD) : (dats m 0 c).arrAt 3 cfg0.N = G m q1 c :=
  (dats m 0 c).arrAt_eq_of_cover 3 (G m q1 c) (fun t hf => flushed3_eq m c t hf) (cover3)

/-! ## Output window 4 -/

/-- WHAT A RUN'S LAST POINT WRITES BACK is that run's block of the array of tile sums. -/
theorem flushed4_eq (c : Dev nD) (t : Fin cfg0.N) (hf : (cfg0.win 4).flush t = true) :
    (dats m 0 c).flushed 4 t = ((cfg0.win 4).blk t).view.read (Elt Ideal) (G m q2 c) := by
  obtain ⟨e0, e1, e2⟩ := idx_facts4 t
  have h31 : t.val % 32 = 31 := (flush0_4 t).mp hf
  have h0 : ¬ t.val % 32 = 0 := by omega
  have hN : t.val < 64 := lt_of_lt_of_eq t.isLt (show cfg0.N = 64 from N_0)
  show (cfg0.win 4).cut (grid0.coords t) ((dats m 0 c).after 4 t) = _
  rw [after0_4]
  funext y
  obtain ⟨y0, b, l, rfl⟩ : ∃ (y0 : Fin 1) (b : Fin 16) (l : Fin 128), y = ix3 y0 b l := ⟨y 0, y 1, y 2, eq_ix3 y⟩
  obtain rfl : y0 = 0 := Subsingleton.elim _ _
  have hs := scratch2_at m c b l t.val t.isLt
  rw [outsAt0_C m c t h0 h31] at hs ⊢
  dsimp only at hs ⊢
  show out0_C_4 (F := Ideal) _ _ _ _ _ _ _ _ _ _ _ _ _ _ _ _ _ _ _ _ _ _ _ _ _ (ix3 (0 : Fin 1) b l)
    = G m q2 c (((cfg0.win 4).blk t).view.emb (ix3 (0 : Fin 1) b l))
  rw [oC4, hs, h31]
  have hE0 : (((cfg0.win 4).blk t).view.emb (ix3 (0 : Fin 1) b l) 0).val = t.val / 32 := by
    show win0_4.index t (0 : Fin 3) * 1 + 1 * 0 = _; omega
  have hE1 : ((cfg0.win 4).blk t).view.emb (ix3 (0 : Fin 1) b l) 1 = b := Fin.ext (by
    show win0_4.index t (1 : Fin 3) * 16 + 1 * b.val = b.val; omega)
  have hE2 : ((cfg0.win 4).blk t).view.emb (ix3 (0 : Fin 1) b l) 2 = l := Fin.ext (by
    show win0_4.index t (2 : Fin 3) * 128 + 1 * l.val = l.val; omega)
  unfold G
  rw [hE0, hE1, hE2]
  have e : t.val - 31 = t.val / 32 * 32 := by omega
  rw [e]

/-- An index of the array is in point t's block iff each coordinate is in the block's range on its axis. -/
theorem mem_blk4 (t : Fin cfg0.N) (i : S2x16x128.Idx) :
    i ∈ ((cfg0.win 4).blk t).view.set ↔ ∀ a : Fin 3, win0_4.index t a * S1x16x128.size a ≤ (i a).val ∧ (i a).val < win0_4.index t a * S1x16x128.size a + S1x16x128.size a := by
  show i ∈ ((View.whole main_v2_2).slice (win0_4.rect t)).set ↔ _
  rw [View.set_slice_whole, Rect.mem_set_unit]
  exact Iff.rfl

/-- Every index of the array is in the block of its run's last point. -/
theorem cover4 (i : S2x16x128.Idx) : ∃ t : Fin cfg0.N, (cfg0.win 4).flush t = true ∧ i ∈ ((cfg0.win 4).blk t).view.set := by
  have hi0 : (i 0).val < 2 := (i 0).isLt
  have hi1 : (i 1).val < 16 := (i 1).isLt
  have hi2 : (i 2).val < 128 := (i 2).isLt
  have hN : (i 0).val * 32 + 31 < cfg0.N := by rw [show cfg0.N = 64 from N_0]; omega
  refine ⟨⟨(i 0).val * 32 + 31, hN⟩, (flush0_4 _).mpr (by show ((i 0).val * 32 + 31) % 32 = 31; omega), ?_⟩
  obtain ⟨e0, e1, e2⟩ := idx_facts4 ⟨(i 0).val * 32 + 31, hN⟩
  have e0' : win0_4.index ⟨(i 0).val * 32 + 31, hN⟩ (0 : Fin 3) = (i 0).val := by
    rw [e0]; show ((i 0).val * 32 + 31) / 32 = (i 0).val; omega
  rw [mem_blk4]
  intro a
  match a with
  | ⟨0, _⟩ => show win0_4.index _ (0 : Fin 3) * 1 ≤ (i 0).val ∧ (i 0).val < win0_4.index _ (0 : Fin 3) * 1 + 1; omega
  | ⟨1, _⟩ => show win0_4.index _ (1 : Fin 3) * 16 ≤ (i 1).val ∧ (i 1).val < win0_4.index _ (1 : Fin 3) * 16 + 16; omega
  | ⟨2, _⟩ => show win0_4.index _ (2 : Fin 3) * 128 ≤ (i 2).val ∧ (i 2).val < win0_4.index _ (2 : Fin 3) * 128 + 128; omega

/-- THE ARRAY after the run: at (c', b, l) the 32 tiles of run c' at (b, l), added. -/
theorem final4 (c : Dev nD) : (dats m 0 c).arrAt 4 cfg0.N = G m q2 c :=
  (dats m 0 c).arrAt_eq_of_cover 4 (G m q2 c) (fun t hf => flushed4_eq m c t hf) (cover4)

end Cert.KernelIdeal.Final

end
-- ==== Proof.Blocks.lean ====
/-
  The blocks the grid points read, as entries of the two argument arrays.

  Before the region the two length-33,554,432 arguments are re-laid as [262144, 128] arrays: entry (R, l) is element
  R * 128 + l. Grid point t reads rows t * 4096 .. t * 4096 + 4095 of each, so entry (r, l) of its block is element
  (t * 4096 + r) * 128 + l of the argument.
-/
import proofs.«166259_j43946105373039_2_alg».proof.Proof.Gen.KernelIdeal.Frame
import Idealize.ShloMosaic.Lib.StableHlo.Run
import Idealize.ShloMosaic.Lib.Pipeline.Value
import Idealize.ShloMosaic.Lib.ValueIdx

set_option maxRecDepth 16384

noncomputable section

namespace Cert.KernelIdeal.Blocks

open Cert.KernelIdeal Cert.KernelIdeal.Gen
open Idealize.ShloMosaic Idealize.ShloMosaic.TcCoe Idealize.ShloMosaic.ValueIdx Idealize.ShloMosaic.StableHlo
open Idealize.SL Idealize.SL.Sem

variable (m : (ℓ : Loc nD τ sig) → Buf (Elt Ideal) ℓ)

/-- A length-33,554,432 array read at a natural-number position (its first entry past the end, a value never used). -/
def atN {α : Type} (X : S33554432.Idx → α) (p : ℕ) : α :=
  if h : p < 33554432 then X (ix1 ⟨p, h⟩) else X (ix1 ⟨0, by decide⟩)

theorem atN_val {α : Type} (X : S33554432.Idx → α) (n : Fin 33554432) : atN X n.val = X (ix1 n) :=
  dif_pos n.isLt

/-- The region finds the first argument re-laid as 262144 rows of 128. -/
theorem V_v0 (c : Dev nD) : (V m c main_v0 : S262144x128.Idx → EReal)
    = shapeCast S262144x128 (m ((c : Thread nD τ).loc main_arg0) : S33554432.Idx → EReal) shapeCasts_S33554432_S262144x128 := by
  show StableHlo.after hostOps0 (fun b => m (c, b)) (Proc.devRef .tc main_v0) = _
  after_results
  rfl

/-- The region finds the second argument re-laid as 262144 rows of 128. -/
theorem V_v1 (c : Dev nD) : (V m c main_v1 : S262144x128.Idx → BitVec 32)
    = shapeCast S262144x128 (m ((c : Thread nD τ).loc main_arg1) : S33554432.Idx → BitVec 32) shapeCasts_S33554432_S262144x128 := by
  show StableHlo.after hostOps0 (fun b => m (c, b)) (Proc.devRef .tc main_v1) = _
  after_results
  rfl

/-- The printed index maps of the two input windows, decided over the grid: block t, column block 0. -/
theorem idx_facts_in : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- Entry (r, l) of the logits block of point t. -/
theorem iblk0_apply (c : Dev nD) (t : Fin cfg0.N) (r : Fin 4096) (l : Fin 128) :
    (iblk m c 0 t : Vec Ideal S4096x128 .f32) (ix2 r l)
      = atN (m ((c : Thread nD τ).loc main_arg0) : S33554432.Idx → EReal) ((t.val * 4096 + r.val) * 128 + l.val) := by
  obtain ⟨e0, e1, -, -⟩ := idx_facts_in t
  have hN : t.val < 64 := lt_of_lt_of_eq t.isLt (show cfg0.N = 64 from N_0)
  have hr := r.isLt
  have hl := l.isLt
  have hp : (t.val * 4096 + r.val) * 128 + l.val < 33554432 := by omega
  unfold atN
  rw [dif_pos hp]
  show V m c main_v0 (((cfg0.win 0).blk t).view.emb (ix2 r l)) = _
  rw [V_v0]
  refine shapeCast_apply _ _ _ (ix1 ⟨_, hp⟩) ?_
  rw [Shape.rowMajor_val_one, Shape.rowMajor_val_two]
  show (t.val * 4096 + r.val) * 128 + l.val
    = (win0_0.index t (0 : Fin 2) * 4096 + 1 * r.val) * 128 + (win0_0.index t (1 : Fin 2) * 128 + 1 * l.val)
  rw [e0, e1]; omega

/-- Entry (r, l) of the labels block of point t. -/
theorem iblk1_apply (c : Dev nD) (t : Fin cfg0.N) (r : Fin 4096) (l : Fin 128) :
    (iblk m c 1 t : Vec Ideal S4096x128 .i32) (ix2 r l)
      = atN (m ((c : Thread nD τ).loc main_arg1) : S33554432.Idx → BitVec 32) ((t.val * 4096 + r.val) * 128 + l.val) := by
  obtain ⟨-, -, e0, e1⟩ := idx_facts_in t
  have hN : t.val < 64 := lt_of_lt_of_eq t.isLt (show cfg0.N = 64 from N_0)
  have hr := r.isLt
  have hl := l.isLt
  have hp : (t.val * 4096 + r.val) * 128 + l.val < 33554432 := by omega
  unfold atN
  rw [dif_pos hp]
  show V m c main_v1 (((cfg0.win 1).blk t).view.emb (ix2 r l)) = _
  rw [V_v1]
  refine shapeCast_apply _ _ _ (ix1 ⟨_, hp⟩) ?_
  rw [Shape.rowMajor_val_one, Shape.rowMajor_val_two]
  show (t.val * 4096 + r.val) * 128 + l.val
    = (win0_1.index t (0 : Fin 2) * 4096 + 1 * r.val) * 128 + (win0_1.index t (1 : Fin 2) * 128 + 1 * l.val)
  rw [e0, e1]; omega

end Cert.KernelIdeal.Blocks

end
-- ==== Proof.LibSumBlocks.lean ====
/-
  Regrouping a finite sum by blocks.  A sum over `Fin n` with `n = a * b` is the sum over the `a`
  blocks of `b` consecutive positions of each block's sum: position `p * b + q` is the `q`-th of
  block `p`.  Valid in any commutative additive monoid (the extended reals included: no
  cancellation is used), because it is only a re-indexing along the bijection
  `Fin a × Fin b ≃ Fin (a * b)`.
-/
import Mathlib.Algebra.BigOperators.Fin
import Mathlib.Logic.Equiv.Fin.Basic

namespace LibSumBlocks

/-- Position `q` of block `p` lies below `a * b`. -/
theorem mul_add_lt {a b p q : ℕ} (hp : p < a) (hq : q < b) : p * b + q < a * b :=
  calc p * b + q < p * b + b := by omega
    _ = (p + 1) * b := by rw [Nat.add_mul, Nat.one_mul]
    _ ≤ a * b := Nat.mul_le_mul_right b hp

/-- A sum over `Fin n`, `n = a * b`, is the double sum over the block `p : Fin a` and the position
    `q : Fin b` inside it of the term at `p * b + q`. -/
theorem sum_fin_blocks {M : Type*} [AddCommMonoid M] {n : ℕ} (a b : ℕ) (hn : a * b = n) (f : Fin n → M) :
    ∑ i : Fin n, f i
      = ∑ p : Fin a, ∑ q : Fin b, f ⟨p.val * b + q.val, hn ▸ mul_add_lt p.isLt q.isLt⟩ := by
  subst hn
  rw [← Equiv.sum_comp finProdFinEquiv f, Fintype.sum_prod_type]
  refine Finset.sum_congr rfl fun p _ => Finset.sum_congr rfl fun q _ => ?_
  refine congrArg f (Fin.ext ?_)
  show q.val + b * p.val = p.val * b + q.val
  rw [Nat.mul_comm, Nat.add_comm]

/-- The same for a term that depends on the position only through its value. -/
theorem sum_fin_nat_blocks {M : Type*} [AddCommMonoid M] {n : ℕ} (a b : ℕ) (hn : a * b = n) (g : ℕ → M) :
    ∑ i : Fin n, g i.val = ∑ p : Fin a, ∑ q : Fin b, g (p.val * b + q.val) :=
  sum_fin_blocks a b hn fun i => g i.val

/-- Three levels: `n = a * b * c` positions as `a` blocks of `b` rows of `c` entries; entry `l` of row `r` of
    block `t` is position `(t * b + r) * c + l`. -/
theorem sum_fin_nat_blocks3 {M : Type*} [AddCommMonoid M] {n : ℕ} (a b c : ℕ) (hn : a * b * c = n) (g : ℕ → M) :
    ∑ i : Fin n, g i.val
      = ∑ t : Fin a, ∑ r : Fin b, ∑ l : Fin c, g ((t.val * b + r.val) * c + l.val) := by
  rw [sum_fin_nat_blocks (a * b) c hn g]
  exact sum_fin_nat_blocks a b rfl fun R => ∑ l : Fin c, g (R * c + l.val)

/-- A sum over `Finset.range N` of a function that, below `N`, is a function of the `Fin N` position: the two
    spellings of one sum. -/
theorem sum_range_eq_sum_fin {M : Type*} [AddCommMonoid M] (N : ℕ) (g : ℕ → M) (f : Fin N → M)
    (h : ∀ t : Fin N, g t.val = f t) : ∑ s ∈ Finset.range N, g s = ∑ t : Fin N, f t := by
  rw [← Fin.sum_univ_eq_sum_range]
  exact Finset.sum_congr rfl fun t _ => h t

end LibSumBlocks
-- ==== Proof.Sums.lean ====
/-
  The 33,554,432 predictions, grouped the way the kernel visits them.

  Prediction number n sits in row n / 128, lane n % 128 of the [262144, 128] view; rows come in 64 blocks of 4096, and the
  64 blocks in two runs of 32. So n = ((c * 32 + s) * 4096 + r) * 128 + l for a unique run c, point s of the run, row r of
  the block and lane l, and a sum over all predictions is the sum over (c, l, s, r) in any order: a re-indexing, valid in
  any commutative additive monoid (no cancellation is used).
-/
import Mathlib.Algebra.BigOperators.Fin
import proofs.«166259_j43946105373039_2_alg».proof.Proof.LibSumBlocks

open scoped BigOperators

namespace Cert.Sums

/-- A sum over all predictions, as the sum over runs, lanes, points of the run and rows of the block. -/
theorem regroup {M : Type*} [AddCommMonoid M] (g : ℕ → M) :
    ∑ n : Fin 33554432, g n.val
      = ∑ c : Fin 2, ∑ l : Fin 128, ∑ s ∈ Finset.range (31 + 1), ∑ r : Fin 4096,
          g (((c.val * 32 + s) * 4096 + r.val) * 128 + l.val) := by
  refine (LibSumBlocks.sum_fin_nat_blocks3 64 4096 128 rfl g).trans ?_
  refine (LibSumBlocks.sum_fin_nat_blocks 2 32 rfl
    (fun t => ∑ r : Fin 4096, ∑ l : Fin 128, g ((t * 4096 + r.val) * 128 + l.val))).trans ?_
  refine Finset.sum_congr rfl fun c _ => ?_
  have h1 : (∑ q : Fin 32, ∑ r : Fin 4096, ∑ l : Fin 128, g (((c.val * 32 + q.val) * 4096 + r.val) * 128 + l.val))
      = ∑ q : Fin 32, ∑ l : Fin 128, ∑ r : Fin 4096, g (((c.val * 32 + q.val) * 4096 + r.val) * 128 + l.val) :=
    Finset.sum_congr rfl fun q _ => Finset.sum_comm
  refine h1.trans ?_
  rw [Finset.sum_comm]
  refine Finset.sum_congr rfl fun l _ => ?_
  exact Fin.sum_univ_eq_sum_range (fun s => ∑ r : Fin 4096, g (((c.val * 32 + s) * 4096 + r.val) * 128 + l.val)) 32

end Cert.Sums
-- ==== Proof.KernelTail.lean ====
/-
  The host operations after the region of the idealized kernel program, read over whatever the region leaves.

  The region leaves three 2 x 16 x 128 arrays: per core, per bin row and per lane, the partial counts, label sums and
  confidence sums. The host operations after it add each array over its cores and lanes into sixteen entries, keep
  the first ten as the three histograms, and then do the ten-entry arithmetic of the calibration error on them:
  non-empty bins, per-bin means, the gaps, their sum and their maximum. Read at entry b, a histogram is the sum over
  the two cores and the 128 lanes of the array's row b.
-/
import proofs.«166259_j43946105373039_2_alg».proof.Proof.Gen.KernelIdeal.Frame
import proofs.«166259_j43946105373039_2_alg».proof.Proof.Tail
import proofs.«166259_j43946105373039_2_alg».proof.Proof.Bins
import Idealize.ShloMosaic.Lib.StableHlo.Run
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.KernelIdeal.KTail

open Cert.KernelIdeal Cert.KernelIdeal.Gen Idealize.ShloMosaic Idealize.ShloMosaic.TcCoe Idealize.SL.Sem Idealize.ShloMosaic.StableHlo
open Idealize.ShloMosaic.ValueIdx

/-- The host operations after the region, in order. -/
abbrev ktail : List (HloOp τ sig (Elt Ideal)) :=
  List.flatten [hostOps1 (F := Ideal), hostOps1_1, hostOps1_2, hostOps1_3, hostOps1_4, hostOps1_5, hostOps1_6, hostOps1_7, hostOps1_8]

/-- A 2 x 16 x 128 array added over its cores and lanes, its first ten rows kept. -/
def kred (A : FVec Ideal S2x16x128 .f32) : FVec Ideal S10 .f32 :=
  extractStridedSlice S10 ![0] (Host.reduceAdd A (constant (F := Ideal) S_ .f32 0x00000000#32) reducesTo_S2x16x128_S16_d0_2 h_S_) slices_S16_S10_0

section Results
variable (W : Valuation τ sig (Elt Ideal))

set_option maxRecDepth 65536 in
set_option maxHeartbeats 4000000 in
/-- The first result: the per-bin mean label. -/
theorem ktail_v13 : after ktail W (Proc.devRef .tc main_v13)
    = Cert.Tail.mean (kred (W (Proc.devRef .tc main_v2_0))) (kred (W (Proc.devRef .tc main_v2_1))) := by
  simp only [ktail, hostOps1, hostOps1_1, hostOps1_2, hostOps1_3, hostOps1_4, hostOps1_5, hostOps1_6, hostOps1_7, hostOps1_8,
    List.flatten_cons, List.flatten_nil, List.append_nil, List.cons_append, List.nil_append]
  after_results_simp <;> rfl

set_option maxRecDepth 65536 in
set_option maxHeartbeats 4000000 in
/-- The second result: the per-bin mean confidence. -/
theorem ktail_v15 : after ktail W (Proc.devRef .tc main_v15)
    = Cert.Tail.mean (kred (W (Proc.devRef .tc main_v2_0))) (kred (W (Proc.devRef .tc main_v2_2))) := by
  simp only [ktail, hostOps1, hostOps1_1, hostOps1_2, hostOps1_3, hostOps1_4, hostOps1_5, hostOps1_6, hostOps1_7, hostOps1_8,
    List.flatten_cons, List.flatten_nil, List.append_nil, List.cons_append, List.nil_append]
  after_results_simp <;> rfl

set_option maxRecDepth 65536 in
set_option maxHeartbeats 4000000 in
/-- The third result: the sum of the gaps. -/
theorem ktail_v19 : after ktail W (Proc.devRef .tc main_v19)
    = Cert.Tail.gapSum (kred (W (Proc.devRef .tc main_v2_0))) (kred (W (Proc.devRef .tc main_v2_1))) (kred (W (Proc.devRef .tc main_v2_2))) := by
  simp only [ktail, hostOps1, hostOps1_1, hostOps1_2, hostOps1_3, hostOps1_4, hostOps1_5, hostOps1_6, hostOps1_7, hostOps1_8,
    List.flatten_cons, List.flatten_nil, List.append_nil, List.cons_append, List.nil_append]
  after_results_simp <;> rfl

set_option maxRecDepth 65536 in
set_option maxHeartbeats 4000000 in
/-- The fourth result: the largest gap. -/
theorem ktail_v20 : after ktail W (Proc.devRef .tc main_v20)
    = Cert.Tail.gapMax (kred (W (Proc.devRef .tc main_v2_0))) (kred (W (Proc.devRef .tc main_v2_1))) (kred (W (Proc.devRef .tc main_v2_2))) := by
  simp only [ktail, hostOps1, hostOps1_1, hostOps1_2, hostOps1_3, hostOps1_4, hostOps1_5, hostOps1_6, hostOps1_7, hostOps1_8,
    List.flatten_cons, List.flatten_nil, List.append_nil, List.cons_append, List.nil_append]
  after_results_simp <;> rfl
end Results

/-! ## A histogram read at an entry -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- Dropping the core and the lane of an index leaves its row. -/
theorem drop_ix3 (a : Fin 2) (r : Fin 16) (l : Fin 128) :
    reducesTo_S2x16x128_S16_d0_2.drop (ix3 a r l : S2x16x128.Idx) = (ix1 r : S16.Idx) :=
  funext fun b' => by
    obtain rfl : b' = 0 := Subsingleton.elim _ _
    exact Fin.ext (Shape.ReducesTo.drop_apply_val_of_eq reducesTo_S2x16x128_S16_d0_2 (ix3 a r l : S2x16x128.Idx) 0 1)

/-- Entry b of a histogram is the sum, over the two cores and the 128 lanes, of row b of the array. -/
theorem kred_apply (A : FVec Ideal S2x16x128 .f32) (b : Fin 10) :
    kred A (ix1 b) = ∑ c : Fin 2, ∑ l : Fin 128, A (ix3 c (⟨b.val, by omega⟩ : Fin 16) l) := by
  have hs : kred A (ix1 b) = Host.reduceAdd A (constant (F := Ideal) S_ .f32 0x00000000#32) reducesTo_S2x16x128_S16_d0_2 h_S_
      (ix1 (⟨b.val, by omega⟩ : Fin 16)) := by
    unfold kred
    exact extractStridedSlice_apply ![0] _ slices_S16_S10_0 (ix1 b) (ix1 (⟨b.val, by omega⟩ : Fin 16)) (fun a => by
      obtain rfl : a = 0 := Subsingleton.elim _ _
      exact (Nat.zero_add _).symm)
  rw [hs, hostReduceAdd_apply]
  show Ideal.hostReduceAdd reducesTo_S2x16x128_S16_d0_2 A (Ideal.ofBits .f32 0x00000000#32) _ = _
  unfold Ideal.hostReduceAdd
  rw [Ideal.ofBits_zero_f32, zero_add, Finset.sum_filter, sum_idx3]
  refine Finset.sum_congr rfl fun a _ => ?_
  rw [Finset.sum_eq_single (⟨b.val, by omega⟩ : Fin 16)]
  · exact Finset.sum_congr rfl fun l _ => by rw [drop_ix3, if_pos rfl]
  · intro r _ hr
    exact Finset.sum_eq_zero fun l _ => by rw [drop_ix3, if_neg (fun e => hr (congrFun e 0))]
  · intro h; exact absurd (Finset.mem_univ _) h

end Cert.KernelIdeal.KTail

end
-- ==== Proof.Claims.lean ====
/-
  The value claim: the idealized kernel and the idealized reference, run from memories that agree on the two
  arguments, end with the same four results.

  Both programs end with the same ten-entry arithmetic over three ten-entry histograms (counts, label sums,
  confidence sums), so it is enough that the histograms agree entry by entry. The reference's histogram at bin b is
  the sum over all 33,554,432 predictions of indicator(bin = b) times the summed quantity. The kernel's is the sum over
  the two runs c and the 128 lanes l of the output array at (c, b, l), which is the sum over the 32 points of the run
  and the 4096 rows of each block of the same term at prediction ((c * 32 + s) * 4096 + r) * 128 + l. The two are one
  sum re-indexed: addition on the extended reals is commutative and associative, and nothing else is used.
-/
import proofs.«166259_j43946105373039_2_alg».proof.Defs
import proofs.«166259_j43946105373039_2_alg».proof.Proof.Final
import proofs.«166259_j43946105373039_2_alg».proof.Proof.Blocks
import proofs.«166259_j43946105373039_2_alg».proof.Proof.Sums
import proofs.«166259_j43946105373039_2_alg».proof.Proof.RefRun
import proofs.«166259_j43946105373039_2_alg».proof.Proof.KernelTail
import proofs.«166259_j43946105373039_2_alg».proof.Proof.Tail
import proofs.«166259_j43946105373039_2_alg».proof.Proof.Gen.Pre_finite_inputs

set_option maxRecDepth 16384

noncomputable section

open scoped BigOperators

namespace Cert.Proof.Value

open Cert.KernelIdeal Cert.KernelIdeal.Gen Cert.KernelIdeal.Accum Cert.KernelIdeal.Final Cert.KernelIdeal.Blocks
open Cert.KernelIdeal.KTail Cert.Hist Cert.Tail
open Idealize.ShloMosaic Idealize.ShloMosaic.TcCoe Idealize.ShloMosaic.ValueIdx
open Idealize.SL Idealize.SL.Sem

variable (m : (ℓ : Loc nD τ sig) → Buf (Elt Ideal) ℓ)

set_option maxHeartbeats 1000000 in
/-- The tile of point n at (b, l), b < 10: the sum down the block's rows of the contributions of the predictions
    (n * 4096 + r) * 128 + l. -/
theorem T_apply (q : EReal → BitVec 32 → EReal) (c : Dev nD) (n : ℕ) (hn : n < 64) (b : Fin 16) (hb : b.val < 10) (l : Fin 128) :
    T m q c n (ix2 b l) = ∑ r : Fin 4096, contrib q (BitVec.ofNat 32 b.val)
      (atN (m ((c : Thread nD τ).loc main_arg0) : S33554432.Idx → EReal) ((n * 4096 + r.val) * 128 + l.val))
      (atN (m ((c : Thread nD τ).loc main_arg1) : S33554432.Idx → BitVec 32) ((n * 4096 + r.val) * 128 + l.val)) := by
  have hN : n < cfg0.N := by rw [show cfg0.N = 64 from N_0]; exact hn
  rw [T_of_lt m q c n hN]
  unfold tile
  rw [if_pos (show (ix2 b l 0).val < 10 from hb)]
  unfold colSum
  refine Finset.sum_congr rfl fun r _ => ?_
  show contrib q (BitVec.ofNat 32 b.val) ((iblk m c 0 ⟨n, hN⟩ : Vec Ideal S4096x128 .f32) (ix2 r l))
    ((iblk m c 1 ⟨n, hN⟩ : Vec Ideal S4096x128 .i32) (ix2 r l)) = _
  rw [iblk0_apply, iblk1_apply]

/-- THE HISTOGRAMS AGREE: the kernel's histogram of the quantity q at bin b — the output array summed over runs and
    lanes — is the sum over all predictions of their contributions to bin b. -/
theorem hist_eq (q : EReal → BitVec 32 → EReal) (c : Dev nD) (b : Fin 10) :
    kred (G m q c) (ix1 b) = ∑ n : Fin 33554432, contrib q (BitVec.ofNat 32 b.val)
      ((m ((c : Thread nD τ).loc main_arg0) : S33554432.Idx → EReal) (ix1 n))
      ((m ((c : Thread nD τ).loc main_arg1) : S33554432.Idx → BitVec 32) (ix1 n)) := by
  have hR : (∑ n : Fin 33554432, contrib q (BitVec.ofNat 32 b.val)
        ((m ((c : Thread nD τ).loc main_arg0) : S33554432.Idx → EReal) (ix1 n))
        ((m ((c : Thread nD τ).loc main_arg1) : S33554432.Idx → BitVec 32) (ix1 n)))
      = ∑ n : Fin 33554432, (fun p => contrib q (BitVec.ofNat 32 b.val)
        (atN (m ((c : Thread nD τ).loc main_arg0) : S33554432.Idx → EReal) p)
        (atN (m ((c : Thread nD τ).loc main_arg1) : S33554432.Idx → BitVec 32) p)) n.val :=
    Finset.sum_congr rfl fun n _ => by
      show _ = contrib q (BitVec.ofNat 32 b.val) (atN _ n.val) (atN _ n.val)
      rw [atN_val, atN_val]
  rw [hR]
  refine Eq.trans ?_ (Cert.Sums.regroup (fun p => contrib q (BitVec.ofNat 32 b.val)
    (atN (m ((c : Thread nD τ).loc main_arg0) : S33554432.Idx → EReal) p)
    (atN (m ((c : Thread nD τ).loc main_arg1) : S33554432.Idx → BitVec 32) p))).symm
  rw [kred_apply]
  refine Finset.sum_congr rfl fun c' _ => Finset.sum_congr rfl fun l _ => ?_
  have hc' := c'.isLt
  show ∑ s ∈ Finset.range (31 + 1), T m q c (c'.val * 32 + s) (ix2 (⟨b.val, by omega⟩ : Fin 16) l) = _
  refine Finset.sum_congr rfl fun s hs => ?_
  have hs' : s < 32 := Finset.mem_range.mp hs
  rw [T_apply m q c (c'.val * 32 + s) (by omega) ⟨b.val, by omega⟩ b.isLt l]

/-- The buffers as the region leaves them: the five arrays at what the run computes, every other buffer as the
    region found it. -/
def W (c : Dev nD) : Valuation τ sig (Elt Ideal) :=
  Pipeline.withArrays (cfgs 0).spec c (V0 m c) fun w => (dats m 0 c).arrAt w (cfgs 0).N

/-- The three output arrays there are the arrays of tile sums. -/
theorem W_out0 (c : Dev nD) : W m c (Proc.devRef .tc main_v2_0) = G m q0 c :=
  (Pipeline.withArrays_arr (cfgs 0).spec launch0.win.arr_inj c _ _ 2).trans (final2 m c)
theorem W_out1 (c : Dev nD) : W m c (Proc.devRef .tc main_v2_1) = G m q1 c :=
  (Pipeline.withArrays_arr (cfgs 0).spec launch0.win.arr_inj c _ _ 3).trans (final3 m c)
theorem W_out2 (c : Dev nD) : W m c (Proc.devRef .tc main_v2_2) = G m q2 c :=
  (Pipeline.withArrays_arr (cfgs 0).spec launch0.win.arr_inj c _ _ 4).trans (final4 m c)

/-- The host operations after the region leave main_v13 at the ten-entry arithmetic of the three histograms. -/
theorem tail_main_v13 (c : Dev nD) :
    Pipeline.afterTail₀ cfgs (dats m) 0 (V0 m) [hostOps1, hostOps1_1, hostOps1_2, hostOps1_3, hostOps1_4, hostOps1_5, hostOps1_6, hostOps1_7, hostOps1_8] c main_v13 = mean (kred (G m q0 c)) (kred (G m q1 c)) := by
  show StableHlo.after ktail (W m c) (Proc.devRef .tc main_v13) = _
  rw [ktail_v13, W_out0, W_out1]

/-- The host operations after the region leave main_v15 at the ten-entry arithmetic of the three histograms. -/
theorem tail_main_v15 (c : Dev nD) :
    Pipeline.afterTail₀ cfgs (dats m) 0 (V0 m) [hostOps1, hostOps1_1, hostOps1_2, hostOps1_3, hostOps1_4, hostOps1_5, hostOps1_6, hostOps1_7, hostOps1_8] c main_v15 = mean (kred (G m q0 c)) (kred (G m q2 c)) := by
  show StableHlo.after ktail (W m c) (Proc.devRef .tc main_v15) = _
  rw [ktail_v15, W_out0, W_out2]

/-- The host operations after the region leave main_v19 at the ten-entry arithmetic of the three histograms. -/
theorem tail_main_v19 (c : Dev nD) :
    Pipeline.afterTail₀ cfgs (dats m) 0 (V0 m) [hostOps1, hostOps1_1, hostOps1_2, hostOps1_3, hostOps1_4, hostOps1_5, hostOps1_6, hostOps1_7, hostOps1_8] c main_v19 = gapSum (kred (G m q0 c)) (kred (G m q1 c)) (kred (G m q2 c)) := by
  show StableHlo.after ktail (W m c) (Proc.devRef .tc main_v19) = _
  rw [ktail_v19, W_out0, W_out1, W_out2]

/-- The host operations after the region leave main_v20 at the ten-entry arithmetic of the three histograms. -/
theorem tail_main_v20 (c : Dev nD) :
    Pipeline.afterTail₀ cfgs (dats m) 0 (V0 m) [hostOps1, hostOps1_1, hostOps1_2, hostOps1_3, hostOps1_4, hostOps1_5, hostOps1_6, hostOps1_7, hostOps1_8] c main_v20 = gapMax (kred (G m q0 c)) (kred (G m q1 c)) (kred (G m q2 c)) := by
  show StableHlo.after ktail (W m c) (Proc.devRef .tc main_v20) = _
  rw [ktail_v20, W_out0, W_out1, W_out2]

/-- THE KERNEL'S RUN: every weakly fair execution terminates with the four results at the ten-entry arithmetic of the
    three histograms of the output arrays, the arguments unchanged. -/
theorem kernel_run (ρ : Dev nD → PrngReg) :
    θ_run (defs (F := Ideal)) (onTc (τ := τ) (main (F := Ideal))) ⟨m, fun _ => 0, ρ⟩ (fun r => ∀ c : Dev nD,
      r.2.mem ((c : Thread nD τ).loc main_v13) = mean (kred (G m q0 c)) (kred (G m q1 c))
      ∧ r.2.mem ((c : Thread nD τ).loc main_v15) = mean (kred (G m q0 c)) (kred (G m q2 c))
      ∧ r.2.mem ((c : Thread nD τ).loc main_v19) = gapSum (kred (G m q0 c)) (kred (G m q1 c)) (kred (G m q2 c))
      ∧ r.2.mem ((c : Thread nD τ).loc main_v20) = gapMax (kred (G m q0 c)) (kred (G m q1 c)) (kred (G m q2 c))
      ∧ r.2.mem ((c : Thread nD τ).loc main_arg0) = m ((c : Thread nD τ).loc main_arg0)
      ∧ r.2.mem ((c : Thread nD τ).loc main_arg1) = m ((c : Thread nD τ).loc main_arg1)) :=
  (θ_run defs _ _).mono (fun r h c =>
    ⟨((h c).2 main_v13 (Pipeline.mem_restRefs_of main_v13 (by decide) (by decide))).trans (tail_main_v13 m c),
     ((h c).2 main_v15 (Pipeline.mem_restRefs_of main_v15 (by decide) (by decide))).trans (tail_main_v15 m c),
     ((h c).2 main_v19 (Pipeline.mem_restRefs_of main_v19 (by decide) (by decide))).trans (tail_main_v19 m c),
     ((h c).2 main_v20 (Pipeline.mem_restRefs_of main_v20 (by decide) (by decide))).trans (tail_main_v20 m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

/-- The reference's three histograms are the kernel's, when the arguments agree. -/
theorem cnt_eq (c : Dev nD) (x0 : FVec Ideal Cert.ReferenceIdeal.S33554432 .f32)
    (h0 : x0 = m ((c : Thread nD τ).loc main_arg0)) : Cert.ReferenceIdeal.RefValue.cnt x0 = kred (G m q0 c) := by
  funext i
  obtain ⟨b, rfl⟩ : ∃ b : Fin 10, i = ix1 b := ⟨i 0, eq_ix1 i⟩
  rw [Cert.ReferenceIdeal.RefValue.cnt_apply, hist_eq m q0 c b, h0]
  exact Finset.sum_congr rfl fun n _ => rfl

theorem lab_eq (c : Dev nD) (x0 : FVec Ideal Cert.ReferenceIdeal.S33554432 .f32) (x1 : IVec Cert.ReferenceIdeal.S33554432 32)
    (h0 : x0 = m ((c : Thread nD τ).loc main_arg0)) (h1 : x1 = m ((c : Thread nD τ).loc main_arg1)) :
    Cert.ReferenceIdeal.RefValue.lab x0 x1 = kred (G m q1 c) := by
  funext i
  obtain ⟨b, rfl⟩ : ∃ b : Fin 10, i = ix1 b := ⟨i 0, eq_ix1 i⟩
  rw [Cert.ReferenceIdeal.RefValue.lab_apply, hist_eq m q1 c b, h0, h1]

theorem cnf_eq (c : Dev nD) (x0 : FVec Ideal Cert.ReferenceIdeal.S33554432 .f32)
    (h0 : x0 = m ((c : Thread nD τ).loc main_arg0)) : Cert.ReferenceIdeal.RefValue.cnf x0 = kred (G m q2 c) := by
  funext i
  obtain ⟨b, rfl⟩ : ∃ b : Fin 10, i = ix1 b := ⟨i 0, eq_ix1 i⟩
  rw [Cert.ReferenceIdeal.RefValue.cnf_apply, hist_eq m q2 c b, h0]
  exact Finset.sum_congr rfl fun n _ => rfl

/-- THE VALUE CLAIM: from memories that agree on the two arguments both programs run, the kernel to the ten-entry
    arithmetic of its three histograms and the reference to the same arithmetic of its own, and the histograms are
    equal entry by entry (one sum, re-indexed). -/
theorem algebraic : Cert.algebraic_KernelIdeal_ReferenceIdeal := by
  intro m ρ m' ρ' _ hagree
  refine ⟨_, _, _, _, kernel_run m ρ, ?_⟩
  refine (θ_run Cert.ReferenceIdeal.defs _ _).mono (fun r h c => ?_) (Cert.ReferenceIdeal.RefValue.run m' ρ')
  obtain ⟨h28, h30, h34, h35, ha0, ha1⟩ := h c
  have e0 := cnt_eq m c _ (hagree c).1
  have e1 := lab_eq m c _ _ (hagree c).1 (hagree c).2
  have e2 := cnf_eq m c _ (hagree c).1
  rw [e0, e1] at h28
  rw [e0, e2] at h30
  rw [e0, e1, e2] at h34 h35
  exact ⟨h28, h30, h34, h35, ha0, ha1⟩

end Cert.Proof.Value

end
-- ==== Proof.lean ====
/-
  The five claims of this certificate, assembled.

  The kernel bins 33,554,432 predictions by confidence into ten bins and accumulates, per bin, a count, the sum of the
  labels and the sum of the confidences, tile by tile on two cores; the reference does the same with three
  accumulating scatters. The two kernels' frames are the generated ones; the reference's frame is its run with the
  results dropped; the ideal pass rewrote nothing, so the idealization claim is trivial; the value claim is
  Proof/Claims.lean's: both programs apply one ten-entry arithmetic to histograms that are equal entry by entry,
  the kernel's tiled sums being the reference's sums over all predictions re-indexed.
-/
import proofs.«166259_j43946105373039_2_alg».proof.Defs
import proofs.«166259_j43946105373039_2_alg».proof.Proof.Gen.Kernel
import proofs.«166259_j43946105373039_2_alg».proof.Proof.Gen.Kernel.Skeleton
import proofs.«166259_j43946105373039_2_alg».proof.Proof.Gen.Kernel.Launch
import proofs.«166259_j43946105373039_2_alg».proof.Proof.Gen.Kernel.Points
import proofs.«166259_j43946105373039_2_alg».proof.Proof.Gen.Kernel.Frame
import proofs.«166259_j43946105373039_2_alg».proof.Proof.Gen.KernelIdeal
import proofs.«166259_j43946105373039_2_alg».proof.Proof.Gen.KernelIdeal.Skeleton
import proofs.«166259_j43946105373039_2_alg».proof.Proof.Gen.KernelIdeal.Launch
import proofs.«166259_j43946105373039_2_alg».proof.Proof.Gen.KernelIdeal.Points
import proofs.«166259_j43946105373039_2_alg».proof.Proof.Gen.KernelIdeal.Frame
import proofs.«166259_j43946105373039_2_alg».proof.Proof.Gen.ReferenceIdeal
import proofs.«166259_j43946105373039_2_alg».proof.Proof.Gen.Pre_finite_inputs
import proofs.«166259_j43946105373039_2_alg».proof.Proof.RefRun
import proofs.«166259_j43946105373039_2_alg».proof.Proof.Claims
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => ⟨(h c).2.2.2.2.1, (h c).2.2.2.2.2⟩)
    (Cert.ReferenceIdeal.RefValue.run m ρ)

theorem claim : Cert.Claim := ⟨Cert.Kernel.Gen.facts, Cert.KernelIdeal.Gen.facts, Cert.ReferenceIdeal.Gen.facts, Cert.Pre_finite_inputs.Gen.facts,
  frame_k, frame_ki, frame_ri, trivial, Cert.Proof.Value.algebraic⟩

end Cert.Proof

end
